-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S4096x768 : Shape := ⟨2, ![4096, 768]⟩
abbrev S768x768 : Shape := ⟨2, ![768, 768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S4096x768 : S_.BroadcastsInDim S4096x768 (![] : Fin 0 → Fin S4096x768.rank)
  reducesTo_S4096x768_S_d0_1 : S4096x768.ReducesTo [0, 1] S_
  bcast_S_S768x768 : S_.BroadcastsInDim S768x768 (![] : Fin 0 → Fin S768x768.rank)
  reducesTo_S768x768_S_d0_1 : S768x768.ReducesTo [0, 1] S_

variable [Facts]

def fn {F : FTy → Type} [FloatOps F] (main_arg0 : FVec F S32768x768 .f32) (main_arg1 : FVec F S4096x768 .f32) (main_arg2 : FVec F S768x768 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  main_v13
-- ==== Kernel.lean ====
abbrev S32768x768 : Shape := ⟨2, ![32768, 768]⟩
abbrev S4096x768 : Shape := ⟨2, ![4096, 768]⟩
abbrev S768x768 : Shape := ⟨2, ![768, 768]⟩
abbrev S1x768 : Shape := ⟨2, ![1, 768]⟩
abbrev S768 : Shape := ⟨1, ![768]⟩
abbrev S768x1 : Shape := ⟨2, ![768, 1]⟩
abbrev S1x4096 : Shape := ⟨2, ![1, 4096]⟩
abbrev S1 : Shape := ⟨1, ![1]⟩
abbrev S1x1 : Shape := ⟨2, ![1, 1]⟩
abbrev S2048x768 : Shape := ⟨2, ![2048, 768]⟩
abbrev S2048x1 : Shape := ⟨2, ![2048, 1]⟩

abbrev nBuf : Space → Nat
  | .hbm => 7
  | .vmem => 15
  | .smem => 0
  | _ => 0

abbrev bufTy : (tb : Table) → Fin (tcTables nBuf tb) → BufTy
  | .hbm, ⟨0, _⟩ => ⟨S32768x768, .f32⟩
  | .hbm, ⟨1, _⟩ => ⟨S4096x768, .f32⟩
  | .hbm, ⟨2, _⟩ => ⟨S768x768, .f32⟩
  | .hbm, ⟨3, _⟩ => ⟨S1x768, .f32⟩
  | .hbm, ⟨4, _⟩ => ⟨S1x768, .f32⟩
  | .hbm, ⟨5, _⟩ => ⟨S768x1, .f32⟩
  | .hbm, ⟨6, _⟩ => ⟨S1x768, .f32⟩
  | .local _ .vmem, ⟨0, _⟩ => ⟨S4096x768, .f32⟩
  | .local _ .vmem, ⟨1, _⟩ => ⟨S4096x768, .f32⟩
  | .local _ .vmem, ⟨2, _⟩ => ⟨S1x768, .f32⟩
  | .local _ .vmem, ⟨3, _⟩ => ⟨S1x768, .f32⟩
  | .local _ .vmem, ⟨4, _⟩ => ⟨S768x768, .f32⟩
  | .local _ .vmem, ⟨5, _⟩ => ⟨S4096x768, .f32⟩
  | .local _ .vmem, ⟨6, _⟩ => ⟨S1x768, .f32⟩
  | .local _ .vmem, ⟨7, _⟩ => ⟨S768x1, .f32⟩
  | .local _ .vmem, ⟨8, _⟩ => ⟨S2048x768, .f32⟩
  | .local _ .vmem, ⟨9, _⟩ => ⟨S2048x768, .f32⟩
  | .local _ .vmem, ⟨10, _⟩ => ⟨S768x1, .f32⟩
  | .local _ .vmem, ⟨11, _⟩ => ⟨S1x768, .f32⟩
  | .local _ .vmem, ⟨12, _⟩ => ⟨S1x1, .f32⟩
  | .local _ .vmem, ⟨13, _⟩ => ⟨S1x1, .f32⟩
  | .local _ .vmem, ⟨14, _⟩ => ⟨S1x768, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_scratch0 : Ref sig .tc := ⟨.vmem, 12, rfl⟩
abbrev cc2_scratch1 : Ref sig .tc := ⟨.vmem, 13, rfl⟩
abbrev cc2_scratch2 : Ref sig .tc := ⟨.vmem, 14, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc2_sem0_0 : DmaSem sig := 8
abbrev cc2_sem0_1 : DmaSem sig := 9
abbrev cc2_sem1_0 : DmaSem sig := 10
abbrev cc2_sem2_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

def k0_cond2 (i : grid0.Coords) : BitVec 1 :=
  let arg0 : BitVec 32 := BitVec.ofNat 32 (i 0).val
  let c0_i32_2 : BitVec 32 := 0#32
  let v6 : BitVec 1 := Scalar.cmpi .ne arg0 c0_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S768x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S768x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![16], ![false]⟩

def k2_cond2 (i : grid2.Coords) : BitVec 1 :=
  let arg0 : BitVec 32 := BitVec.ofNat 32 (i 0).val
  let c15_i32 : BitVec 32 := 15#32
  let v38 : BitVec 1 := Scalar.cmpi .eq arg0 c15_i32
  let v39 : BitVec 32 := Scalar.extui v38
  let c0_i32_21 : BitVec 32 := 0#32
  let v40 : BitVec 1 := Scalar.cmpi .ne v39 c0_i32_21
  v40

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2048x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  inb_S4096x768_S4096x768_0_0 : ∀ a, (![0, 0] : Fin 2 → Nat) a + S4096x768.size a ≤ S4096x768.size a
  h_S4096x768 : 0 < S4096x768.numel
  reduces_S4096x768_S768 : S4096x768.Reduces [0] S768
  shapeCasts_S768_S1x768 : S768.ShapeCasts S1x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S768x768_S768x768_0_0 : ∀ a, (![0, 0] : Fin 2 → Nat) a + S768x768.size a ≤ S768x768.size a
  h_S768x768 : 0 < S768x768.numel
  reduces_S1x4096_S1 : S1x4096.Reduces [1] S1
  shapeCasts_S1_S1x1 : S1.ShapeCasts S1x1
  broadcasts_S1x1_S1x4096 : S1x1.Broadcasts S1x4096
  bitsLt_bf16_f32 : FTy.bits .bf16 < FTy.bits .f32
  inb_S768x1_S768x1_0_0 : ∀ a, (![0, 0] : Fin 2 → Nat) a + S768x1.size a ≤ S768x1.size a
  h_S768x1 : 0 < S768x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x768_S2048x768_0_0 : ∀ a, (![0, 0] : Fin 2 → Nat) a + S2048x768.size a ≤ S2048x768.size a
  h_S2048x768 : 0 < S2048x768.numel
  shapeCasts_S768x1_S768x1 : S768x1.ShapeCasts S768x1
  reduces_S2048x1_S1 : S2048x1.Reduces [0] S1
  broadcasts_S1x1_S2048x1 : S1x1.Broadcasts S2048x1
  broadcasts_S1x1_S1x768 : S1x1.Broadcasts S1x768
  dot_S1x768_S768x768_S1x768_1_0_0_1_n_n_wf : DotDims.WF S1x768 S768x768 S1x768 [1] [0] [0] [1] [] []
  dot_S1x768_S4096x768_S1x4096_1_1_0_0_n_n_wf : DotDims.WF S1x768 S4096x768 S1x4096 [1] [1] [0] [0] [] []
  dot_S1x4096_S4096x768_S1x768_1_0_0_1_n_n_wf : DotDims.WF S1x4096 S4096x768 S1x768 [1] [0] [0] [1] [] []
  dot_S768x768_S1x768_S768x1_1_1_0_0_n_n_wf : DotDims.WF S768x768 S1x768 S768x1 [1] [1] [0] [0] [] []
  dot_S2048x768_S768x1_S2048x1_1_0_0_1_n_n_wf : DotDims.WF S2048x768 S768x1 S2048x1 [1] [0] [0] [1] [] []
  dot_S2048x1_S2048x768_S1x768_0_0_1_1_n_n_wf : DotDims.WF S2048x1 S2048x768 S1x768 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S32768x768.size a
  hwx0_0 : ∀ i : grid0.Coords, EltTy.bits .f32 = 32 ∨ (Rect.block (s := S32768x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768.size a ≤ S1x768.size a
  hwx0_1 : ∀ i : grid0.Coords, EltTy.bits .f32 = 32 ∨ (Rect.block (s := S1x768) S1x768.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x768.size a ≤ S1x768.size a
  hwx1_0 : ∀ i : grid1.Coords, EltTy.bits .f32 = 32 ∨ (Rect.block (s := S1x768) S1x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .f32 = 32 ∨ (Rect.block (s := S768x768) S768x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x768.size a ≤ S4096x768.size a
  hwx1_2 : ∀ i : grid1.Coords, EltTy.bits .f32 = 32 ∨ (Rect.block (s := S4096x768) S4096x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x768.size a ≤ S1x768.size a
  hwx1_3 : ∀ i : grid1.Coords, EltTy.bits .f32 = 32 ∨ (Rect.block (s := S1x768) S1x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S768x1.size a ≤ S768x1.size a
  hwx1_4 : ∀ i : grid1.Coords, EltTy.bits .f32 = 32 ∨ (Rect.block (s := S768x1) S768x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x768.size a ≤ S32768x768.size a
  hwx2_0 : ∀ i : grid2.Coords, EltTy.bits .f32 = 32 ∨ (Rect.block (s := S32768x768) S2048x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x1.size a ≤ S768x1.size a
  hwx2_1 : ∀ i : grid2.Coords, EltTy.bits .f32 = 32 ∨ (Rect.block (s := S768x1) S768x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)

variable [Facts₀]

def dot_S1x768_S768x768_S1x768_1_0_0_1_n_n : DotDims S1x768 S768x768 S1x768 where
  lhsContracting := [1]
  rhsContracting := [0]
  lhsNonContracting := [0]
  rhsNonContracting := [1]
  lhsBatch := []
  rhsBatch := []
  wf := dot_S1x768_S768x768_S1x768_1_0_0_1_n_n_wf
def dot_S1x768_S4096x768_S1x4096_1_1_0_0_n_n : DotDims S1x768 S4096x768 S1x4096 where
  lhsContracting := [1]
  rhsContracting := [1]
  lhsNonContracting := [0]
  rhsNonContracting := [0]
  lhsBatch := []
  rhsBatch := []
  wf := dot_S1x768_S4096x768_S1x4096_1_1_0_0_n_n_wf
def dot_S1x4096_S4096x768_S1x768_1_0_0_1_n_n : DotDims S1x4096 S4096x768 S1x768 where
  lhsContracting := [1]
  rhsContracting := [0]
  lhsNonContracting := [0]
  rhsNonContracting := [1]
  lhsBatch := []
  rhsBatch := []
  wf := dot_S1x4096_S4096x768_S1x768_1_0_0_1_n_n_wf
def dot_S768x768_S1x768_S768x1_1_1_0_0_n_n : DotDims S768x768 S1x768 S768x1 where
  lhsContracting := [1]
  rhsContracting := [1]
  lhsNonContracting := [0]
  rhsNonContracting := [0]
  lhsBatch := []
  rhsBatch := []
  wf := dot_S768x768_S1x768_S768x1_1_1_0_0_n_n_wf
def dot_S2048x768_S768x1_S2048x1_1_0_0_1_n_n : DotDims S2048x768 S768x1 S2048x1 where
  lhsContracting := [1]
  rhsContracting := [0]
  lhsNonContracting := [0]
  rhsNonContracting := [1]
  lhsBatch := []
  rhsBatch := []
  wf := dot_S2048x768_S768x1_S2048x1_1_0_0_1_n_n_wf
def dot_S2048x1_S2048x768_S1x768_0_0_1_1_n_n : DotDims S2048x1 S2048x768 S1x768 where
  lhsContracting := [0]
  rhsContracting := [0]
  lhsNonContracting := [1]
  rhsNonContracting := [1]
  lhsBatch := []
  rhsBatch := []
  wf := dot_S2048x1_S2048x768_S1x768_0_0_1_1_n_n_wf

abbrev win0_0 : Pipeline.Window sig grid0 :=
  Pipeline.Window.ofSpec (Memref.whole main_arg0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x768.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win1_0 : Pipeline.Window sig grid1 :=
  Pipeline.Window.ofSpec (Memref.whole main_v0) S1x768.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S4096x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1x768.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S768x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S2048x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S768x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x768.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S32768x768 : Shape := ⟨2, ![32768, 768]⟩
abbrev S4096x768 : Shape := ⟨2, ![4096, 768]⟩
abbrev S768x768 : Shape := ⟨2, ![768, 768]⟩
abbrev S_ : Shape := ⟨0, ![]⟩
abbrev S768 : Shape := ⟨1, ![768]⟩
abbrev S1x768 : Shape := ⟨2, ![1, 768]⟩
abbrev S768x4096 : Shape := ⟨2, ![768, 4096]⟩
abbrev S1x4096 : Shape := ⟨2, ![1, 4096]⟩
abbrev S1 : Shape := ⟨1, ![1]⟩
abbrev S1x1 : Shape := ⟨2, ![1, 1]⟩
abbrev S4096x1 : Shape := ⟨2, ![4096, 1]⟩
abbrev S768x1 : Shape := ⟨2, ![768, 1]⟩
abbrev S32768x1 : Shape := ⟨2, ![32768, 1]⟩

abbrev nBuf : Space → Nat
  | .hbm => 51
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S4096x768, .f32⟩
  | .hbm, ⟨2, _⟩ => ⟨S768x768, .f32⟩
  | .hbm, ⟨3, _⟩ => ⟨S_, .f32⟩
  | .hbm, ⟨4, _⟩ => ⟨S768, .f32⟩
  | .hbm, ⟨5, _⟩ => ⟨S1x768, .f32⟩
  | .hbm, ⟨6, _⟩ => ⟨S1x768, .f32⟩
  | .hbm, ⟨7, _⟩ => ⟨S768x4096, .f32⟩
  | .hbm, ⟨8, _⟩ => ⟨S1x4096, .f32⟩
  | .hbm, ⟨9, _⟩ => ⟨S_, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S1x1, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S_, .f32⟩
  | .hbm, ⟨19, _⟩ => ⟨S1, .f32⟩
  | .hbm, ⟨20, _⟩ => ⟨S1x1, .f32⟩
  | .hbm, ⟨21, _⟩ => ⟨S1x4096, .f32⟩
  | .hbm, ⟨22, _⟩ => ⟨S1x4096, .f32⟩
  | .hbm, ⟨23, _⟩ => ⟨S4096x1, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S768, .f32⟩
  | .hbm, ⟨28, _⟩ => ⟨S1x768, .f32⟩
  | .hbm, ⟨29, _⟩ => ⟨S32768x768, .f32⟩
  | .hbm, ⟨30, _⟩ => ⟨S768x1, .f32⟩
  | .hbm, ⟨31, _⟩ => ⟨S32768x1, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S1x1, .f32⟩
  | .hbm, ⟨38, _⟩ => ⟨S32768x1, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S1, .f32⟩
  | .hbm, ⟨43, _⟩ => ⟨S1x1, .f32⟩
  | .hbm, ⟨44, _⟩ => ⟨S32768x1, .f32⟩
  | .hbm, ⟨45, _⟩ => ⟨S32768x1, .f32⟩
  | .hbm, ⟨46, _⟩ => ⟨S32768x768, .f32⟩
  | .hbm, ⟨47, _⟩ => ⟨S32768x768, .f32⟩
  | .hbm, ⟨48, _⟩ => ⟨S_, .f32⟩
  | .hbm, ⟨49, _⟩ => ⟨S768, .f32⟩
  | .hbm, ⟨50, _⟩ => ⟨S1x768, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]

class Facts₀ : Prop where
  reducesTo_S32768x768_S768_d0 : S32768x768.ReducesTo [0] S768
  h_S_ : 0 < S_.numel
  bcast_S768_S1x768_1 : S768.BroadcastsInDim S1x768 (![1] : Fin 1 → Fin S1x768.rank)
  transposes_S4096x768_S768x4096_1_0 : S4096x768.Transposes [1, 0] S768x4096
  reducesTo_S1x4096_S1_d1 : S1x4096.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x4096_0_1 : S1x1.BroadcastsInDim S1x4096 (![0, 1] : Fin 2 → Fin S1x4096.rank)
  transposes_S1x4096_S4096x1_1_0 : S1x4096.Transposes [1, 0] S4096x1
  bcast_S4096x1_S4096x768_0_1 : S4096x1.BroadcastsInDim S4096x768 (![0, 1] : Fin 2 → Fin S4096x768.rank)
  reducesTo_S4096x768_S768_d0 : S4096x768.ReducesTo [0] S768
  transposes_S1x768_S768x1_1_0 : S1x768.Transposes [1, 0] S768x1
  reducesTo_S32768x1_S1_d0 : S32768x1.ReducesTo [0] S1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S32768x1_S32768x768_0_1 : S32768x1.BroadcastsInDim S32768x768 (![0, 1] : Fin 2 → Fin S32768x768.rank)
  dot_S1x768_S768x768_S1x768_1_0_0_1_n_n_wf : DotDims.WF S1x768 S768x768 S1x768 [1] [0] [0] [1] [] []
  dot_S1x768_S768x4096_S1x4096_1_0_0_1_n_n_wf : DotDims.WF S1x768 S768x4096 S1x4096 [1] [0] [0] [1] [] []
  dot_S32768x768_S768x768_S32768x768_1_0_0_1_n_n_wf : DotDims.WF S32768x768 S768x768 S32768x768 [1] [0] [0] [1] [] []
  dot_S32768x768_S768x1_S32768x1_1_0_0_1_n_n_wf : DotDims.WF S32768x768 S768x1 S32768x1 [1] [0] [0] [1] [] []

variable [Facts₀]

def dot_S1x768_S768x768_S1x768_1_0_0_1_n_n : DotDims S1x768 S768x768 S1x768 where
  lhsContracting := [1]
  rhsContracting := [0]
  lhsNonContracting := [0]
  rhsNonContracting := [1]
  lhsBatch := []
  rhsBatch := []
  wf := dot_S1x768_S768x768_S1x768_1_0_0_1_n_n_wf
def dot_S1x768_S768x4096_S1x4096_1_0_0_1_n_n : DotDims S1x768 S768x4096 S1x4096 where
  lhsContracting := [1]
  rhsContracting := [0]
  lhsNonContracting := [0]
  rhsNonContracting := [1]
  lhsBatch := []
  rhsBatch := []
  wf := dot_S1x768_S768x4096_S1x4096_1_0_0_1_n_n_wf
def dot_S32768x768_S768x768_S32768x768_1_0_0_1_n_n : DotDims S32768x768 S768x768 S32768x768 where
  lhsContracting := [1]
  rhsContracting := [0]
  lhsNonContracting := [0]
  rhsNonContracting := [1]
  lhsBatch := []
  rhsBatch := []
  wf := dot_S32768x768_S768x768_S32768x768_1_0_0_1_n_n_wf
def dot_S32768x768_S768x1_S32768x1_1_0_0_1_n_n : DotDims S32768x768 S768x1 S32768x1 where
  lhsContracting := [1]
  rhsContracting := [0]
  lhsNonContracting := [0]
  rhsNonContracting := [1]
  lhsBatch := []
  rhsBatch := []
  wf := dot_S32768x768_S768x1_S32768x1_1_0_0_1_n_n_wf

class Facts : Prop extends Facts₀ where

variable [Facts]
-- ==== Proof.FrR0Bits.lean ====
import proofs.«117598_j62775241999269_2_alg».proof.Proof.Gen.Kernel.Launch
import proofs.«117598_j62775241999269_2_alg».proof.Proof.Gen.Kernel.Skeleton
import proofs.«117598_j62775241999269_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first kernel: the running column maximum over 8 blocks of rows

The region's proof data at a parameter `V` — the buffer contents when the region is entered. The output block is
the same at every grid point and is written back once, after the last point; between points its staging buffer
keeps what the body left, which the next point reads: the maximum so far. -/

section R0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S4096x768 := Rect.unit (s := S4096x768) ![0, 0] S4096x768.size inb_S4096x768_S4096x768_0_0
abbrev rq0 : Rect S1x768 := Rect.unit (s := S1x768) ![0, 0] S1x768.size inb_S1x768_S1x768_0_0

theorem cover0 (p0 : Vec F S1x768 .f32) (y : S1x768.Idx) :
    ∃ pc ∈ ([⟨rq0, p0⟩] : List (View.Piece (Elt F) S1x768 .f32)), y ∈ pc.1.set :=
  View.cover_of_tiled [⟨rq0, p0⟩] S1x768.size (by rfl) y

/-- The first branch is taken exactly at the first point, the second exactly at the others. -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two branches stores at every point: the output window is never idle. -/
theorem live_aux (a : BitVec 32) :
    (!(Scalar.cmpi .ne (Scalar.extui (Scalar.cmpi .eq a 0#32) : BitVec 32) 0#32 == 1#1)
      && !(Scalar.cmpi .ne (Scalar.extui (Scalar.cmpi .ne a 0#32) : BitVec 32) 0#32 == 1#1)) = false := by
  by_cases h : a = 0#32
  · subst h; decide
  · have hb : (a == 0#32) = false := by simpa using h
    have hb' : (a != 0#32) = true := by simp [bne, hb]
    simp only [Scalar.cmpi, IntOp.cmpi, hb, hb', Scalar.extui]
    decide
theorem live0_1 (i : grid0.Coords) : cfg0.idle 1 i = false := by
  show (!(k0_cond1 i == 1#1) && !(k0_cond2 i == 1#1)) = false
  exact live_aux _

set_option maxHeartbeats 1000000 in
/-- At the first point the body stores the block's column maximum. -/
theorem sound_kernel0_first (c : Dev nD) (E : Set ℕ) (i : grid0.Coords) (h1 : k0_cond1 i = 1#1) (h2 : ¬ k0_cond2 i = 1#1)
    (arg1 : Memref sig .tc .vmem S4096x768 .f32) (harg1 : arg1.IsWhole) (arg2 : Memref sig .tc .vmem S1x768 .f32) (harg2 : arg2.IsWhole)
    (x0 : Vec F S4096x768 .f32) (K : PUnit → sProp 𝕄) :
    iprop(owns (c : Thread nD τ) arg1 fullShare x0 ∗ (∃ d, owns (c : Thread nD τ) arg2 fullShare d)
        ∗ (iprop(owns (c : Thread nD τ) arg1 fullShare x0
            ∗ owns (c : Thread nD τ) arg2 fullShare (View.canon [⟨rq0, k0_pay1 (View.ld x0 rx0)⟩])) -∗ K ⟨⟩))
      ⊢ wp frame (wpE (defs₀ (F := F)) Variants.none c none) E (cc0__max_kernel i arg1 harg1 arg2 harg2) K := by
  simp only [cc0__max_kernel_eq_skeleton]; unfold cc0__max_kernel_skel
  unfold owns
  iintro ⟨⟨%f0, %hf0, H0⟩, ⟨%d1, %f1, -, H1⟩, Hk⟩
  subst hf0
  sl_exec (disch := first | exact h1 | exact h2)
  sl_step
  iapply Hk
  isplitl [H0]
  · iexists f0; isplitr; · ipureintro; rfl
    iexact H0
  iexists _; isplitr
  swap; · iexact H1
  ipureintro
  exact View.read_writes_eq_canon _ _ _ (cover0 _)

set_option maxHeartbeats 1000000 in
/-- At a later point the body stores the maximum of what the buffer held and the block's column maximum. -/
theorem sound_kernel0_next (c : Dev nD) (E : Set ℕ) (i : grid0.Coords) (h1 : ¬ k0_cond1 i = 1#1) (h2 : k0_cond2 i = 1#1)
    (arg1 : Memref sig .tc .vmem S4096x768 .f32) (harg1 : arg1.IsWhole) (arg2 : Memref sig .tc .vmem S1x768 .f32) (harg2 : arg2.IsWhole)
    (x0 : Vec F S4096x768 .f32) (o : Vec F S1x768 .f32) (K : PUnit → sProp 𝕄) :
    iprop(owns (c : Thread nD τ) arg1 fullShare x0 ∗ owns (c : Thread nD τ) arg2 fullShare o
        ∗ (iprop(owns (c : Thread nD τ) arg1 fullShare x0
            ∗ owns (c : Thread nD τ) arg2 fullShare (View.canon [⟨rq0, k0_pay2 (View.ld x0 rx0) (View.ld o rq0)⟩])) -∗ K ⟨⟩))
      ⊢ wp frame (wpE (defs₀ (F := F)) Variants.none c none) E (cc0__max_kernel i arg1 harg1 arg2 harg2) K := by
  simp only [cc0__max_kernel_eq_skeleton]; unfold cc0__max_kernel_skel
  unfold owns
  iintro ⟨⟨%f0, %hf0, H0⟩, ⟨%f1, %hf1, H1⟩, Hk⟩
  subst hf0; subst hf1
  sl_exec (disch := first | exact h1 | exact h2)
  sl_step
  iapply Hk
  isplitl [H0]
  · iexists f0; isplitr; · ipureintro; rfl
    iexact H0
  iexists _; isplitr
  swap; · iexact H1
  ipureintro
  exact View.read_writes_eq_canon _ _ _ (cover0 _)

/-- What the output's staging buffer holds after the body at position `n`: the running column maximum. -/
def acc0 (c : Dev nD) : (n : ℕ) → n < cfg0.N → Vec F S1x768 .f32
  | 0, h => View.canon [⟨rq0, k0_pay1 (View.ld (iblk0 V c 0 ⟨0, h⟩) rx0)⟩]
  | n + 1, h => View.canon [⟨rq0, k0_pay2 (View.ld (iblk0 V c 0 ⟨n + 1, h⟩) rx0) (View.ld (acc0 c n (Nat.lt_of_succ_lt h)) rq0)⟩]

theorem acc0_zero (c : Dev nD) (t : Fin cfg0.N) (h : t.val = 0) :
    acc0 V c t.val t.isLt = View.canon [⟨rq0, k0_pay1 (View.ld (iblk0 V c 0 t) rx0)⟩] := by
  obtain ⟨n, hn⟩ := t
  cases n with
  | zero => rfl
  | succ n => exact absurd h (Nat.succ_ne_zero n)

theorem acc0_pos (c : Dev nD) (t : Fin cfg0.N) (h : t.val ≠ 0) :
    acc0 V c t.val t.isLt = View.canon [⟨rq0, k0_pay2 (View.ld (iblk0 V c 0 t) rx0)
      (View.ld (acc0 V c (t.val - 1) (Nat.lt_of_le_of_lt (Nat.sub_le _ _) t.isLt)) rq0)⟩] := by
  obtain ⟨n, hn⟩ := t
  cases n with
  | zero => exact absurd rfl h
  | succ n => rfl

/-- The proof data: the arrays as the region finds them; the input's buffer at its block; the output's at the
    running maximum; the invariant the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- After the first point the output's buffer holds what the point before left: nothing is written back in between. -/
theorem before0_1 (c : Dev nD) (t : Fin cfg0.N) (ht : t.val ≠ 0) (d) :
    (dat0 V c).before 1 t d = acc0 V c (t.val - 1) (Nat.lt_of_le_of_lt (Nat.sub_le _ _) t.isLt) := by
  have hN : t.val < 8 := lt_of_lt_of_eq t.isLt (show cfg0.N = 8 from N_0)
  have hfl : (cfg0.win 1).flush ⟨t.val - 1, Nat.lt_of_le_of_lt (Nat.sub_le _ _) t.isLt⟩ = false := by
    rw [Bool.eq_false_iff]; intro hf
    have := (flush0_1 ⟨t.val - 1, Nat.lt_of_le_of_lt (Nat.sub_le _ _) t.isLt⟩).mp hf
    dsimp only at this; omega
  rw [(dat0 V c).before_out_kept 1 rfl t ht hfl live0_1 (fun _ _ => rfl) d, after0_1]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare ((dat0 V c).after 0 t) from rfl, after0_0]
  rw [show (dat0 V c).leavesExact 1 t = owns (c : Thread nD τ) (st0_1 t) fullShare ((dat0 V c).after 1 t) from by
    unfold Dat.leavesExact; rw [live0_1], after0_1]
  by_cases hz : t.val = 0
  · rw [acc0_zero V c t hz]
    iintro ⟨HΦ, Ho, ⟨%d0, H0⟩, ⟨%d1, H1⟩⟩
    iapply (sound_kernel0_first c Set.univ (grid0.coords t) ((hcond0_1 t).mpr hz) (fun h => ((hcond0_2 t).mp h) hz) _ _ _ _ (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [acc0_pos V c t hz]
    simp only [before0_1 V c t hz]
    iintro ⟨HΦ, Ho, ⟨%d0, H0⟩, ⟨%d1, H1⟩⟩
    iapply (sound_kernel0_next c Set.univ (grid0.coords t) (fun h => hz ((hcond0_1 t).mp h)) ((hcond0_2 t).mpr hz) _ _ _ _ (iblk0 V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

theorem body_obligation0 (c : Dev nD) : BodyObligation (dat0 (F := F) V c) (defs₀ (F := F)) Variants.none () Set.univ := fun t => by
  rw [bigSep_W0, bigSep_W0]
  exact sound_body0 V c t

end R0

end Cert.Kernel.Fr

end
-- ==== Proof.FrR1Bits.lean ====
import proofs.«117598_j62775241999269_2_alg».proof.Proof.Gen.Kernel.Launch
import proofs.«117598_j62775241999269_2_alg».proof.Proof.Gen.Kernel.Skeleton
import proofs.«117598_j62775241999269_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second kernel (one grid point): every window is its whole array

The region's proof data at a parameter `V` — the buffer contents when the region is entered. The body reads the column
maxima, the weights and the elements and stores the pooled row and the vector `v`. -/

section R1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rq : Rect S1x768 := Rect.unit (s := S1x768) ![0, 0] S1x768.size inb_S1x768_S1x768_0_0
abbrev rw_ : Rect S768x768 := Rect.unit (s := S768x768) ![0, 0] S768x768.size inb_S768x768_S768x768_0_0
abbrev re : Rect S4096x768 := Rect.unit (s := S4096x768) ![0, 0] S4096x768.size inb_S4096x768_S4096x768_0_0
abbrev rv : Rect S768x1 := Rect.unit (s := S768x1) ![0, 0] S768x1.size inb_S768x1_S768x1_0_0

/-- What the body leaves in the pooled-row output buffer. -/
def out1_3 (x0 : Vec F S1x768 .f32) (x1 : Vec F S768x768 .f32) (x2 : Vec F S4096x768 .f32) : Vec F S1x768 .f32 :=
  View.canon [⟨rq, k1_pay1 (View.ld x0 rq) (View.ld x1 rw_) (View.ld x2 re)⟩]
/-- What the body leaves in the `v` output buffer. -/
def out1_4 (x0 : Vec F S1x768 .f32) (x1 : Vec F S768x768 .f32) (x2 : Vec F S4096x768 .f32) : Vec F S768x1 .f32 :=
  View.canon [⟨rv, k1_pay2 (View.ld x0 rq) (View.ld x1 rw_) (View.ld x2 re)⟩]

theorem cover1_3 (p0 : Vec F S1x768 .f32) (y : S1x768.Idx) :
    ∃ pc ∈ ([⟨rq, p0⟩] : List (View.Piece (Elt F) S1x768 .f32)), y ∈ pc.1.set :=
  View.cover_of_tiled [⟨rq, p0⟩] S1x768.size (by rfl) y
theorem cover1_4 (p0 : Vec F S768x1 .f32) (y : S768x1.Idx) :
    ∃ pc ∈ ([⟨rv, p0⟩] : List (View.Piece (Elt F) S768x1 .f32)), y ∈ pc.1.set :=
  View.cover_of_tiled [⟨rv, p0⟩] S768x1.size (by rfl) y

set_option maxHeartbeats 1000000 in
theorem sound_kernel1 (c : Dev nD) (E : Set ℕ) (i : grid1.Coords)
    (arg1 : Memref sig .tc .vmem S1x768 .f32) (harg1 : arg1.IsWhole) (arg2 : Memref sig .tc .vmem S768x768 .f32) (harg2 : arg2.IsWhole)
    (arg3 : Memref sig .tc .vmem S4096x768 .f32) (harg3 : arg3.IsWhole) (arg4 : Memref sig .tc .vmem S1x768 .f32) (harg4 : arg4.IsWhole)
    (arg5 : Memref sig .tc .vmem S768x1 .f32) (harg5 : arg5.IsWhole)
    (x0 : Vec F S1x768 .f32) (x1 : Vec F S768x768 .f32) (x2 : Vec F S4096x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__pool_elements_kernel i arg1 harg1 arg2 harg2 arg3 harg3 arg4 harg4 arg5 harg5) K := by
  simp only [cc1__pool_elements_kernel_eq_skeleton]; unfold cc1__pool_elements_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-- The proof data: the arrays as the region finds them; each input's buffer at its block; the outputs' at the body's
    two results; the invariant the scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end R1

end Cert.Kernel.Fr

end
-- ==== Proof.FrK2Bits.lean ====
import proofs.«117598_j62775241999269_2_alg».proof.Proof.Gen.Kernel.Launch
import proofs.«117598_j62775241999269_2_alg».proof.Proof.Gen.Kernel.Skeleton
import proofs.«117598_j62775241999269_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The third kernel: its body on whole staging buffers and scratch, in its three control cases -/

/-- The first branch's condition (taken at the first grid point only). -/
abbrev cFirst (i : grid2.Coords) : Prop := (Scalar.cmpi .ne (Scalar.extui (Scalar.cmpi .eq (BitVec.ofNat 32 (i 0).val) 0#32)) 0#32) = 1#1

theorem hz2 : (![0, 0] : Fin 2 → Nat) = fun _ => 0 := by funext a; fin_cases a <;> rfl

abbrev r11 : Rect S1x1 := Rect.unit (s := S1x1) ![0, 0] S1x1.size inb_S1x1_S1x1_0_0
abbrev r1h : Rect S1x768 := Rect.unit (s := S1x768) ![0, 0] S1x768.size inb_S1x768_S1x768_0_0
theorem cover11 (p0 : Vec F S1x1 .f32) (y : S1x1.Idx) :
    ∃ pc ∈ ([⟨r11, p0⟩] : List (View.Piece (Elt F) S1x1 .f32)), y ∈ pc.1.set :=
  View.cover_of_tiled [⟨r11, p0⟩] S1x1.size (by rfl) y
theorem cover1h (p0 : Vec F S1x768 .f32) (y : S1x768.Idx) :
    ∃ pc ∈ ([⟨r1h, p0⟩] : List (View.Piece (Elt F) S1x768 .f32)), y ∈ pc.1.set :=
  View.cover_of_tiled [⟨r1h, p0⟩] S1x768.size (by rfl) y
theorem cover11_cons (p0 : Vec F S1x1 .f32) (L : List (View.Piece (Elt F) S1x1 .f32)) (y : S1x1.Idx) :
    ∃ pc ∈ ((⟨r11, p0⟩ : View.Piece (Elt F) S1x1 .f32) :: L), y ∈ pc.1.set := by
  obtain ⟨pc, hpc, hy⟩ := cover11 p0 y
  rw [List.mem_singleton] at hpc; subst hpc
  exact ⟨_, List.mem_cons_self, hy⟩
theorem cover1h_cons (p0 : Vec F S1x768 .f32) (L : List (View.Piece (Elt F) S1x768 .f32)) (y : S1x768.Idx) :
    ∃ pc ∈ ((⟨r1h, p0⟩ : View.Piece (Elt F) S1x768 .f32) :: L), y ∈ pc.1.set := by
  obtain ⟨pc, hpc, hy⟩ := cover1h p0 y
  rw [List.mem_singleton] at hpc; subst hpc
  exact ⟨_, List.mem_cons_self, hy⟩

/-- A load through a whole rectangle at zero offsets reads the buffer's contents. -/
macro "whole_loads" : tactic => `(tactic| simp only [View.readCov_unit_zero (S := S1x1) _ hz2, View.readCov_unit_zero (S := S1x768) _ hz2, View.readAt_eq_ld, View.ld_unit_zero (S := S2048x768) hz2,
  View.ld_unit_zero (S := S768x1) hz2, View.ld_unit_zero (S := S1x1) hz2, View.ld_unit_zero (S := S1x768) hz2])

set_option maxHeartbeats 2000000 in
/-- The first point: the scratch starts from (−∞, 0, 0) and takes one block's update; the output buffer is untouched. -/
theorem sound_kernel2_A (c : Dev nD) (E : Set ℕ) (i : grid2.Coords) (h1 : cFirst i) (h2 : ¬ k2_cond2 i = 1#1)
    (arg1 : Memref sig .tc .vmem S2048x768 .f32) (harg1 : arg1.IsWhole) (arg2 : Memref sig .tc .vmem S768x1 .f32) (harg2 : arg2.IsWhole)
    (arg3 : Memref sig .tc .vmem S1x768 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x768 .f32) (harg6 : arg6.IsWhole)
    (x0 : Vec F S2048x768 .f32) (x1 : Vec F S768x1 .f32) (X : Vec F S1x768 .f32) (K : PUnit → sProp 𝕄) :
    iprop(owns (c : Thread nD τ) arg1 fullShare x0 ∗ owns (c : Thread nD τ) arg2 fullShare x1 ∗ owns (c : Thread nD τ) arg3 fullShare X
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare X
            ∗ owns (c : Thread nD τ) arg4 fullShare (k2_pay1 (k2_pay7 x0 x1 k2_pay3))
            ∗ owns (c : Thread nD τ) arg5 fullShare (k2_pay10 x0 x1 k2_pay3 k2_pay3 k2_pay4)
            ∗ owns (c : Thread nD τ) arg6 fullShare (k2_pay11 x0 x1 k2_pay3 k2_pay3 k2_pay5)) -∗ K ⟨⟩))
      ⊢ wp frame (wpE (defs₀ (F := F)) Variants.none c none) E (cc2__fact_pool_kernel i arg1 harg1 arg2 harg2 arg3 harg3 arg4 harg4 arg5 harg5 arg6 harg6) K := by
  simp only [cc2__fact_pool_kernel_eq_skeleton]; unfold cc2__fact_pool_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    (try sl_unfold_run_names)
    refine (View.read_writes_eq_canon _ _ _ (cover11_cons _ _)).trans ?_
    rw [View.canon_cons_unit_zero hz2]
    (try sl_unfold_run_names)
    whole_loads
    try rfl
  isplitl [H4]
  · iexists _; isplitr
    swap; · iexact H4
    ipureintro
    (try sl_unfold_run_names)
    refine (View.read_writes_eq_canon _ _ _ (cover11_cons _ _)).trans ?_
    rw [View.canon_cons_unit_zero hz2]
    (try sl_unfold_run_names)
    whole_loads
    try rfl
  iexists _; isplitr
  swap; · iexact H5
  ipureintro
  (try sl_unfold_run_names)
  refine (View.read_writes_eq_canon _ _ _ (cover1h_cons _ _)).trans ?_
  rw [View.canon_cons_unit_zero hz2]
  (try sl_unfold_run_names)
  whole_loads
  try rfl

set_option maxHeartbeats 2000000 in
/-- A middle point: the scratch takes one block's update; the output buffer is untouched. -/
theorem sound_kernel2_B (c : Dev nD) (E : Set ℕ) (i : grid2.Coords) (h1 : ¬ cFirst i) (h2 : ¬ k2_cond2 i = 1#1)
    (arg1 : Memref sig .tc .vmem S2048x768 .f32) (harg1 : arg1.IsWhole) (arg2 : Memref sig .tc .vmem S768x1 .f32) (harg2 : arg2.IsWhole)
    (arg3 : Memref sig .tc .vmem S1x768 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x768 .f32) (harg6 : arg6.IsWhole)
    (x0 : Vec F S2048x768 .f32) (x1 : Vec F S768x1 .f32) (X : Vec F S1x768 .f32)
    (sm sl : Vec F S1x1 .f32) (sa : Vec F S1x768 .f32) (K : PUnit → sProp 𝕄) :
    iprop(owns (c : Thread nD τ) arg1 fullShare x0 ∗ owns (c : Thread nD τ) arg2 fullShare x1 ∗ owns (c : Thread nD τ) arg3 fullShare X
        ∗ owns (c : Thread nD τ) arg4 fullShare sm ∗ owns (c : Thread nD τ) arg5 fullShare sl ∗ owns (c : Thread nD τ) arg6 fullShare sa
        ∗ (iprop(owns (c : Thread nD τ) arg1 fullShare x0 ∗ owns (c : Thread nD τ) arg2 fullShare x1 ∗ owns (c : Thread nD τ) arg3 fullShare X
            ∗ owns (c : Thread nD τ) arg4 fullShare (k2_pay1 (k2_pay7 x0 x1 sm))
            ∗ owns (c : Thread nD τ) arg5 fullShare (k2_pay10 x0 x1 sm sm sl)
            ∗ owns (c : Thread nD τ) arg6 fullShare (k2_pay11 x0 x1 sm sm sa)) -∗ K ⟨⟩))
      ⊢ wp frame (wpE (defs₀ (F := F)) Variants.none c none) E (cc2__fact_pool_kernel i arg1 harg1 arg2 harg2 arg3 harg3 arg4 harg4 arg5 harg5 arg6 harg6) K := by
  simp only [cc2__fact_pool_kernel_eq_skeleton]; unfold cc2__fact_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    (try sl_unfold_run_names)
    refine (View.read_writes_eq_canon _ _ _ (cover11 _)).trans ?_
    rw [View.canon_unit_zero hz2]
    (try sl_unfold_run_names)
    whole_loads
    try rfl
  isplitl [H4]
  · iexists _; isplitr
    swap; · iexact H4
    ipureintro
    (try sl_unfold_run_names)
    refine (View.read_writes_eq_canon _ _ _ (cover11 _)).trans ?_
    rw [View.canon_unit_zero hz2]
    (try sl_unfold_run_names)
    whole_loads
    try rfl
  iexists _; isplitr
  swap; · iexact H5
  ipureintro
  (try sl_unfold_run_names)
  refine (View.read_writes_eq_canon _ _ _ (cover1h _)).trans ?_
  rw [View.canon_unit_zero hz2]
  (try sl_unfold_run_names)
  whole_loads
  try rfl

set_option maxHeartbeats 2000000 in
/-- The last point: the scratch takes one block's update, and the output buffer receives the weighted sum divided by
    the sum of weights. -/
theorem sound_kernel2_C (c : Dev nD) (E : Set ℕ) (i : grid2.Coords) (h1 : ¬ cFirst i) (h2 : k2_cond2 i = 1#1)
    (arg1 : Memref sig .tc .vmem S2048x768 .f32) (harg1 : arg1.IsWhole) (arg2 : Memref sig .tc .vmem S768x1 .f32) (harg2 : arg2.IsWhole)
    (arg3 : Memref sig .tc .vmem S1x768 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x768 .f32) (harg6 : arg6.IsWhole)
    (x0 : Vec F S2048x768 .f32) (x1 : Vec F S768x1 .f32) (X : Vec F S1x768 .f32)
    (sm sl : Vec F S1x1 .f32) (sa : Vec F S1x768 .f32) (K : PUnit → sProp 𝕄) :
    iprop(owns (c : Thread nD τ) arg1 fullShare x0 ∗ owns (c : Thread nD τ) arg2 fullShare x1 ∗ owns (c : Thread nD τ) arg3 fullShare X
        ∗ owns (c : Thread nD τ) arg4 fullShare sm ∗ owns (c : Thread nD τ) arg5 fullShare sl ∗ owns (c : Thread nD τ) arg6 fullShare sa
        ∗ (iprop(owns (c : Thread nD τ) arg1 fullShare x0 ∗ owns (c : Thread nD τ) arg2 fullShare x1
            ∗ owns (c : Thread nD τ) arg3 fullShare (k2_pay2 (k2_pay11 x0 x1 sm sm sa) (k2_pay10 x0 x1 sm sm sl))
            ∗ owns (c : Thread nD τ) arg4 fullShare (k2_pay1 (k2_pay7 x0 x1 sm))
            ∗ owns (c : Thread nD τ) arg5 fullShare (k2_pay10 x0 x1 sm sm sl)
            ∗ owns (c : Thread nD τ) arg6 fullShare (k2_pay11 x0 x1 sm sm sa)) -∗ K ⟨⟩))
      ⊢ wp frame (wpE (defs₀ (F := F)) Variants.none c none) E (cc2__fact_pool_kernel i arg1 harg1 arg2 harg2 arg3 harg3 arg4 harg4 arg5 harg5 arg6 harg6) K := by
  simp only [cc2__fact_pool_kernel_eq_skeleton]; unfold cc2__fact_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    (try sl_unfold_run_names)
    refine (View.read_writes_eq_canon _ _ _ (cover1h _)).trans ?_
    rw [View.canon_unit_zero hz2]
    (try sl_unfold_run_names)
    whole_loads
    try rfl
  isplitl [H3]
  · iexists _; isplitr
    swap; · iexact H3
    ipureintro
    (try sl_unfold_run_names)
    refine (View.read_writes_eq_canon _ _ _ (cover11 _)).trans ?_
    rw [View.canon_unit_zero hz2]
    (try sl_unfold_run_names)
    whole_loads
    try rfl
  isplitl [H4]
  · iexists _; isplitr
    swap; · iexact H4
    ipureintro
    (try sl_unfold_run_names)
    refine (View.read_writes_eq_canon _ _ _ (cover11 _)).trans ?_
    rw [View.canon_unit_zero hz2]
    (try sl_unfold_run_names)
    whole_loads
    try rfl
  iexists _; isplitr
  swap; · iexact H5
  ipureintro
  (try sl_unfold_run_names)
  refine (View.read_writes_eq_canon _ _ _ (cover1h _)).trans ?_
  rw [View.canon_unit_zero hz2]
  (try sl_unfold_run_names)
  whole_loads
  try rfl

end Cert.Kernel.Fr

end
-- ==== Proof.FrR2Bits.lean ====
import proofs.«117598_j62775241999269_2_alg».proof.Proof.FrK2Bits
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The third kernel: the running state over 16 blocks of rows

The region's proof data at a parameter `V` — the buffer contents when the region is entered. The three scratch buffers
carry the state (running maximum, running sum of weights, running weighted sum of rows) from one grid point to the
next; the output block is stored at the last point only and written back there. -/

section R2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The branch conditions, decided over the grid: the first branch at the first point, the last at the last. -/
theorem hcond2_first : ∀ t : Fin cfg2.N, cFirst (grid2.coords t) ↔ t.val = 0 :=
  (by decide +kernel : ∀ t : Fin grid2.N, cFirst (grid2.coords t) ↔ t.val = 0)
theorem hcond2_last : ∀ t : Fin cfg2.N, k2_cond2 (grid2.coords t) = 1#1 ↔ t.val = 15 :=
  (by decide +kernel : ∀ t : Fin grid2.N, k2_cond2 (grid2.coords t) = 1#1 ↔ t.val = 15)
/-- The output window is idle except at the last point, where alone its block is written back. -/
theorem idleAt2 : ∀ t : Fin cfg2.N, t.val ≠ 15 → cfg2.idle 2 (grid2.coords t) = true :=
  (by decide +kernel : ∀ t : Fin grid2.N, t.val ≠ 15 → cfg2.idle 2 (grid2.coords t) = true)
theorem liveAt2 : ∀ t : Fin cfg2.N, t.val = 15 → cfg2.idle 2 (grid2.coords t) = false :=
  (by decide +kernel : ∀ t : Fin grid2.N, t.val = 15 → cfg2.idle 2 (grid2.coords t) = false)

/-- The scratch operands: whole scoped buffers of the kernel's own. -/
abbrev scM0 : Memref sig .tc .vmem S1x1 .f32 := Memref.whole cc2_scratch0
abbrev scM1 : Memref sig .tc .vmem S1x1 .f32 := Memref.whole cc2_scratch1
abbrev scM2 : Memref sig .tc .vmem S1x768 .f32 := Memref.whole cc2_scratch2

/-- The state (maximum, sum of weights, weighted sum of rows) the scratch holds after position `n`. -/
def sc2 (c : Dev nD) : (n : ℕ) → n < cfg2.N → Vec F S1x1 .f32 × Vec F S1x1 .f32 × Vec F S1x768 .f32
  | 0, h => (k2_pay1 (k2_pay7 (iblk2 V c 0 ⟨0, h⟩) (iblk2 V c 1 ⟨0, h⟩) k2_pay3),
      k2_pay10 (iblk2 V c 0 ⟨0, h⟩) (iblk2 V c 1 ⟨0, h⟩) k2_pay3 k2_pay3 k2_pay4,
      k2_pay11 (iblk2 V c 0 ⟨0, h⟩) (iblk2 V c 1 ⟨0, h⟩) k2_pay3 k2_pay3 k2_pay5)
  | n + 1, h => (k2_pay1 (k2_pay7 (iblk2 V c 0 ⟨n + 1, h⟩) (iblk2 V c 1 ⟨n + 1, h⟩) (sc2 c n (Nat.lt_of_succ_lt h)).1),
      k2_pay10 (iblk2 V c 0 ⟨n + 1, h⟩) (iblk2 V c 1 ⟨n + 1, h⟩) (sc2 c n (Nat.lt_of_succ_lt h)).1 (sc2 c n (Nat.lt_of_succ_lt h)).1 (sc2 c n (Nat.lt_of_succ_lt h)).2.1,
      k2_pay11 (iblk2 V c 0 ⟨n + 1, h⟩) (iblk2 V c 1 ⟨n + 1, h⟩) (sc2 c n (Nat.lt_of_succ_lt h)).1 (sc2 c n (Nat.lt_of_succ_lt h)).1 (sc2 c n (Nat.lt_of_succ_lt h)).2.2)

theorem sc2_zero (c : Dev nD) (t : Fin cfg2.N) (h : t.val = 0) :
    sc2 V c t.val t.isLt = (k2_pay1 (k2_pay7 (iblk2 V c 0 t) (iblk2 V c 1 t) k2_pay3),
      k2_pay10 (iblk2 V c 0 t) (iblk2 V c 1 t) k2_pay3 k2_pay3 k2_pay4,
      k2_pay11 (iblk2 V c 0 t) (iblk2 V c 1 t) k2_pay3 k2_pay3 k2_pay5) := by
  obtain ⟨n, hn⟩ := t
  cases n with
  | zero => rfl
  | succ n => exact absurd h (Nat.succ_ne_zero n)

theorem sc2_pos (c : Dev nD) (t : Fin cfg2.N) (h : t.val ≠ 0) :
    sc2 V c t.val t.isLt =
      (k2_pay1 (k2_pay7 (iblk2 V c 0 t) (iblk2 V c 1 t) (sc2 V c (t.val - 1) (Nat.lt_of_le_of_lt (Nat.sub_le _ _) t.isLt)).1),
      k2_pay10 (iblk2 V c 0 t) (iblk2 V c 1 t) (sc2 V c (t.val - 1) (Nat.lt_of_le_of_lt (Nat.sub_le _ _) t.isLt)).1 (sc2 V c (t.val - 1) (Nat.lt_of_le_of_lt (Nat.sub_le _ _) t.isLt)).1 (sc2 V c (t.val - 1) (Nat.lt_of_le_of_lt (Nat.sub_le _ _) t.isLt)).2.1,
      k2_pay11 (iblk2 V c 0 t) (iblk2 V c 1 t) (sc2 V c (t.val - 1) (Nat.lt_of_le_of_lt (Nat.sub_le _ _) t.isLt)).1 (sc2 V c (t.val - 1) (Nat.lt_of_le_of_lt (Nat.sub_le _ _) t.isLt)).1 (sc2 V c (t.val - 1) (Nat.lt_of_le_of_lt (Nat.sub_le _ _) t.isLt)).2.2) := by
  obtain ⟨n, hn⟩ := t
  cases n with
  | zero => exact absurd rfl h
  | succ n => rfl

/-- The class invariant with the three scratch buffers as memrefs owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest2_eq]; simp only [scM0, scM1, scM2, owns_whole]; try rfl

/-- The region invariant before position `n`: before the first point the class's (every scratch at anything);
    afterwards the other scoped buffers at anything, the three scratch buffers at the state the point before left,
    and the generator register at some state. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ owns (c : Thread nD τ) scM0 fullShare (sc2 V c n hn).1 ∗ owns (c : Thread nD τ) scM1 fullShare (sc2 V c n hn).2.1 ∗ owns (c : Thread nD τ) scM2 fullShare (sc2 V c n hn).2.2) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ owns (c : Thread nD τ) scM0 fullShare (sc2 V c n hn).1 ∗ owns (c : Thread nD τ) scM1 fullShare (sc2 V c n hn).2.1 ∗ owns (c : Thread nD τ) scM2 fullShare (sc2 V c n hn).2.2) ∗ (∃ r, prngReg c r)) := rfl
theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ owns (c : Thread nD τ) scM0 fullShare (sc2 V c (n - 1) (by omega)).1 ∗ owns (c : Thread nD τ) scM1 fullShare (sc2 V c (n - 1) (by omega)).2.1 ∗ owns (c : Thread nD τ) scM2 fullShare (sc2 V c (n - 1) (by omega)).2.2) ∗ (∃ r, prngReg c r)) := by
  cases n with
  | zero => exact absurd rfl hz
  | succ n => rfl

/-- The proof data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay2 (sc2 V c t.val t.isLt).2.2 (sc2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay2 (sc2 V c t.val t.isLt).2.2 (sc2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  have hN : t.val < 16 := lt_of_lt_of_eq t.isLt (show cfg2.N = 16 from N_2)
  by_cases hl : t.val = 15
  · -- the last point
    have hz : t.val ≠ 0 := by omega
    rw [show (dat2 V c).leavesExact 2 t = owns (c : Thread nD τ) (st2_2 t) fullShare ((dat2 V c).after 2 t) from by
      unfold Dat.leavesExact; rw [liveAt2 t hl], after2_2]
    rw [sc2_pos V c t hz]; dsimp only
    rw [PhiS2_castSucc V c t, PhiS2_pos V c _ _ hz]
    iintro ⟨⟨⟨A0, A1, A2, A3, A4, A5, A6, A7, HS0, HS1, HS2⟩, Hg⟩, Ho, ⟨%d0, H0⟩, ⟨%d1, H1⟩, ⟨%d2, H2⟩⟩
    iapply (sound_kernel2_C c Set.univ (grid2.coords t) (fun h => hz ((hcond2_first t).mp h)) ((hcond2_last t).mpr hl) _ _ _ _ _ _ _ _ _ _ _ _ (iblk2 V c 0 t) (iblk2 V c 1 t) _ _ _ _ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [A0 A1 A2 A3 A4 A5 A6 A7 HS0 HS1 HS2 Hg]
    · isplitr [Hg]
      ·
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [HS0]; · iexact HS0
        isplitl [HS1]; · iexact HS1
        iexact HS2
      · iexact Hg
    isplitl [Ho]; · iexact Ho
    isplitl [H0]; · iexact H0
    isplitl [H1]; · iexact H1
    iexact H2
  · rw [Dat.leavesExact_idle (dat2 V c) 2 t (idleAt2 t hl) (by
      rw [Bool.eq_false_iff]; intro hf; have := (flush2_2 t).mp hf; omega)]
    by_cases hz : t.val = 0
    · -- the first point
      rw [sc2_zero V c t hz]; dsimp only
      rw [PhiS2_castSucc V c t, PhiS2_zero V c _ _ hz, PhiA2_eq]
      iintro ⟨⟨⟨A0, A1, A2, A3, A4, A5, A6, A7, HS0, HS1, HS2⟩, Hg⟩, Ho, ⟨%d0, H0⟩, ⟨%d1, H1⟩, ⟨%d2, H2⟩⟩
      iapply (sound_kernel2_A c Set.univ (grid2.coords t) ((hcond2_first t).mpr hz) (fun h => hl ((hcond2_last t).mp h)) _ _ _ _ _ _ _ _ _ _ _ _ (iblk2 V c 0 t) (iblk2 V c 1 t) _ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [A0 A1 A2 A3 A4 A5 A6 A7 HS0 HS1 HS2 Hg]
      · isplitr [Hg]
        ·
          isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]; · iexact HS0
          isplitl [HS1]; · iexact HS1
          iexact HS2
        · iexact Hg
      isplitl [Ho]; · iexact Ho
      isplitl [H0]; · iexact H0
      isplitl [H1]; · iexact H1
      iexists _; iexact H2
    · -- a middle point
      rw [sc2_pos V c t hz]; dsimp only
      rw [PhiS2_castSucc V c t, PhiS2_pos V c _ _ hz]
      iintro ⟨⟨⟨A0, A1, A2, A3, A4, A5, A6, A7, HS0, HS1, HS2⟩, Hg⟩, Ho, ⟨%d0, H0⟩, ⟨%d1, H1⟩, ⟨%d2, H2⟩⟩
      iapply (sound_kernel2_B c Set.univ (grid2.coords t) (fun h => hz ((hcond2_first t).mp h)) (fun h => hl ((hcond2_last t).mp h)) _ _ _ _ _ _ _ _ _ _ _ _ (iblk2 V c 0 t) (iblk2 V c 1 t) _ _ _ _ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [A0 A1 A2 A3 A4 A5 A6 A7 HS0 HS1 HS2 Hg]
      · isplitr [Hg]
        ·
          isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]; · iexact HS0
          isplitl [HS1]; · iexact HS1
          iexact HS2
        · iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's named contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 16 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨A0, A1, A2, A3, A4, A5, A6, A7, HS0, HS1, HS2⟩, Hg⟩
  isplitr [Hg]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [HS0]; · iexists _; iexact HS0
    isplitl [HS1]; · iexists _; iexact HS1
    iexists _; iexact HS2
  · iexact Hg

end R2

end Cert.Kernel.Fr

end
-- ==== Proof.FrRunBits.lean ====
import proofs.«117598_j62775241999269_2_alg».proof.Proof.FrR0Bits
import proofs.«117598_j62775241999269_2_alg».proof.Proof.FrR1Bits
import proofs.«117598_j62775241999269_2_alg».proof.Proof.FrR2Bits
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run of the three regions, from the launch to the return

The buffer contents at each boundary are a fold from the launch memory: a region's arrays at what its write-backs
leave, every other buffer as entered. The three regions chain on the thread state "every unscoped buffer at the
boundary's contents, the generator register at some state, nothing owed". -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (V1 m ρ) c).arrAt w cfg0.N
theorem W1_arr (c : Dev nD) (w : Fin cfg0.W) :
    W1 m ρ c (Proc.devRef .tc (Pipeline.arrRef spec0 w)) = (dat0 (V1 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V2 : (c : Dev nD) → (b : Ref sig .tc) → Buf (Elt F) ((c : Thread nD τ).loc b) := fun c b => W1 m ρ c b
theorem hF0 (c : Dev nD) (w : Fin cfg0.W) : (dat0 (V1 m ρ) c).arrAt w cfg0.N = V2 m ρ c (Pipeline.arrRef spec0 w) :=
  (W1_arr m ρ c w).symm
theorem hrest0 (c : Dev nD) : ∀ b, b ∉ Finset.univ.image (Pipeline.arrRef spec0) → V2 m ρ c b = V1 m ρ c b :=
  fun b hb => W1_of_ne m ρ c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m ρ c) fun w => (dat1 (V2 m ρ) c).arrAt w cfg1.N
theorem W2_arr (c : Dev nD) (w : Fin cfg1.W) :
    W2 m ρ c (Proc.devRef .tc (Pipeline.arrRef spec1 w)) = (dat1 (V2 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V3 : (c : Dev nD) → (b : Ref sig .tc) → Buf (Elt F) ((c : Thread nD τ).loc b) := fun c b => W2 m ρ c b
theorem hF1 (c : Dev nD) (w : Fin cfg1.W) : (dat1 (V2 m ρ) c).arrAt w cfg1.N = V3 m ρ c (Pipeline.arrRef spec1 w) :=
  (W2_arr m ρ c w).symm
theorem hrest1 (c : Dev nD) : ∀ b, b ∉ Finset.univ.image (Pipeline.arrRef spec1) → V3 m ρ c b = V2 m ρ c b :=
  fun b hb => W2_of_ne m ρ c b fun w e => hb (Finset.mem_image.mpr ⟨w, Finset.mem_univ _, e⟩)

/-- At region 2's exit: its arrays at what the pipeline leaves, every other buffer as entered. -/
def W3 (c : Dev nD) : Valuation τ sig (Elt F) :=
  Pipeline.withArrays spec2 c (W2 m ρ c) fun w => (dat2 (V3 m ρ) c).arrAt w cfg2.N
theorem W3_arr (c : Dev nD) (w : Fin cfg2.W) :
    W3 m ρ c (Proc.devRef .tc (Pipeline.arrRef spec2 w)) = (dat2 (V3 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V4 : (c : Dev nD) → (b : Ref sig .tc) → Buf (Elt F) ((c : Thread nD τ).loc b) := fun c b => W3 m ρ c b
theorem hF2 (c : Dev nD) (w : Fin cfg2.W) : (dat2 (V3 m ρ) c).arrAt w cfg2.N = V4 m ρ c (Pipeline.arrRef spec2 w) :=
  (W3_arr m ρ c w).symm
theorem hrest2 (c : Dev nD) : ∀ b, b ∉ Finset.univ.image (Pipeline.arrRef spec2) → V4 m ρ c b = V3 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat2 (V3 m ρ) c).arrAt_in 0 rfl _).trans (A_eq2 (V3 m ρ) c 0))
    _ = W1 m ρ c (Proc.devRef .tc main_arg0) := W2_of_ne m ρ c main_arg0 (by decide)
    _ = W0 m ρ c (Proc.devRef .tc main_arg0) := (W1_arr m ρ c 0).trans (((dat0 (V1 m ρ) c).arrAt_in 0 rfl _).trans (A_eq0 (V1 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 2).trans (((dat1 (V2 m ρ) c).arrAt_in 2 rfl _).trans (A_eq1 (V2 m ρ) c 2))
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat1 (V2 m ρ) c).arrAt_in 1 rfl _).trans (A_eq1 (V2 m ρ) c 1))
    _ = W0 m ρ c (Proc.devRef .tc main_arg2) := W1_of_ne m ρ c main_arg2 (by decide)
    _ = m ((c : Thread nD τ).loc main_arg2) := rfl

/-- The two results: the third region's output array, and the second region's first output array (which the third
    region does not touch). -/
theorem W3_main_v2 (c : Dev nD) : W3 m ρ c (Proc.devRef .tc main_v2) = (dat2 (V3 m ρ) c).arrAt 2 cfg2.N := W3_arr m ρ c 2
theorem W3_main_v1_0 (c : Dev nD) : W3 m ρ c (Proc.devRef .tc main_v1_0) = (dat1 (V2 m ρ) c).arrAt 3 cfg1.N :=
  (W3_of_ne m ρ c main_v1_0 (by decide)).trans (W2_arr m ρ c 3)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the contents before it, left at the
    contents after it; its arrays split out of the unscoped buffers and put back; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it; its arrays split out of the unscoped buffers and put back; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame claim: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The run with the two results named: the arrays the second and third regions leave. -/
theorem run_values : θ_run defs (onTc (τ := τ) (main (F := F))) ⟨m, fun _ => 0, ρ⟩ (fun r => ∀ c : Dev nD,
      r.2.mem ((c.tc : Thread nD τ).loc main_v2) = (dat2 (V3 m ρ) c).arrAt 2 cfg2.N
      ∧ r.2.mem ((c.tc : Thread nD τ).loc main_v1_0) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_main_v2 m ρ c),
     (h c _ (mem_uc main_v1_0 (by decide))).trans (W3_main_v1_0 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Fr

end
-- ==== Proof.FrR0Ideal.lean ====
import proofs.«117598_j62775241999269_2_alg».proof.Proof.Gen.KernelIdeal.Launch
import proofs.«117598_j62775241999269_2_alg».proof.Proof.Gen.KernelIdeal.Skeleton
import proofs.«117598_j62775241999269_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first kernel: the running column maximum over 8 blocks of rows

The region's proof data at a parameter `V` — the buffer contents when the region is entered. The output block is
the same at every grid point and is written back once, after the last point; between points its staging buffer
keeps what the body left, which the next point reads: the maximum so far. -/

section R0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S4096x768 := Rect.unit (s := S4096x768) ![0, 0] S4096x768.size inb_S4096x768_S4096x768_0_0
abbrev rq0 : Rect S1x768 := Rect.unit (s := S1x768) ![0, 0] S1x768.size inb_S1x768_S1x768_0_0

theorem cover0 (p0 : Vec F S1x768 .f32) (y : S1x768.Idx) :
    ∃ pc ∈ ([⟨rq0, p0⟩] : List (View.Piece (Elt F) S1x768 .f32)), y ∈ pc.1.set :=
  View.cover_of_tiled [⟨rq0, p0⟩] S1x768.size (by rfl) y

/-- The first branch is taken exactly at the first point, the second exactly at the others. -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two branches stores at every point: the output window is never idle. -/
theorem live_aux (a : BitVec 32) :
    (!(Scalar.cmpi .ne (Scalar.extui (Scalar.cmpi .eq a 0#32) : BitVec 32) 0#32 == 1#1)
      && !(Scalar.cmpi .ne (Scalar.extui (Scalar.cmpi .ne a 0#32) : BitVec 32) 0#32 == 1#1)) = false := by
  by_cases h : a = 0#32
  · subst h; decide
  · have hb : (a == 0#32) = false := by simpa using h
    have hb' : (a != 0#32) = true := by simp [bne, hb]
    simp only [Scalar.cmpi, IntOp.cmpi, hb, hb', Scalar.extui]
    decide
theorem live0_1 (i : grid0.Coords) : cfg0.idle 1 i = false := by
  show (!(k0_cond1 i == 1#1) && !(k0_cond2 i == 1#1)) = false
  exact live_aux _

set_option maxHeartbeats 1000000 in
/-- At the first point the body stores the block's column maximum. -/
theorem sound_kernel0_first (c : Dev nD) (E : Set ℕ) (i : grid0.Coords) (h1 : k0_cond1 i = 1#1) (h2 : ¬ k0_cond2 i = 1#1)
    (arg1 : Memref sig .tc .vmem S4096x768 .f32) (harg1 : arg1.IsWhole) (arg2 : Memref sig .tc .vmem S1x768 .f32) (harg2 : arg2.IsWhole)
    (x0 : Vec F S4096x768 .f32) (K : PUnit → sProp 𝕄) :
    iprop(owns (c : Thread nD τ) arg1 fullShare x0 ∗ (∃ d, owns (c : Thread nD τ) arg2 fullShare d)
        ∗ (iprop(owns (c : Thread nD τ) arg1 fullShare x0
            ∗ owns (c : Thread nD τ) arg2 fullShare (View.canon [⟨rq0, k0_pay1 (View.ld x0 rx0)⟩])) -∗ K ⟨⟩))
      ⊢ wp frame (wpE (defs₀ (F := F)) Variants.none c none) E (cc0__max_kernel i arg1 harg1 arg2 harg2) K := by
  simp only [cc0__max_kernel_eq_skeleton]; unfold cc0__max_kernel_skel
  unfold owns
  iintro ⟨⟨%f0, %hf0, H0⟩, ⟨%d1, %f1, -, H1⟩, Hk⟩
  subst hf0
  sl_exec (disch := first | exact h1 | exact h2)
  sl_step
  iapply Hk
  isplitl [H0]
  · iexists f0; isplitr; · ipureintro; rfl
    iexact H0
  iexists _; isplitr
  swap; · iexact H1
  ipureintro
  exact View.read_writes_eq_canon _ _ _ (cover0 _)

set_option maxHeartbeats 1000000 in
/-- At a later point the body stores the maximum of what the buffer held and the block's column maximum. -/
theorem sound_kernel0_next (c : Dev nD) (E : Set ℕ) (i : grid0.Coords) (h1 : ¬ k0_cond1 i = 1#1) (h2 : k0_cond2 i = 1#1)
    (arg1 : Memref sig .tc .vmem S4096x768 .f32) (harg1 : arg1.IsWhole) (arg2 : Memref sig .tc .vmem S1x768 .f32) (harg2 : arg2.IsWhole)
    (x0 : Vec F S4096x768 .f32) (o : Vec F S1x768 .f32) (K : PUnit → sProp 𝕄) :
    iprop(owns (c : Thread nD τ) arg1 fullShare x0 ∗ owns (c : Thread nD τ) arg2 fullShare o
        ∗ (iprop(owns (c : Thread nD τ) arg1 fullShare x0
            ∗ owns (c : Thread nD τ) arg2 fullShare (View.canon [⟨rq0, k0_pay2 (View.ld x0 rx0) (View.ld o rq0)⟩])) -∗ K ⟨⟩))
      ⊢ wp frame (wpE (defs₀ (F := F)) Variants.none c none) E (cc0__max_kernel i arg1 harg1 arg2 harg2) K := by
  simp only [cc0__max_kernel_eq_skeleton]; unfold cc0__max_kernel_skel
  unfold owns
  iintro ⟨⟨%f0, %hf0, H0⟩, ⟨%f1, %hf1, H1⟩, Hk⟩
  subst hf0; subst hf1
  sl_exec (disch := first | exact h1 | exact h2)
  sl_step
  iapply Hk
  isplitl [H0]
  · iexists f0; isplitr; · ipureintro; rfl
    iexact H0
  iexists _; isplitr
  swap; · iexact H1
  ipureintro
  exact View.read_writes_eq_canon _ _ _ (cover0 _)

/-- What the output's staging buffer holds after the body at position `n`: the running column maximum. -/
def acc0 (c : Dev nD) : (n : ℕ) → n < cfg0.N → Vec F S1x768 .f32
  | 0, h => View.canon [⟨rq0, k0_pay1 (View.ld (iblk0 V c 0 ⟨0, h⟩) rx0)⟩]
  | n + 1, h => View.canon [⟨rq0, k0_pay2 (View.ld (iblk0 V c 0 ⟨n + 1, h⟩) rx0) (View.ld (acc0 c n (Nat.lt_of_succ_lt h)) rq0)⟩]

theorem acc0_zero (c : Dev nD) (t : Fin cfg0.N) (h : t.val = 0) :
    acc0 V c t.val t.isLt = View.canon [⟨rq0, k0_pay1 (View.ld (iblk0 V c 0 t) rx0)⟩] := by
  obtain ⟨n, hn⟩ := t
  cases n with
  | zero => rfl
  | succ n => exact absurd h (Nat.succ_ne_zero n)

theorem acc0_pos (c : Dev nD) (t : Fin cfg0.N) (h : t.val ≠ 0) :
    acc0 V c t.val t.isLt = View.canon [⟨rq0, k0_pay2 (View.ld (iblk0 V c 0 t) rx0)
      (View.ld (acc0 V c (t.val - 1) (Nat.lt_of_le_of_lt (Nat.sub_le _ _) t.isLt)) rq0)⟩] := by
  obtain ⟨n, hn⟩ := t
  cases n with
  | zero => exact absurd rfl h
  | succ n => rfl

/-- The proof data: the arrays as the region finds them; the input's buffer at its block; the output's at the
    running maximum; the invariant the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-- After the first point the output's buffer holds what the point before left: nothing is written back in between. -/
theorem before0_1 (c : Dev nD) (t : Fin cfg0.N) (ht : t.val ≠ 0) (d) :
    (dat0 V c).before 1 t d = acc0 V c (t.val - 1) (Nat.lt_of_le_of_lt (Nat.sub_le _ _) t.isLt) := by
  have hN : t.val < 8 := lt_of_lt_of_eq t.isLt (show cfg0.N = 8 from N_0)
  have hfl : (cfg0.win 1).flush ⟨t.val - 1, Nat.lt_of_le_of_lt (Nat.sub_le _ _) t.isLt⟩ = false := by
    rw [Bool.eq_false_iff]; intro hf
    have := (flush0_1 ⟨t.val - 1, Nat.lt_of_le_of_lt (Nat.sub_le _ _) t.isLt⟩).mp hf
    dsimp only at this; omega
  rw [(dat0 V c).before_out_kept 1 rfl t ht hfl live0_1 (fun _ _ => rfl) d, after0_1]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare ((dat0 V c).after 0 t) from rfl, after0_0]
  rw [show (dat0 V c).leavesExact 1 t = owns (c : Thread nD τ) (st0_1 t) fullShare ((dat0 V c).after 1 t) from by
    unfold Dat.leavesExact; rw [live0_1], after0_1]
  by_cases hz : t.val = 0
  · rw [acc0_zero V c t hz]
    iintro ⟨HΦ, Ho, ⟨%d0, H0⟩, ⟨%d1, H1⟩⟩
    iapply (sound_kernel0_first c Set.univ (grid0.coords t) ((hcond0_1 t).mpr hz) (fun h => ((hcond0_2 t).mp h) hz) _ _ _ _ (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [acc0_pos V c t hz]
    simp only [before0_1 V c t hz]
    iintro ⟨HΦ, Ho, ⟨%d0, H0⟩, ⟨%d1, H1⟩⟩
    iapply (sound_kernel0_next c Set.univ (grid0.coords t) (fun h => hz ((hcond0_1 t).mp h)) ((hcond0_2 t).mpr hz) _ _ _ _ (iblk0 V c 0 t) _ _)
    isplitl [H0]; · iexact H0
    isplitl [H1]; · iexact H1
    iintro ⟨H0, H1⟩
    isplitl [HΦ]; · iexact HΦ
    isplitl [Ho]; · iexact Ho
    isplitl [H0]; · iexact H0
    iexact H1

theorem body_obligation0 (c : Dev nD) : BodyObligation (dat0 (F := F) V c) (defs₀ (F := F)) Variants.none () Set.univ := fun t => by
  rw [bigSep_W0, bigSep_W0]
  exact sound_body0 V c t

end R0

end Cert.KernelIdeal.Fr

end
-- ==== Proof.FrR1Ideal.lean ====
import proofs.«117598_j62775241999269_2_alg».proof.Proof.Gen.KernelIdeal.Launch
import proofs.«117598_j62775241999269_2_alg».proof.Proof.Gen.KernelIdeal.Skeleton
import proofs.«117598_j62775241999269_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second kernel (one grid point): every window is its whole array

The region's proof data at a parameter `V` — the buffer contents when the region is entered. The body reads the column
maxima, the weights and the elements and stores the pooled row and the vector `v`. -/

section R1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rq : Rect S1x768 := Rect.unit (s := S1x768) ![0, 0] S1x768.size inb_S1x768_S1x768_0_0
abbrev rw_ : Rect S768x768 := Rect.unit (s := S768x768) ![0, 0] S768x768.size inb_S768x768_S768x768_0_0
abbrev re : Rect S4096x768 := Rect.unit (s := S4096x768) ![0, 0] S4096x768.size inb_S4096x768_S4096x768_0_0
abbrev rv : Rect S768x1 := Rect.unit (s := S768x1) ![0, 0] S768x1.size inb_S768x1_S768x1_0_0

/-- What the body leaves in the pooled-row output buffer. -/
def out1_3 (x0 : Vec F S1x768 .f32) (x1 : Vec F S768x768 .f32) (x2 : Vec F S4096x768 .f32) : Vec F S1x768 .f32 :=
  View.canon [⟨rq, k1_pay1 (View.ld x0 rq) (View.ld x1 rw_) (View.ld x2 re)⟩]
/-- What the body leaves in the `v` output buffer. -/
def out1_4 (x0 : Vec F S1x768 .f32) (x1 : Vec F S768x768 .f32) (x2 : Vec F S4096x768 .f32) : Vec F S768x1 .f32 :=
  View.canon [⟨rv, k1_pay2 (View.ld x0 rq) (View.ld x1 rw_) (View.ld x2 re)⟩]

theorem cover1_3 (p0 : Vec F S1x768 .f32) (y : S1x768.Idx) :
    ∃ pc ∈ ([⟨rq, p0⟩] : List (View.Piece (Elt F) S1x768 .f32)), y ∈ pc.1.set :=
  View.cover_of_tiled [⟨rq, p0⟩] S1x768.size (by rfl) y
theorem cover1_4 (p0 : Vec F S768x1 .f32) (y : S768x1.Idx) :
    ∃ pc ∈ ([⟨rv, p0⟩] : List (View.Piece (Elt F) S768x1 .f32)), y ∈ pc.1.set :=
  View.cover_of_tiled [⟨rv, p0⟩] S768x1.size (by rfl) y

set_option maxHeartbeats 1000000 in
theorem sound_kernel1 (c : Dev nD) (E : Set ℕ) (i : grid1.Coords)
    (arg1 : Memref sig .tc .vmem S1x768 .f32) (harg1 : arg1.IsWhole) (arg2 : Memref sig .tc .vmem S768x768 .f32) (harg2 : arg2.IsWhole)
    (arg3 : Memref sig .tc .vmem S4096x768 .f32) (harg3 : arg3.IsWhole) (arg4 : Memref sig .tc .vmem S1x768 .f32) (harg4 : arg4.IsWhole)
    (arg5 : Memref sig .tc .vmem S768x1 .f32) (harg5 : arg5.IsWhole)
    (x0 : Vec F S1x768 .f32) (x1 : Vec F S768x768 .f32) (x2 : Vec F S4096x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__pool_elements_kernel i arg1 harg1 arg2 harg2 arg3 harg3 arg4 harg4 arg5 harg5) K := by
  simp only [cc1__pool_elements_kernel_eq_skeleton]; unfold cc1__pool_elements_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-- The proof data: the arrays as the region finds them; each input's buffer at its block; the outputs' at the body's
    two results; the invariant the scoped rest and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end R1

end Cert.KernelIdeal.Fr

end
-- ==== Proof.FrK2Ideal.lean ====
import proofs.«117598_j62775241999269_2_alg».proof.Proof.Gen.KernelIdeal.Launch
import proofs.«117598_j62775241999269_2_alg».proof.Proof.Gen.KernelIdeal.Skeleton
import proofs.«117598_j62775241999269_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The third kernel: its body on whole staging buffers and scratch, in its three control cases -/

/-- The first branch's condition (taken at the first grid point only). -/
abbrev cFirst (i : grid2.Coords) : Prop := (Scalar.cmpi .ne (Scalar.extui (Scalar.cmpi .eq (BitVec.ofNat 32 (i 0).val) 0#32)) 0#32) = 1#1

theorem hz2 : (![0, 0] : Fin 2 → Nat) = fun _ => 0 := by funext a; fin_cases a <;> rfl

abbrev r11 : Rect S1x1 := Rect.unit (s := S1x1) ![0, 0] S1x1.size inb_S1x1_S1x1_0_0
abbrev r1h : Rect S1x768 := Rect.unit (s := S1x768) ![0, 0] S1x768.size inb_S1x768_S1x768_0_0
theorem cover11 (p0 : Vec F S1x1 .f32) (y : S1x1.Idx) :
    ∃ pc ∈ ([⟨r11, p0⟩] : List (View.Piece (Elt F) S1x1 .f32)), y ∈ pc.1.set :=
  View.cover_of_tiled [⟨r11, p0⟩] S1x1.size (by rfl) y
theorem cover1h (p0 : Vec F S1x768 .f32) (y : S1x768.Idx) :
    ∃ pc ∈ ([⟨r1h, p0⟩] : List (View.Piece (Elt F) S1x768 .f32)), y ∈ pc.1.set :=
  View.cover_of_tiled [⟨r1h, p0⟩] S1x768.size (by rfl) y
theorem cover11_cons (p0 : Vec F S1x1 .f32) (L : List (View.Piece (Elt F) S1x1 .f32)) (y : S1x1.Idx) :
    ∃ pc ∈ ((⟨r11, p0⟩ : View.Piece (Elt F) S1x1 .f32) :: L), y ∈ pc.1.set := by
  obtain ⟨pc, hpc, hy⟩ := cover11 p0 y
  rw [List.mem_singleton] at hpc; subst hpc
  exact ⟨_, List.mem_cons_self, hy⟩
theorem cover1h_cons (p0 : Vec F S1x768 .f32) (L : List (View.Piece (Elt F) S1x768 .f32)) (y : S1x768.Idx) :
    ∃ pc ∈ ((⟨r1h, p0⟩ : View.Piece (Elt F) S1x768 .f32) :: L), y ∈ pc.1.set := by
  obtain ⟨pc, hpc, hy⟩ := cover1h p0 y
  rw [List.mem_singleton] at hpc; subst hpc
  exact ⟨_, List.mem_cons_self, hy⟩

/-- A load through a whole rectangle at zero offsets reads the buffer's contents. -/
macro "whole_loads" : tactic => `(tactic| simp only [View.readCov_unit_zero (S := S1x1) _ hz2, View.readCov_unit_zero (S := S1x768) _ hz2, View.readAt_eq_ld, View.ld_unit_zero (S := S2048x768) hz2,
  View.ld_unit_zero (S := S768x1) hz2, View.ld_unit_zero (S := S1x1) hz2, View.ld_unit_zero (S := S1x768) hz2])

set_option maxHeartbeats 2000000 in
/-- The first point: the scratch starts from (−∞, 0, 0) and takes one block's update; the output buffer is untouched. -/
theorem sound_kernel2_A (c : Dev nD) (E : Set ℕ) (i : grid2.Coords) (h1 : cFirst i) (h2 : ¬ k2_cond2 i = 1#1)
    (arg1 : Memref sig .tc .vmem S2048x768 .f32) (harg1 : arg1.IsWhole) (arg2 : Memref sig .tc .vmem S768x1 .f32) (harg2 : arg2.IsWhole)
    (arg3 : Memref sig .tc .vmem S1x768 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x768 .f32) (harg6 : arg6.IsWhole)
    (x0 : Vec F S2048x768 .f32) (x1 : Vec F S768x1 .f32) (X : Vec F S1x768 .f32) (K : PUnit → sProp 𝕄) :
    iprop(owns (c : Thread nD τ) arg1 fullShare x0 ∗ owns (c : Thread nD τ) arg2 fullShare x1 ∗ owns (c : Thread nD τ) arg3 fullShare X
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare X
            ∗ owns (c : Thread nD τ) arg4 fullShare (k2_pay1 (k2_pay7 x0 x1 k2_pay3))
            ∗ owns (c : Thread nD τ) arg5 fullShare (k2_pay10 x0 x1 k2_pay3 k2_pay3 k2_pay4)
            ∗ owns (c : Thread nD τ) arg6 fullShare (k2_pay11 x0 x1 k2_pay3 k2_pay3 k2_pay5)) -∗ K ⟨⟩))
      ⊢ wp frame (wpE (defs₀ (F := F)) Variants.none c none) E (cc2__fact_pool_kernel i arg1 harg1 arg2 harg2 arg3 harg3 arg4 harg4 arg5 harg5 arg6 harg6) K := by
  simp only [cc2__fact_pool_kernel_eq_skeleton]; unfold cc2__fact_pool_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    (try sl_unfold_run_names)
    refine (View.read_writes_eq_canon _ _ _ (cover11_cons _ _)).trans ?_
    rw [View.canon_cons_unit_zero hz2]
    (try sl_unfold_run_names)
    whole_loads
    try rfl
  isplitl [H4]
  · iexists _; isplitr
    swap; · iexact H4
    ipureintro
    (try sl_unfold_run_names)
    refine (View.read_writes_eq_canon _ _ _ (cover11_cons _ _)).trans ?_
    rw [View.canon_cons_unit_zero hz2]
    (try sl_unfold_run_names)
    whole_loads
    try rfl
  iexists _; isplitr
  swap; · iexact H5
  ipureintro
  (try sl_unfold_run_names)
  refine (View.read_writes_eq_canon _ _ _ (cover1h_cons _ _)).trans ?_
  rw [View.canon_cons_unit_zero hz2]
  (try sl_unfold_run_names)
  whole_loads
  try rfl

set_option maxHeartbeats 2000000 in
/-- A middle point: the scratch takes one block's update; the output buffer is untouched. -/
theorem sound_kernel2_B (c : Dev nD) (E : Set ℕ) (i : grid2.Coords) (h1 : ¬ cFirst i) (h2 : ¬ k2_cond2 i = 1#1)
    (arg1 : Memref sig .tc .vmem S2048x768 .f32) (harg1 : arg1.IsWhole) (arg2 : Memref sig .tc .vmem S768x1 .f32) (harg2 : arg2.IsWhole)
    (arg3 : Memref sig .tc .vmem S1x768 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x768 .f32) (harg6 : arg6.IsWhole)
    (x0 : Vec F S2048x768 .f32) (x1 : Vec F S768x1 .f32) (X : Vec F S1x768 .f32)
    (sm sl : Vec F S1x1 .f32) (sa : Vec F S1x768 .f32) (K : PUnit → sProp 𝕄) :
    iprop(owns (c : Thread nD τ) arg1 fullShare x0 ∗ owns (c : Thread nD τ) arg2 fullShare x1 ∗ owns (c : Thread nD τ) arg3 fullShare X
        ∗ owns (c : Thread nD τ) arg4 fullShare sm ∗ owns (c : Thread nD τ) arg5 fullShare sl ∗ owns (c : Thread nD τ) arg6 fullShare sa
        ∗ (iprop(owns (c : Thread nD τ) arg1 fullShare x0 ∗ owns (c : Thread nD τ) arg2 fullShare x1 ∗ owns (c : Thread nD τ) arg3 fullShare X
            ∗ owns (c : Thread nD τ) arg4 fullShare (k2_pay1 (k2_pay7 x0 x1 sm))
            ∗ owns (c : Thread nD τ) arg5 fullShare (k2_pay10 x0 x1 sm sm sl)
            ∗ owns (c : Thread nD τ) arg6 fullShare (k2_pay11 x0 x1 sm sm sa)) -∗ K ⟨⟩))
      ⊢ wp frame (wpE (defs₀ (F := F)) Variants.none c none) E (cc2__fact_pool_kernel i arg1 harg1 arg2 harg2 arg3 harg3 arg4 harg4 arg5 harg5 arg6 harg6) K := by
  simp only [cc2__fact_pool_kernel_eq_skeleton]; unfold cc2__fact_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    (try sl_unfold_run_names)
    refine (View.read_writes_eq_canon _ _ _ (cover11 _)).trans ?_
    rw [View.canon_unit_zero hz2]
    (try sl_unfold_run_names)
    whole_loads
    try rfl
  isplitl [H4]
  · iexists _; isplitr
    swap; · iexact H4
    ipureintro
    (try sl_unfold_run_names)
    refine (View.read_writes_eq_canon _ _ _ (cover11 _)).trans ?_
    rw [View.canon_unit_zero hz2]
    (try sl_unfold_run_names)
    whole_loads
    try rfl
  iexists _; isplitr
  swap; · iexact H5
  ipureintro
  (try sl_unfold_run_names)
  refine (View.read_writes_eq_canon _ _ _ (cover1h _)).trans ?_
  rw [View.canon_unit_zero hz2]
  (try sl_unfold_run_names)
  whole_loads
  try rfl

set_option maxHeartbeats 2000000 in
/-- The last point: the scratch takes one block's update, and the output buffer receives the weighted sum divided by
    the sum of weights. -/
theorem sound_kernel2_C (c : Dev nD) (E : Set ℕ) (i : grid2.Coords) (h1 : ¬ cFirst i) (h2 : k2_cond2 i = 1#1)
    (arg1 : Memref sig .tc .vmem S2048x768 .f32) (harg1 : arg1.IsWhole) (arg2 : Memref sig .tc .vmem S768x1 .f32) (harg2 : arg2.IsWhole)
    (arg3 : Memref sig .tc .vmem S1x768 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x768 .f32) (harg6 : arg6.IsWhole)
    (x0 : Vec F S2048x768 .f32) (x1 : Vec F S768x1 .f32) (X : Vec F S1x768 .f32)
    (sm sl : Vec F S1x1 .f32) (sa : Vec F S1x768 .f32) (K : PUnit → sProp 𝕄) :
    iprop(owns (c : Thread nD τ) arg1 fullShare x0 ∗ owns (c : Thread nD τ) arg2 fullShare x1 ∗ owns (c : Thread nD τ) arg3 fullShare X
        ∗ owns (c : Thread nD τ) arg4 fullShare sm ∗ owns (c : Thread nD τ) arg5 fullShare sl ∗ owns (c : Thread nD τ) arg6 fullShare sa
        ∗ (iprop(owns (c : Thread nD τ) arg1 fullShare x0 ∗ owns (c : Thread nD τ) arg2 fullShare x1
            ∗ owns (c : Thread nD τ) arg3 fullShare (k2_pay2 (k2_pay11 x0 x1 sm sm sa) (k2_pay10 x0 x1 sm sm sl))
            ∗ owns (c : Thread nD τ) arg4 fullShare (k2_pay1 (k2_pay7 x0 x1 sm))
            ∗ owns (c : Thread nD τ) arg5 fullShare (k2_pay10 x0 x1 sm sm sl)
            ∗ owns (c : Thread nD τ) arg6 fullShare (k2_pay11 x0 x1 sm sm sa)) -∗ K ⟨⟩))
      ⊢ wp frame (wpE (defs₀ (F := F)) Variants.none c none) E (cc2__fact_pool_kernel i arg1 harg1 arg2 harg2 arg3 harg3 arg4 harg4 arg5 harg5 arg6 harg6) K := by
  simp only [cc2__fact_pool_kernel_eq_skeleton]; unfold cc2__fact_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    (try sl_unfold_run_names)
    refine (View.read_writes_eq_canon _ _ _ (cover1h _)).trans ?_
    rw [View.canon_unit_zero hz2]
    (try sl_unfold_run_names)
    whole_loads
    try rfl
  isplitl [H3]
  · iexists _; isplitr
    swap; · iexact H3
    ipureintro
    (try sl_unfold_run_names)
    refine (View.read_writes_eq_canon _ _ _ (cover11 _)).trans ?_
    rw [View.canon_unit_zero hz2]
    (try sl_unfold_run_names)
    whole_loads
    try rfl
  isplitl [H4]
  · iexists _; isplitr
    swap; · iexact H4
    ipureintro
    (try sl_unfold_run_names)
    refine (View.read_writes_eq_canon _ _ _ (cover11 _)).trans ?_
    rw [View.canon_unit_zero hz2]
    (try sl_unfold_run_names)
    whole_loads
    try rfl
  iexists _; isplitr
  swap; · iexact H5
  ipureintro
  (try sl_unfold_run_names)
  refine (View.read_writes_eq_canon _ _ _ (cover1h _)).trans ?_
  rw [View.canon_unit_zero hz2]
  (try sl_unfold_run_names)
  whole_loads
  try rfl

end Cert.KernelIdeal.Fr

end
-- ==== Proof.FrR2Ideal.lean ====
import proofs.«117598_j62775241999269_2_alg».proof.Proof.FrK2Ideal
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The third kernel: the running state over 16 blocks of rows

The region's proof data at a parameter `V` — the buffer contents when the region is entered. The three scratch buffers
carry the state (running maximum, running sum of weights, running weighted sum of rows) from one grid point to the
next; the output block is stored at the last point only and written back there. -/

section R2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The branch conditions, decided over the grid: the first branch at the first point, the last at the last. -/
theorem hcond2_first : ∀ t : Fin cfg2.N, cFirst (grid2.coords t) ↔ t.val = 0 :=
  (by decide +kernel : ∀ t : Fin grid2.N, cFirst (grid2.coords t) ↔ t.val = 0)
theorem hcond2_last : ∀ t : Fin cfg2.N, k2_cond2 (grid2.coords t) = 1#1 ↔ t.val = 15 :=
  (by decide +kernel : ∀ t : Fin grid2.N, k2_cond2 (grid2.coords t) = 1#1 ↔ t.val = 15)
/-- The output window is idle except at the last point, where alone its block is written back. -/
theorem idleAt2 : ∀ t : Fin cfg2.N, t.val ≠ 15 → cfg2.idle 2 (grid2.coords t) = true :=
  (by decide +kernel : ∀ t : Fin grid2.N, t.val ≠ 15 → cfg2.idle 2 (grid2.coords t) = true)
theorem liveAt2 : ∀ t : Fin cfg2.N, t.val = 15 → cfg2.idle 2 (grid2.coords t) = false :=
  (by decide +kernel : ∀ t : Fin grid2.N, t.val = 15 → cfg2.idle 2 (grid2.coords t) = false)

/-- The scratch operands: whole scoped buffers of the kernel's own. -/
abbrev scM0 : Memref sig .tc .vmem S1x1 .f32 := Memref.whole cc2_scratch0
abbrev scM1 : Memref sig .tc .vmem S1x1 .f32 := Memref.whole cc2_scratch1
abbrev scM2 : Memref sig .tc .vmem S1x768 .f32 := Memref.whole cc2_scratch2

/-- The state (maximum, sum of weights, weighted sum of rows) the scratch holds after position `n`. -/
def sc2 (c : Dev nD) : (n : ℕ) → n < cfg2.N → Vec F S1x1 .f32 × Vec F S1x1 .f32 × Vec F S1x768 .f32
  | 0, h => (k2_pay1 (k2_pay7 (iblk2 V c 0 ⟨0, h⟩) (iblk2 V c 1 ⟨0, h⟩) k2_pay3),
      k2_pay10 (iblk2 V c 0 ⟨0, h⟩) (iblk2 V c 1 ⟨0, h⟩) k2_pay3 k2_pay3 k2_pay4,
      k2_pay11 (iblk2 V c 0 ⟨0, h⟩) (iblk2 V c 1 ⟨0, h⟩) k2_pay3 k2_pay3 k2_pay5)
  | n + 1, h => (k2_pay1 (k2_pay7 (iblk2 V c 0 ⟨n + 1, h⟩) (iblk2 V c 1 ⟨n + 1, h⟩) (sc2 c n (Nat.lt_of_succ_lt h)).1),
      k2_pay10 (iblk2 V c 0 ⟨n + 1, h⟩) (iblk2 V c 1 ⟨n + 1, h⟩) (sc2 c n (Nat.lt_of_succ_lt h)).1 (sc2 c n (Nat.lt_of_succ_lt h)).1 (sc2 c n (Nat.lt_of_succ_lt h)).2.1,
      k2_pay11 (iblk2 V c 0 ⟨n + 1, h⟩) (iblk2 V c 1 ⟨n + 1, h⟩) (sc2 c n (Nat.lt_of_succ_lt h)).1 (sc2 c n (Nat.lt_of_succ_lt h)).1 (sc2 c n (Nat.lt_of_succ_lt h)).2.2)

theorem sc2_zero (c : Dev nD) (t : Fin cfg2.N) (h : t.val = 0) :
    sc2 V c t.val t.isLt = (k2_pay1 (k2_pay7 (iblk2 V c 0 t) (iblk2 V c 1 t) k2_pay3),
      k2_pay10 (iblk2 V c 0 t) (iblk2 V c 1 t) k2_pay3 k2_pay3 k2_pay4,
      k2_pay11 (iblk2 V c 0 t) (iblk2 V c 1 t) k2_pay3 k2_pay3 k2_pay5) := by
  obtain ⟨n, hn⟩ := t
  cases n with
  | zero => rfl
  | succ n => exact absurd h (Nat.succ_ne_zero n)

theorem sc2_pos (c : Dev nD) (t : Fin cfg2.N) (h : t.val ≠ 0) :
    sc2 V c t.val t.isLt =
      (k2_pay1 (k2_pay7 (iblk2 V c 0 t) (iblk2 V c 1 t) (sc2 V c (t.val - 1) (Nat.lt_of_le_of_lt (Nat.sub_le _ _) t.isLt)).1),
      k2_pay10 (iblk2 V c 0 t) (iblk2 V c 1 t) (sc2 V c (t.val - 1) (Nat.lt_of_le_of_lt (Nat.sub_le _ _) t.isLt)).1 (sc2 V c (t.val - 1) (Nat.lt_of_le_of_lt (Nat.sub_le _ _) t.isLt)).1 (sc2 V c (t.val - 1) (Nat.lt_of_le_of_lt (Nat.sub_le _ _) t.isLt)).2.1,
      k2_pay11 (iblk2 V c 0 t) (iblk2 V c 1 t) (sc2 V c (t.val - 1) (Nat.lt_of_le_of_lt (Nat.sub_le _ _) t.isLt)).1 (sc2 V c (t.val - 1) (Nat.lt_of_le_of_lt (Nat.sub_le _ _) t.isLt)).1 (sc2 V c (t.val - 1) (Nat.lt_of_le_of_lt (Nat.sub_le _ _) t.isLt)).2.2) := by
  obtain ⟨n, hn⟩ := t
  cases n with
  | zero => exact absurd rfl h
  | succ n => rfl

/-- The class invariant with the three scratch buffers as memrefs owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest2_eq]; simp only [scM0, scM1, scM2, owns_whole]; try rfl

/-- The region invariant before position `n`: before the first point the class's (every scratch at anything);
    afterwards the other scoped buffers at anything, the three scratch buffers at the state the point before left,
    and the generator register at some state. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ owns (c : Thread nD τ) scM0 fullShare (sc2 V c n hn).1 ∗ owns (c : Thread nD τ) scM1 fullShare (sc2 V c n hn).2.1 ∗ owns (c : Thread nD τ) scM2 fullShare (sc2 V c n hn).2.2) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ owns (c : Thread nD τ) scM0 fullShare (sc2 V c n hn).1 ∗ owns (c : Thread nD τ) scM1 fullShare (sc2 V c n hn).2.1 ∗ owns (c : Thread nD τ) scM2 fullShare (sc2 V c n hn).2.2) ∗ (∃ r, prngReg c r)) := rfl
theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ owns (c : Thread nD τ) scM0 fullShare (sc2 V c (n - 1) (by omega)).1 ∗ owns (c : Thread nD τ) scM1 fullShare (sc2 V c (n - 1) (by omega)).2.1 ∗ owns (c : Thread nD τ) scM2 fullShare (sc2 V c (n - 1) (by omega)).2.2) ∗ (∃ r, prngReg c r)) := by
  cases n with
  | zero => exact absurd rfl hz
  | succ n => rfl

/-- The proof data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay2 (sc2 V c t.val t.isLt).2.2 (sc2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay2 (sc2 V c t.val t.isLt).2.2 (sc2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  have hN : t.val < 16 := lt_of_lt_of_eq t.isLt (show cfg2.N = 16 from N_2)
  by_cases hl : t.val = 15
  · -- the last point
    have hz : t.val ≠ 0 := by omega
    rw [show (dat2 V c).leavesExact 2 t = owns (c : Thread nD τ) (st2_2 t) fullShare ((dat2 V c).after 2 t) from by
      unfold Dat.leavesExact; rw [liveAt2 t hl], after2_2]
    rw [sc2_pos V c t hz]; dsimp only
    rw [PhiS2_castSucc V c t, PhiS2_pos V c _ _ hz]
    iintro ⟨⟨⟨A0, A1, A2, A3, A4, A5, A6, A7, HS0, HS1, HS2⟩, Hg⟩, Ho, ⟨%d0, H0⟩, ⟨%d1, H1⟩, ⟨%d2, H2⟩⟩
    iapply (sound_kernel2_C c Set.univ (grid2.coords t) (fun h => hz ((hcond2_first t).mp h)) ((hcond2_last t).mpr hl) _ _ _ _ _ _ _ _ _ _ _ _ (iblk2 V c 0 t) (iblk2 V c 1 t) _ _ _ _ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [A0 A1 A2 A3 A4 A5 A6 A7 HS0 HS1 HS2 Hg]
    · isplitr [Hg]
      ·
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [HS0]; · iexact HS0
        isplitl [HS1]; · iexact HS1
        iexact HS2
      · iexact Hg
    isplitl [Ho]; · iexact Ho
    isplitl [H0]; · iexact H0
    isplitl [H1]; · iexact H1
    iexact H2
  · rw [Dat.leavesExact_idle (dat2 V c) 2 t (idleAt2 t hl) (by
      rw [Bool.eq_false_iff]; intro hf; have := (flush2_2 t).mp hf; omega)]
    by_cases hz : t.val = 0
    · -- the first point
      rw [sc2_zero V c t hz]; dsimp only
      rw [PhiS2_castSucc V c t, PhiS2_zero V c _ _ hz, PhiA2_eq]
      iintro ⟨⟨⟨A0, A1, A2, A3, A4, A5, A6, A7, HS0, HS1, HS2⟩, Hg⟩, Ho, ⟨%d0, H0⟩, ⟨%d1, H1⟩, ⟨%d2, H2⟩⟩
      iapply (sound_kernel2_A c Set.univ (grid2.coords t) ((hcond2_first t).mpr hz) (fun h => hl ((hcond2_last t).mp h)) _ _ _ _ _ _ _ _ _ _ _ _ (iblk2 V c 0 t) (iblk2 V c 1 t) _ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [A0 A1 A2 A3 A4 A5 A6 A7 HS0 HS1 HS2 Hg]
      · isplitr [Hg]
        ·
          isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]; · iexact HS0
          isplitl [HS1]; · iexact HS1
          iexact HS2
        · iexact Hg
      isplitl [Ho]; · iexact Ho
      isplitl [H0]; · iexact H0
      isplitl [H1]; · iexact H1
      iexists _; iexact H2
    · -- a middle point
      rw [sc2_pos V c t hz]; dsimp only
      rw [PhiS2_castSucc V c t, PhiS2_pos V c _ _ hz]
      iintro ⟨⟨⟨A0, A1, A2, A3, A4, A5, A6, A7, HS0, HS1, HS2⟩, Hg⟩, Ho, ⟨%d0, H0⟩, ⟨%d1, H1⟩, ⟨%d2, H2⟩⟩
      iapply (sound_kernel2_B c Set.univ (grid2.coords t) (fun h => hz ((hcond2_first t).mp h)) (fun h => hl ((hcond2_last t).mp h)) _ _ _ _ _ _ _ _ _ _ _ _ (iblk2 V c 0 t) (iblk2 V c 1 t) _ _ _ _ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [A0 A1 A2 A3 A4 A5 A6 A7 HS0 HS1 HS2 Hg]
      · isplitr [Hg]
        ·
          isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [HS0]; · iexact HS0
          isplitl [HS1]; · iexact HS1
          iexact HS2
        · iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's named contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 16 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨A0, A1, A2, A3, A4, A5, A6, A7, HS0, HS1, HS2⟩, Hg⟩
  isplitr [Hg]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [HS0]; · iexists _; iexact HS0
    isplitl [HS1]; · iexists _; iexact HS1
    iexists _; iexact HS2
  · iexact Hg

end R2

end Cert.KernelIdeal.Fr

end
-- ==== Proof.FrRunIdeal.lean ====
import proofs.«117598_j62775241999269_2_alg».proof.Proof.FrR0Ideal
import proofs.«117598_j62775241999269_2_alg».proof.Proof.FrR1Ideal
import proofs.«117598_j62775241999269_2_alg».proof.Proof.FrR2Ideal
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run of the three regions, from the launch to the return

The buffer contents at each boundary are a fold from the launch memory: a region's arrays at what its write-backs
leave, every other buffer as entered. The three regions chain on the thread state "every unscoped buffer at the
boundary's contents, the generator register at some state, nothing owed". -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (V1 m ρ) c).arrAt w cfg0.N
theorem W1_arr (c : Dev nD) (w : Fin cfg0.W) :
    W1 m ρ c (Proc.devRef .tc (Pipeline.arrRef spec0 w)) = (dat0 (V1 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V2 : (c : Dev nD) → (b : Ref sig .tc) → Buf (Elt F) ((c : Thread nD τ).loc b) := fun c b => W1 m ρ c b
theorem hF0 (c : Dev nD) (w : Fin cfg0.W) : (dat0 (V1 m ρ) c).arrAt w cfg0.N = V2 m ρ c (Pipeline.arrRef spec0 w) :=
  (W1_arr m ρ c w).symm
theorem hrest0 (c : Dev nD) : ∀ b, b ∉ Finset.univ.image (Pipeline.arrRef spec0) → V2 m ρ c b = V1 m ρ c b :=
  fun b hb => W1_of_ne m ρ c b fun w e => hb (Finset.mem_image.mpr ⟨w, Finset.mem_univ _, e⟩)

/-- At region 1's exit: its arrays at what the pipeline leaves, every other buffer as entered. -/
def W2 (c : Dev nD) : Valuation τ sig (Elt F) :=
  Pipeline.withArrays spec1 c (W1 m ρ c) fun w => (dat1 (V2 m ρ) c).arrAt w cfg1.N
theorem W2_arr (c : Dev nD) (w : Fin cfg1.W) :
    W2 m ρ c (Proc.devRef .tc (Pipeline.arrRef spec1 w)) = (dat1 (V2 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V3 : (c : Dev nD) → (b : Ref sig .tc) → Buf (Elt F) ((c : Thread nD τ).loc b) := fun c b => W2 m ρ c b
theorem hF1 (c : Dev nD) (w : Fin cfg1.W) : (dat1 (V2 m ρ) c).arrAt w cfg1.N = V3 m ρ c (Pipeline.arrRef spec1 w) :=
  (W2_arr m ρ c w).symm
theorem hrest1 (c : Dev nD) : ∀ b, b ∉ Finset.univ.image (Pipeline.arrRef spec1) → V3 m ρ c b = V2 m ρ c b :=
  fun b hb => W2_of_ne m ρ c b fun w e => hb (Finset.mem_image.mpr ⟨w, Finset.mem_univ _, e⟩)

/-- At region 2's exit: its arrays at what the pipeline leaves, every other buffer as entered. -/
def W3 (c : Dev nD) : Valuation τ sig (Elt F) :=
  Pipeline.withArrays spec2 c (W2 m ρ c) fun w => (dat2 (V3 m ρ) c).arrAt w cfg2.N
theorem W3_arr (c : Dev nD) (w : Fin cfg2.W) :
    W3 m ρ c (Proc.devRef .tc (Pipeline.arrRef spec2 w)) = (dat2 (V3 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V4 : (c : Dev nD) → (b : Ref sig .tc) → Buf (Elt F) ((c : Thread nD τ).loc b) := fun c b => W3 m ρ c b
theorem hF2 (c : Dev nD) (w : Fin cfg2.W) : (dat2 (V3 m ρ) c).arrAt w cfg2.N = V4 m ρ c (Pipeline.arrRef spec2 w) :=
  (W3_arr m ρ c w).symm
theorem hrest2 (c : Dev nD) : ∀ b, b ∉ Finset.univ.image (Pipeline.arrRef spec2) → V4 m ρ c b = V3 m ρ c b :=
  fun b hb => W3_of_ne m ρ c b fun w e => hb (Finset.mem_image.mpr ⟨w, Finset.mem_univ _, e⟩)

/-! ## The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat2 (V3 m ρ) c).arrAt_in 0 rfl _).trans (A_eq2 (V3 m ρ) c 0))
    _ = W1 m ρ c (Proc.devRef .tc main_arg0) := W2_of_ne m ρ c main_arg0 (by decide)
    _ = W0 m ρ c (Proc.devRef .tc main_arg0) := (W1_arr m ρ c 0).trans (((dat0 (V1 m ρ) c).arrAt_in 0 rfl _).trans (A_eq0 (V1 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 2).trans (((dat1 (V2 m ρ) c).arrAt_in 2 rfl _).trans (A_eq1 (V2 m ρ) c 2))
    _ = W0 m ρ c (Proc.devRef .tc main_arg1) := W1_of_ne m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 1).trans (((dat1 (V2 m ρ) c).arrAt_in 1 rfl _).trans (A_eq1 (V2 m ρ) c 1))
    _ = W0 m ρ c (Proc.devRef .tc main_arg2) := W1_of_ne m ρ c main_arg2 (by decide)
    _ = m ((c : Thread nD τ).loc main_arg2) := rfl

/-- The two results: the third region's output array, and the second region's first output array (which the third
    region does not touch). -/
theorem W3_main_v2 (c : Dev nD) : W3 m ρ c (Proc.devRef .tc main_v2) = (dat2 (V3 m ρ) c).arrAt 2 cfg2.N := W3_arr m ρ c 2
theorem W3_main_v1_0 (c : Dev nD) : W3 m ρ c (Proc.devRef .tc main_v1_0) = (dat1 (V2 m ρ) c).arrAt 3 cfg1.N :=
  (W3_of_ne m ρ c main_v1_0 (by decide)).trans (W2_arr m ρ c 3)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0 over the thread state: entered from every unscoped buffer at the contents before it, left at the
    contents after it; its arrays split out of the unscoped buffers and put back; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it; its arrays split out of the unscoped buffers and put back; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ), .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame claim: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The run with the two results named: the arrays the second and third regions leave. -/
theorem run_values : θ_run defs (onTc (τ := τ) (main (F := F))) ⟨m, fun _ => 0, ρ⟩ (fun r => ∀ c : Dev nD,
      r.2.mem ((c.tc : Thread nD τ).loc main_v2) = (dat2 (V3 m ρ) c).arrAt 2 cfg2.N
      ∧ r.2.mem ((c.tc : Thread nD τ).loc main_v1_0) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_main_v2 m ρ c),
     (h c _ (mem_uc main_v1_0 (by decide))).trans (W3_main_v1_0 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Fr

end
-- ==== Proof.ArrOutIdeal.lean ====
import proofs.«117598_j62775241999269_2_alg».proof.Proof.FrR0Ideal
import proofs.«117598_j62775241999269_2_alg».proof.Proof.FrR1Ideal
import proofs.«117598_j62775241999269_2_alg».proof.Proof.FrR2Ideal
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # What the output arrays hold after each region

Every output window here has one block — its whole array — written back once, after the last grid point. So, given
that reading an array back through that block gives the array (`hread`) and that the block holds every index
(`hmem`), the array ends holding what the body left in the staging buffer at the last point. -/

section
variable (V : (c : Dev nD) → (b : Ref sig .tc) → Buf (Elt F) ((c : Thread nD τ).loc b))

set_option backward.isDefEq.respectTransparency.types false in
/-- The column maxima: the running maximum after the last of the 8 blocks. -/
theorem arr0_1_of (c : Dev nD)
    (hread : ∀ (t : Fin cfg0.N) (G : Buf (Elt F) ((cfg0.win 1).arr.view.loc (c.tc : Thread nD τ))), ((cfg0.win 1).blk t).view.read (Elt F) G = G)
    (hmem : ∀ (t : Fin cfg0.N) (i : ((cfg0.win 1).arr.view.loc (c.tc : Thread nD τ)).2.ty.Idx), i ∈ ((cfg0.win 1).blk t).view.set) :
    (dat0 V c).arrAt 1 cfg0.N = acc0 V c 7 (by rw [show cfg0.N = 8 from N_0]; decide) := by
  refine (dat0 V c).arrAt_eq_of_cover 1 _ (fun t hf => ?_) (fun i => ⟨t0_7, (flush0_1 t0_7).mpr (by decide), hmem t0_7 i⟩)
  have ht : t.val = 7 := by
    have := (flush0_1 t).mp hf
    have hN : t.val < 8 := lt_of_lt_of_eq t.isLt (show cfg0.N = 8 from N_0)
    omega
  rw [hread]
  show (cfg0.win 1).cut (grid0.coords t) ((dat0 V c).after 1 t) = _
  rw [after0_1]
  obtain ⟨n, hn⟩ := t
  dsimp only at ht; subst ht
  rfl

set_option backward.isDefEq.respectTransparency.types false in
/-- The pooled row of the elements. -/
theorem arr1_3_of (c : Dev nD)
    (hread : ∀ (t : Fin cfg1.N) (G : Buf (Elt F) ((cfg1.win 3).arr.view.loc (c.tc : Thread nD τ))), ((cfg1.win 3).blk t).view.read (Elt F) G = G)
    (hmem : ∀ (t : Fin cfg1.N) (i : ((cfg1.win 3).arr.view.loc (c.tc : Thread nD τ)).2.ty.Idx), i ∈ ((cfg1.win 3).blk t).view.set) :
    (dat1 V c).arrAt 3 cfg1.N = out1_3 (iblk1 V c 0 t1_0) (iblk1 V c 1 t1_0) (iblk1 V c 2 t1_0) := by
  refine (dat1 V c).arrAt_eq_of_cover 3 _ (fun t hf => ?_) (fun i => ⟨t1_0, flush1_3 t1_0, hmem t1_0 i⟩)
  rw [hread]
  show (cfg1.win 3).cut (grid1.coords t) ((dat1 V c).after 3 t) = _
  rw [after1_3, fin_N1 t]
  rfl

set_option backward.isDefEq.respectTransparency.types false in
/-- The vector `v`. -/
theorem arr1_4_of (c : Dev nD)
    (hread : ∀ (t : Fin cfg1.N) (G : Buf (Elt F) ((cfg1.win 4).arr.view.loc (c.tc : Thread nD τ))), ((cfg1.win 4).blk t).view.read (Elt F) G = G)
    (hmem : ∀ (t : Fin cfg1.N) (i : ((cfg1.win 4).arr.view.loc (c.tc : Thread nD τ)).2.ty.Idx), i ∈ ((cfg1.win 4).blk t).view.set) :
    (dat1 V c).arrAt 4 cfg1.N = out1_4 (iblk1 V c 0 t1_0) (iblk1 V c 1 t1_0) (iblk1 V c 2 t1_0) := by
  refine (dat1 V c).arrAt_eq_of_cover 4 _ (fun t hf => ?_) (fun i => ⟨t1_0, flush1_4 t1_0, hmem t1_0 i⟩)
  rw [hread]
  show (cfg1.win 4).cut (grid1.coords t) ((dat1 V c).after 4 t) = _
  rw [after1_4, fin_N1 t]
  rfl

set_option backward.isDefEq.respectTransparency.types false in
/-- The pooled row of `fact`: the weighted sum divided by the sum of weights after the last of the 16 blocks. -/
theorem arr2_2_of (c : Dev nD)
    (hread : ∀ (t : Fin cfg2.N) (G : Buf (Elt F) ((cfg2.win 2).arr.view.loc (c.tc : Thread nD τ))), ((cfg2.win 2).blk t).view.read (Elt F) G = G)
    (hmem : ∀ (t : Fin cfg2.N) (i : ((cfg2.win 2).arr.view.loc (c.tc : Thread nD τ)).2.ty.Idx), i ∈ ((cfg2.win 2).blk t).view.set) :
    (dat2 V c).arrAt 2 cfg2.N = k2_pay2 (sc2 V c 15 (by rw [show cfg2.N = 16 from N_2]; decide)).2.2 (sc2 V c 15 (by rw [show cfg2.N = 16 from N_2]; decide)).2.1 := by
  refine (dat2 V c).arrAt_eq_of_cover 2 _ (fun t hf => ?_) (fun i => ⟨t2_15, (flush2_2 t2_15).mpr (by decide), hmem t2_15 i⟩)
  have ht : t.val = 15 := by
    have := (flush2_2 t).mp hf
    have hN : t.val < 16 := lt_of_lt_of_eq t.isLt (show cfg2.N = 16 from N_2)
    omega
  rw [hread]
  show (cfg2.win 2).cut (grid2.coords t) ((dat2 V c).after 2 t) = _
  rw [after2_2]
  obtain ⟨n, hn⟩ := t
  dsimp only at ht; subst ht
  rfl
end

end Cert.KernelIdeal.Fr

end
-- ==== Proof.BlockRead.lean ====
/-
  What a window's block reads off an array, at an index.

  A block at grid point `t` is the unit-stride rectangle of the array whose offset on each axis is the block index at `t`
  times the block's size; an element of the block sits in the array at that offset plus its own coordinate.

  * The row windows over `fact`: the block index at point `t` is (t, 0), so entry (r, h) of block `t` is entry
    (t · R + r, h) of the array (R = 4096 rows in the first kernel, 2048 in the third).
  * The whole-array windows: the block index is (0, 0) at every point and the block is the array, so the block read off any
    array `G` is `G`, and every index of the array lies in the block.
-/
import proofs.«117598_j62775241999269_2_alg».proof.Proof.Gen.KernelIdeal.Launch
import proofs.«117598_j62775241999269_2_alg».proof.Proof.Gen.KernelIdeal.Points
import Idealize.ShloMosaic.Lib.Pipeline.Value
import Idealize.ShloMosaic.Lib.ValueIdx

noncomputable section

namespace Cert.KernelIdeal.BlockRead

open Idealize.ShloMosaic Idealize.ShloMosaic.TcCoe Idealize.ShloMosaic.ValueIdx
open Cert.KernelIdeal Cert.KernelIdeal.Gen

variable {F : FTy → Type} [FloatOps F]

/-! ## The first kernel: 8 blocks of 4096 rows; the running maximum's one block -/

/-- The row window's block index at point `t` is (t, 0). -/
theorem idx0_0 : ∀ t : Fin cfg0.N, win0_0.index t (0 : Fin 2) = t.val ∧ win0_0.index t (1 : Fin 2) = 0 :=
  (by decide +kernel : ∀ t : Fin grid0.N, _)
/-- The output window's block index is (0, 0) at every point. -/
theorem idx0_1 : ∀ t : Fin cfg0.N, win0_1.index t (0 : Fin 2) = 0 ∧ win0_1.index t (1 : Fin 2) = 0 :=
  (by decide +kernel : ∀ t : Fin grid0.N, _)

/-- Row `r` of block `t` of 4096 rows is a row of the array. -/
theorem row0_lt (t : Fin cfg0.N) (r : Fin 4096) : t.val * 4096 + r.val < 32768 := by
  have ht : t.val < 8 := lt_of_lt_of_eq t.isLt (show cfg0.N = 8 from N_0)
  have hr : r.val < 4096 := r.isLt
  omega

/-- Entry (r, h) of block `t` of 4096 rows is entry (t · 4096 + r, h) of the array. -/
theorem read_rows0 (G : Vec F S32768x768 .f32) (t : Fin cfg0.N) (r : Fin 4096) (h : Fin 768) :
    ((cfg0.win 0).blk t).view.read (Elt F) G (ix2 r h)
      = G (ix2 (⟨t.val * 4096 + r.val, row0_lt t r⟩ : Fin 32768) h) := by
  show G (((cfg0.win 0).blk t).view.emb (ix2 r h)) = G _
  refine congrArg G ?_
  obtain ⟨e0, e1⟩ := idx0_0 t
  funext a; apply Fin.ext
  match a with
  | ⟨0, _⟩ => show win0_0.index t (0 : Fin 2) * 4096 + 1 * r.val = t.val * 4096 + r.val; omega
  | ⟨1, _⟩ => show win0_0.index t (1 : Fin 2) * 768 + 1 * h.val = h.val; omega

/-- The output window's block, read off any array, is the array. -/
theorem read_whole0_1 (G : Vec F S1x768 .f32) (t : Fin cfg0.N) : ((cfg0.win 1).blk t).view.read (Elt F) G = G := by
  funext y
  show G (((cfg0.win 1).blk t).view.emb y) = G y
  refine congrArg G ?_
  obtain ⟨e0, e1⟩ := idx0_1 t
  funext a; apply Fin.ext
  match a with
  | ⟨0, _⟩ => show win0_1.index t (0 : Fin 2) * 1 + 1 * (y 0).val = (y 0).val; omega
  | ⟨1, _⟩ => show win0_1.index t (1 : Fin 2) * 768 + 1 * (y 1).val = (y 1).val; omega

/-- Every index of the output array lies in the window's one block. -/
theorem mem_blk0_1 (t : Fin cfg0.N) (i : S1x768.Idx) : i ∈ ((cfg0.win 1).blk t).view.set := by
  show i ∈ ((View.whole main_v0).slice (win0_1.rect t)).set
  rw [View.set_slice_whole, Rect.mem_set_unit]
  obtain ⟨e0, e1⟩ := idx0_1 t
  intro a
  match a with
  | ⟨0, _⟩ =>
    show win0_1.index t (0 : Fin 2) * 1 ≤ (i 0).val ∧ (i 0).val < win0_1.index t (0 : Fin 2) * 1 + 1
    have h0 : (i 0).val < 1 := (i 0).isLt
    omega
  | ⟨1, _⟩ =>
    show win0_1.index t (1 : Fin 2) * 768 ≤ (i 1).val ∧ (i 1).val < win0_1.index t (1 : Fin 2) * 768 + 768
    have h1 : (i 1).val < 768 := (i 1).isLt
    omega

/-! ## The second kernel: one point; every window's block is its whole array -/

theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)

/-- The column maximum's window: its block, read off any array, is the array. -/
theorem read_whole1_0 (G : Vec F S1x768 .f32) (t : Fin cfg1.N) : ((cfg1.win 0).blk t).view.read (Elt F) G = G := by
  funext y
  show G (((cfg1.win 0).blk t).view.emb y) = G y
  refine congrArg G ?_
  obtain ⟨e0, e1⟩ := idx1_0 t
  funext a; apply Fin.ext
  match a with
  | ⟨0, _⟩ => show win1_0.index t (0 : Fin 2) * 1 + 1 * (y 0).val = (y 0).val; omega
  | ⟨1, _⟩ => show win1_0.index t (1 : Fin 2) * 768 + 1 * (y 1).val = (y 1).val; omega

/-- The weights' window. -/
theorem read_whole1_1 (G : Vec F S768x768 .f32) (t : Fin cfg1.N) : ((cfg1.win 1).blk t).view.read (Elt F) G = G := by
  funext y
  show G (((cfg1.win 1).blk t).view.emb y) = G y
  refine congrArg G ?_
  obtain ⟨e0, e1⟩ := idx1_1 t
  funext a; apply Fin.ext
  match a with
  | ⟨0, _⟩ => show win1_1.index t (0 : Fin 2) * 768 + 1 * (y 0).val = (y 0).val; omega
  | ⟨1, _⟩ => show win1_1.index t (1 : Fin 2) * 768 + 1 * (y 1).val = (y 1).val; omega

/-- The elements' window. -/
theorem read_whole1_2 (G : Vec F S4096x768 .f32) (t : Fin cfg1.N) : ((cfg1.win 2).blk t).view.read (Elt F) G = G := by
  funext y
  show G (((cfg1.win 2).blk t).view.emb y) = G y
  refine congrArg G ?_
  obtain ⟨e0, e1⟩ := idx1_2 t
  funext a; apply Fin.ext
  match a with
  | ⟨0, _⟩ => show win1_2.index t (0 : Fin 2) * 4096 + 1 * (y 0).val = (y 0).val; omega
  | ⟨1, _⟩ => show win1_2.index t (1 : Fin 2) * 768 + 1 * (y 1).val = (y 1).val; omega

/-- The pooled row's window (an output). -/
theorem read_whole1_3 (G : Vec F S1x768 .f32) (t : Fin cfg1.N) : ((cfg1.win 3).blk t).view.read (Elt F) G = G := by
  funext y
  show G (((cfg1.win 3).blk t).view.emb y) = G y
  refine congrArg G ?_
  obtain ⟨e0, e1⟩ := idx1_3 t
  funext a; apply Fin.ext
  match a with
  | ⟨0, _⟩ => show win1_3.index t (0 : Fin 2) * 1 + 1 * (y 0).val = (y 0).val; omega
  | ⟨1, _⟩ => show win1_3.index t (1 : Fin 2) * 768 + 1 * (y 1).val = (y 1).val; omega

/-- The projected column's window (an output). -/
theorem read_whole1_4 (G : Vec F S768x1 .f32) (t : Fin cfg1.N) : ((cfg1.win 4).blk t).view.read (Elt F) G = G := by
  funext y
  show G (((cfg1.win 4).blk t).view.emb y) = G y
  refine congrArg G ?_
  obtain ⟨e0, e1⟩ := idx1_4 t
  funext a; apply Fin.ext
  match a with
  | ⟨0, _⟩ => show win1_4.index t (0 : Fin 2) * 768 + 1 * (y 0).val = (y 0).val; omega
  | ⟨1, _⟩ => show win1_4.index t (1 : Fin 2) * 1 + 1 * (y 1).val = (y 1).val; omega

/-- Every index of the pooled row lies in its window's one block. -/
theorem mem_blk1_3 (t : Fin cfg1.N) (i : S1x768.Idx) : i ∈ ((cfg1.win 3).blk t).view.set := by
  show i ∈ ((View.whole main_v1_0).slice (win1_3.rect t)).set
  rw [View.set_slice_whole, Rect.mem_set_unit]
  obtain ⟨e0, e1⟩ := idx1_3 t
  intro a
  match a with
  | ⟨0, _⟩ =>
    show win1_3.index t (0 : Fin 2) * 1 ≤ (i 0).val ∧ (i 0).val < win1_3.index t (0 : Fin 2) * 1 + 1
    have h0 : (i 0).val < 1 := (i 0).isLt
    omega
  | ⟨1, _⟩ =>
    show win1_3.index t (1 : Fin 2) * 768 ≤ (i 1).val ∧ (i 1).val < win1_3.index t (1 : Fin 2) * 768 + 768
    have h1 : (i 1).val < 768 := (i 1).isLt
    omega

/-- Every index of the projected column lies in its window's one block. -/
theorem mem_blk1_4 (t : Fin cfg1.N) (i : S768x1.Idx) : i ∈ ((cfg1.win 4).blk t).view.set := by
  show i ∈ ((View.whole main_v1_1).slice (win1_4.rect t)).set
  rw [View.set_slice_whole, Rect.mem_set_unit]
  obtain ⟨e0, e1⟩ := idx1_4 t
  intro a
  match a with
  | ⟨0, _⟩ =>
    show win1_4.index t (0 : Fin 2) * 768 ≤ (i 0).val ∧ (i 0).val < win1_4.index t (0 : Fin 2) * 768 + 768
    have h0 : (i 0).val < 768 := (i 0).isLt
    omega
  | ⟨1, _⟩ =>
    show win1_4.index t (1 : Fin 2) * 1 ≤ (i 1).val ∧ (i 1).val < win1_4.index t (1 : Fin 2) * 1 + 1
    have h1 : (i 1).val < 1 := (i 1).isLt
    omega

/-! ## The third kernel: 16 blocks of 2048 rows; the projected column's and the result's one block -/

/-- The row window's block index at point `t` is (t, 0). -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)

/-- Row `r` of block `t` of 2048 rows is a row of the array. -/
theorem row2_lt (t : Fin cfg2.N) (r : Fin 2048) : t.val * 2048 + r.val < 32768 := by
  have ht : t.val < 16 := lt_of_lt_of_eq t.isLt (show cfg2.N = 16 from N_2)
  have hr : r.val < 2048 := r.isLt
  omega

/-- Entry (r, h) of block `t` of 2048 rows is entry (t · 2048 + r, h) of the array. -/
theorem read_rows2 (G : Vec F S32768x768 .f32) (t : Fin cfg2.N) (r : Fin 2048) (h : Fin 768) :
    ((cfg2.win 0).blk t).view.read (Elt F) G (ix2 r h)
      = G (ix2 (⟨t.val * 2048 + r.val, row2_lt t r⟩ : Fin 32768) h) := by
  show G (((cfg2.win 0).blk t).view.emb (ix2 r h)) = G _
  refine congrArg G ?_
  obtain ⟨e0, e1⟩ := idx2_0 t
  funext a; apply Fin.ext
  match a with
  | ⟨0, _⟩ => show win2_0.index t (0 : Fin 2) * 2048 + 1 * r.val = t.val * 2048 + r.val; omega
  | ⟨1, _⟩ => show win2_0.index t (1 : Fin 2) * 768 + 1 * h.val = h.val; omega

/-- The projected column's window: its block, read off any array, is the array. -/
theorem read_whole2_1 (G : Vec F S768x1 .f32) (t : Fin cfg2.N) : ((cfg2.win 1).blk t).view.read (Elt F) G = G := by
  funext y
  show G (((cfg2.win 1).blk t).view.emb y) = G y
  refine congrArg G ?_
  obtain ⟨e0, e1⟩ := idx2_1 t
  funext a; apply Fin.ext
  match a with
  | ⟨0, _⟩ => show win2_1.index t (0 : Fin 2) * 768 + 1 * (y 0).val = (y 0).val; omega
  | ⟨1, _⟩ => show win2_1.index t (1 : Fin 2) * 1 + 1 * (y 1).val = (y 1).val; omega

/-- The result's window (an output). -/
theorem read_whole2_2 (G : Vec F S1x768 .f32) (t : Fin cfg2.N) : ((cfg2.win 2).blk t).view.read (Elt F) G = G := by
  funext y
  show G (((cfg2.win 2).blk t).view.emb y) = G y
  refine congrArg G ?_
  obtain ⟨e0, e1⟩ := idx2_2 t
  funext a; apply Fin.ext
  match a with
  | ⟨0, _⟩ => show win2_2.index t (0 : Fin 2) * 1 + 1 * (y 0).val = (y 0).val; omega
  | ⟨1, _⟩ => show win2_2.index t (1 : Fin 2) * 768 + 1 * (y 1).val = (y 1).val; omega

/-- Every index of the result lies in its window's one block. -/
theorem mem_blk2_2 (t : Fin cfg2.N) (i : S1x768.Idx) : i ∈ ((cfg2.win 2).blk t).view.set := by
  show i ∈ ((View.whole main_v2).slice (win2_2.rect t)).set
  rw [View.set_slice_whole, Rect.mem_set_unit]
  obtain ⟨e0, e1⟩ := idx2_2 t
  intro a
  match a with
  | ⟨0, _⟩ =>
    show win2_2.index t (0 : Fin 2) * 1 ≤ (i 0).val ∧ (i 0).val < win2_2.index t (0 : Fin 2) * 1 + 1
    have h0 : (i 0).val < 1 := (i 0).isLt
    omega
  | ⟨1, _⟩ =>
    show win2_2.index t (1 : Fin 2) * 768 ≤ (i 1).val ∧ (i 1).val < win2_2.index t (1 : Fin 2) * 768 + 768
    have h1 : (i 1).val < 768 := (i 1).isLt
    omega

end Cert.KernelIdeal.BlockRead

end
-- ==== Proof.BlockReadIblk.lean ====
/-
  The blocks the three kernels read, as entries of the arrays the regions find.

  Each block is the window's view of its array read off the array's contents when the region is entered; so the row
  blocks are the arrays' rows (block `t`, row `r`, is row t · R + r), and the whole-array windows' blocks are the arrays.
-/
import proofs.«117598_j62775241999269_2_alg».proof.Proof.BlockRead
import proofs.«117598_j62775241999269_2_alg».proof.Proof.FrR0Ideal
import proofs.«117598_j62775241999269_2_alg».proof.Proof.FrR1Ideal
import proofs.«117598_j62775241999269_2_alg».proof.Proof.FrR2Ideal

noncomputable section

namespace Cert.KernelIdeal.BlockRead

open Idealize.ShloMosaic Idealize.ShloMosaic.TcCoe Idealize.ShloMosaic.ValueIdx
open Cert.KernelIdeal Cert.KernelIdeal.Gen Cert.KernelIdeal.Fr

variable {F : FTy → Type} [FloatOps F]
variable (V : (c : Dev nD) → (b : Ref sig .tc) → Buf (Elt F) ((c : Thread nD τ).loc b))

/-- First kernel: entry (r, h) of the row block at point `t` is entry (t · 4096 + r, h) of `fact`. -/
theorem iblk0_rows (c : Dev nD) (t : Fin cfg0.N) (r : Fin 4096) (h : Fin 768) :
    iblk0 V c 0 t (ix2 r h) = V c main_arg0 (ix2 (⟨t.val * 4096 + r.val, row0_lt t r⟩ : Fin 32768) h) :=
  read_rows0 (V c main_arg0) t r h

/-- Third kernel: entry (r, h) of the row block at point `t` is entry (t · 2048 + r, h) of `fact`. -/
theorem iblk2_rows (c : Dev nD) (t : Fin cfg2.N) (r : Fin 2048) (h : Fin 768) :
    iblk2 V c 0 t (ix2 r h) = V c main_arg0 (ix2 (⟨t.val * 2048 + r.val, row2_lt t r⟩ : Fin 32768) h) :=
  read_rows2 (V c main_arg0) t r h

/-- Second kernel: its three input blocks are the column maximum, the weights and the elements. -/
theorem iblk1_0 (c : Dev nD) (t : Fin cfg1.N) : iblk1 V c 0 t = V c main_v0 := read_whole1_0 (V c main_v0) t
theorem iblk1_1 (c : Dev nD) (t : Fin cfg1.N) : iblk1 V c 1 t = V c main_arg2 := read_whole1_1 (V c main_arg2) t
theorem iblk1_2 (c : Dev nD) (t : Fin cfg1.N) : iblk1 V c 2 t = V c main_arg1 := read_whole1_2 (V c main_arg1) t

/-- Third kernel: its second input block is the projected column. -/
theorem iblk2_1 (c : Dev nD) (t : Fin cfg2.N) : iblk2 V c 1 t = V c main_v1_1 := read_whole2_1 (V c main_v1_1) t

end Cert.KernelIdeal.BlockRead

end
-- ==== Proof.KValIdeal.lean ====
/-
  What the three kernels compute, as pure functions of the blocks they are given (at any float instance).

  * Kernel 0 keeps a running column maximum: after block 0 the column maximum of that block, after block `n + 1`
    the elementwise maximum of what it held and the column maximum of the new block.
  * Kernel 1 maps (the column maxima, the weights, the elements) to the pooled row of the elements and to the
    vector `v`.
  * Kernel 2 keeps a state (running maximum, running sum of weights, running weighted sum of rows); its first
    point starts from (−∞, 0, 0); its result is the weighted sum divided by the sum of weights after the last block.
-/
import proofs.«117598_j62775241999269_2_alg».proof.Proof.Gen.KernelIdeal.Skeleton

noncomputable section

namespace Cert.KernelIdeal.KV

open Idealize.ShloMosaic Cert.KernelIdeal Cert.KernelIdeal.Gen

variable {F : FTy → Type} [FloatOps F]

/-- The running column maximum after blocks `0 … n`. -/
def qAt (b : ℕ → Vec F S4096x768 .f32) : ℕ → Vec F S1x768 .f32
  | 0 => k0_pay1 (b 0)
  | n + 1 => k0_pay2 (b (n + 1)) (qAt b n)

/-- Kernel 2's state: the running maximum, the running sum of weights, the running weighted sum of rows. -/
structure St (F : FTy → Type) [FloatOps F] where
  m : Vec F S1x1 .f32
  l : Vec F S1x1 .f32
  a : Vec F S1x768 .f32

/-- One block's update of the state. -/
def step (x : Vec F S2048x768 .f32) (v : Vec F S768x1 .f32) (s : St F) : St F :=
  ⟨k2_pay1 (k2_pay7 x v s.m), k2_pay10 x v s.m s.m s.l, k2_pay11 x v s.m s.m s.a⟩

/-- The state the first point starts from: (−∞, 0, 0). -/
def st0 : St F := ⟨k2_pay3, k2_pay4, k2_pay5⟩

/-- The state after blocks `0 … n`. -/
def stAt (b : ℕ → Vec F S2048x768 .f32) (v : Vec F S768x1 .f32) : ℕ → St F
  | 0 => step (b 0) v st0
  | n + 1 => step (b (n + 1)) v (stAt b v n)

/-- Kernel 2's result after the last block. -/
def outOf (s : St F) : Vec F S1x768 .f32 := k2_pay2 s.a s.l

end Cert.KernelIdeal.KV

end
-- ==== Proof.KVLinkA.lean ====
/-
  What the first two kernels leave in their output buffers, as the iterations of the kernels' payloads.

  A store through the whole rectangle at zero offsets leaves its payload, and a load through it reads the buffer: so
  the first kernel's buffer after position n is the running column maximum after blocks 0 … n, and the second kernel's
  two buffers are its two payloads of the three arrays it reads.
-/
import proofs.«117598_j62775241999269_2_alg».proof.Proof.FrR0Ideal
import proofs.«117598_j62775241999269_2_alg».proof.Proof.FrR1Ideal
import proofs.«117598_j62775241999269_2_alg».proof.Proof.KValIdeal
import Idealize.ShloMosaic.Lib.Pipeline.Value

noncomputable section

namespace Cert.KernelIdeal.KVLink

open Idealize.ShloMosaic Idealize.ShloMosaic.TcCoe
open Idealize.SL Idealize.SL.Sem
open Cert.KernelIdeal Cert.KernelIdeal.Gen Cert.KernelIdeal.Fr

variable {F : FTy → Type} [FloatOps F]

/-- The zero offsets, however spelt. -/
theorem hz00 : (![0, 0] : Fin 2 → Nat) = fun _ => 0 := by funext a; fin_cases a <;> rfl

section
variable (V : (c : Dev nD) → (b : Ref sig .tc) → Buf (Elt F) ((c : Thread nD τ).loc b))

/-- The first kernel's block of rows at position `t` (read cyclically over the 8 positions so that it is total). -/
def blk0 (c : Dev nD) (t : ℕ) : Vec F S4096x768 .f32 :=
  iblk0 V c 0 ⟨t % 8, lt_of_lt_of_eq (Nat.mod_lt t (by decide)) (show cfg0.N = 8 from N_0).symm⟩

/-- At a position of the grid it is that position's block. -/
theorem blk0_eq (c : Dev nD) (t : Fin cfg0.N) : blk0 V c t.val = iblk0 V c 0 t := by
  have h : (⟨t.val % 8, lt_of_lt_of_eq (Nat.mod_lt t.val (by decide)) (show cfg0.N = 8 from N_0).symm⟩ : Fin cfg0.N) = t :=
    Fin.ext (Nat.mod_eq_of_lt (lt_of_lt_of_eq t.isLt (show cfg0.N = 8 from N_0)))
  unfold blk0
  rw [h]

/-- The first kernel's buffer after position `n` is the running column maximum after blocks `0 … n`. -/
theorem acc0_eq (c : Dev nD) (n : ℕ) (hn : n < cfg0.N) : acc0 V c n hn = KV.qAt (blk0 V c) n := by
  induction n with
  | zero =>
    have e : acc0 V c 0 hn = View.canon (Val := Elt F) [⟨rq0, k0_pay1 (View.ld (iblk0 V c 0 ⟨0, hn⟩) rx0)⟩] := rfl
    rw [e, View.canon_unit_zero hz00, View.ld_unit_zero (S := S4096x768) hz00, ← blk0_eq V c ⟨0, hn⟩]
    rfl
  | succ n ih =>
    have e : acc0 V c (n + 1) hn = View.canon (Val := Elt F)
        [⟨rq0, k0_pay2 (View.ld (iblk0 V c 0 ⟨n + 1, hn⟩) rx0) (View.ld (acc0 V c n (Nat.lt_of_succ_lt hn)) rq0)⟩] := rfl
    rw [e, View.canon_unit_zero hz00, View.ld_unit_zero (S := S4096x768) hz00, View.ld_unit_zero (S := S1x768) hz00,
      ih (Nat.lt_of_succ_lt hn), ← blk0_eq V c ⟨n + 1, hn⟩]
    rfl

end

/-- The second kernel's pooled-row buffer is its first payload. -/
theorem out1_3_eq (x0 : Vec F S1x768 .f32) (x1 : Vec F S768x768 .f32) (x2 : Vec F S4096x768 .f32) :
    out1_3 x0 x1 x2 = k1_pay1 x0 x1 x2 := by
  unfold out1_3
  rw [View.canon_unit_zero hz00, View.ld_unit_zero (S := S1x768) hz00, View.ld_unit_zero (S := S768x768) hz00,
    View.ld_unit_zero (S := S4096x768) hz00]

/-- The second kernel's `v` buffer is its second payload. -/
theorem out1_4_eq (x0 : Vec F S1x768 .f32) (x1 : Vec F S768x768 .f32) (x2 : Vec F S4096x768 .f32) :
    out1_4 x0 x1 x2 = k1_pay2 x0 x1 x2 := by
  unfold out1_4
  rw [View.canon_unit_zero hz00, View.ld_unit_zero (S := S1x768) hz00, View.ld_unit_zero (S := S768x768) hz00,
    View.ld_unit_zero (S := S4096x768) hz00]

end Cert.KernelIdeal.KVLink

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDotRhsT.lean ====
/-
  A matrix product with the right operand transposed, at the ideal values, read at an index.
  For the dimension numbers of an M×K by N×K product (`DotDims.transposedRhs M K N`: both operands contracted on their
  last axis, no batch axis) the kernel's `tpu.matmul` into a zero accumulator is, at the output index (a, b), the sum
  over k < K of l(a, k) · r(b, k) on the extended reals.
-/
import Idealize.ShloMosaic.PureOps.Ideal.Laws
import Idealize.ShloMosaic.Lib.ValueIdx

noncomputable section

namespace Cert.LibDotRhsT

open Idealize.ShloMosaic Idealize.ShloMosaic.ValueIdx

variable (M K N : Nat)

/-- The left operand's row is the output's row. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch by simp [DotDims.transposedRhs]),
    dif_pos (show (0 : Fin 2) ∈ (DotDims.transposedRhs M K N).lhsNonContracting by simp [DotDims.transposedRhs])]
  rfl

/-- The left operand's column is the contraction index. -/
theorem lhs1 (i : (⟨2, ![M, N]⟩ : Shape).Idx) (q : (DotDims.transposedRhs M K N).contr.Idx) :
    ((DotDims.transposedRhs M K N).lhsIdx i q 1).val
      = (q ⟨0, by rw [(DotDims.transposedRhs M K N).rank_contr]; exact Nat.one_pos⟩).val :=
  (DotDims.transposedRhs M K N).lhsIdx_val_of_single rfl i q

/-- The right operand's row is the output's column. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch by simp [DotDims.transposedRhs]),
    dif_pos (show (0 : Fin 2) ∈ (DotDims.transposedRhs M K N).rhsNonContracting by simp [DotDims.transposedRhs])]
  rfl

/-- The right operand's column is the contraction index. -/
theorem rhs1 (i : (⟨2, ![M, N]⟩ : Shape).Idx) (q : (DotDims.transposedRhs M K N).contr.Idx) :
    ((DotDims.transposedRhs M K N).rhsIdx i q 1).val
      = (q ⟨0, by rw [(DotDims.transposedRhs M K N).rank_contr]; exact Nat.one_pos⟩).val :=
  (DotDims.transposedRhs M K N).rhsIdx_val_of_single rfl i q

/-- The contraction's sum, re-indexed by k < K. -/
theorem sum_rhsT {φ₁ φ₂ : FTy} (l : FVec Ideal ⟨2, ![M, K]⟩ φ₁) (r : FVec Ideal ⟨2, ![N, K]⟩ φ₂) (j : (⟨2, ![M, N]⟩ : Shape).Idx) :
    ∑ k : (DotDims.transposedRhs M K N).contr.Idx,
        l ((DotDims.transposedRhs M K N).lhsIdx j k) * r ((DotDims.transposedRhs M K N).rhsIdx j k)
      = ∑ k : Fin K, l (ix2 (j 0) k) * r (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs0 M K N _ _
      | ⟨1, _⟩ => exact (lhs1 M K N _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs0 M K N _ _
      | ⟨1, _⟩ => exact (rhs1 M K N _ _).trans hk)
  exact congr (congrArg HMul.hMul (congrArg l el)) (congrArg r er)

/-- The kernel's product into a zero accumulator, at an index. -/
theorem matmul_rhsT {φ₁ φ₂ : FTy} (prec : Option ContractPrecision) (l : FVec Ideal ⟨2, ![M, K]⟩ φ₁) (r : FVec Ideal ⟨2, ![N, K]⟩ φ₂)
    (j : (⟨2, ![M, N]⟩ : Shape).Idx) :
    matmul (F := Ideal) (DotDims.transposedRhs M K N) prec l r (constant ⟨2, ![M, N]⟩ .f32 0x00000000#32) j
      = ∑ k : Fin K, l (ix2 (j 0) k) * r (ix2 (j 1) k) :=
  (Ideal.matmul_constant_zero_apply (DotDims.transposedRhs M K N) prec l r j).trans (sum_rhsT M K N l r j)

end Cert.LibDotRhsT

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.LibRowMin.lean ====
/-
  Minimum reductions of a matrix, at the ideal values, and sums down its columns.
  * For an [a, b] matrix reduced along its second axis into a vector of length a, a minimum reduction reads, at r, the
    fold of min over k < b of the entries (r, k), started from the accumulator's value.
  * The host's sum along the rows reads, at r, the initial value plus the sum over k < b of the entries (r, k).
  * For an [a, b] matrix reduced along its FIRST axis into a vector of length b: the index of the matrix that lies over
    position c of the vector with k inserted on the reduced axis is (k, c); the host's minimum reduction reads, at c, the
    fold of min over k < a of the entries (k, c), started from the initial value; the host's sum reads, at c, the initial
    value plus the sum over k < a of the entries (k, c).
-/
import Idealize.ShloMosaic.PureOps.Ideal.Laws
import Idealize.ShloMosaic.PureOps.Reduce
import Idealize.ShloMosaic.Lib.ValueIdx

noncomputable section

namespace Cert.LibRowMin

open Idealize.ShloMosaic Idealize.ShloMosaic.ValueIdx

/-- Over position `r` of the reduced vector, with `k` on the reduced (second) axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- Over position `c` of the reduced vector, with `k` on the reduced (first) axis, lies the matrix index `(k, c)`. -/
theorem lift_col {a b : ℕ} (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-- The minimum along a row: at `r`, the fold of `min` over the row's entries from the accumulator's value. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  refine (multiReduction_minimumf_eq_fold src acc h hφ hacc (ix1 r)).trans ?_
  refine (h.fold_filter_drop_single FloatOps.minimumf (FloatOps.ofBits φ acc) src (ix1 r)).trans ?_
  exact congrArg (Finset.fold min (Ideal.ofBits φ acc) · (Finset.univ : Finset (Fin b)))
    (funext fun k => congrArg src (lift_row h r k))

/-- The host's sum along a row: at `r`, the initial value plus the sum over the row's entries. -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel) (r : Fin a) :
    Host.reduceAdd x init h' hu (ix1 r) = init (Shape.Idx.first hu) + ∑ k : Fin b, x (ix2 r k) :=
  (Ideal.hostReduceAdd_single h' h x (init (Shape.Idx.first hu)) (ix1 r)).trans
    (congrArg (init (Shape.Idx.first hu) + ·) (Finset.sum_congr rfl fun k _ => congrArg x (lift_row h r k)))

/-- The host's minimum down a column: at `c`, the fold of `min` over the column's entries from the initial value. -/
theorem hostColMin_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩) (hu : 0 < u.numel) (c : Fin b) :
    Host.reduce FloatOps.minimumf x init h' hu (ix1 c)
      = (Finset.univ : Finset (Fin a)).fold min (init (Shape.Idx.first hu)) (fun k => x (ix2 k c)) := by
  refine (Host.reduce_eq_fold_single FloatOps.minimumf x init h' h hu (ix1 c)).trans ?_
  exact congrArg (Finset.fold min (init (Shape.Idx.first hu)) · (Finset.univ : Finset (Fin a)))
    (funext fun k => congrArg x (lift_col h c k))

end Cert.LibRowMin

end
-- ==== Proof.PayIdealLib.lean ====
/-
  The layout operations, reductions and matrix products the three kernels use, each read at an index, at the ideal
  values (the extended reals).

  * The two words: 0xFF800000 is -∞ and 0x00000000 is 0.
  * A reduction of an [a, b] matrix along its FIRST axis into a vector of length b reads, at c, the sum (or the fold of
    max from the accumulator's value) over k < a of the entries (k, c).
  * A [1] vector cast to [1, 1], and a [1, 1] array broadcast to [a, b]: every entry is the one entry.
  * The six matrix products into a zero accumulator, each at an output index: plain (rows by columns), with the right
    operand transposed (rows by rows), and with the left operand transposed (columns by columns).
-/
import proofs.«117598_j62775241999269_2_alg».proof.Proof.Gen.KernelIdeal.Skeleton
import proofs.«117598_j62775241999269_2_alg».proof.Proof.LibPlainDot
import proofs.«117598_j62775241999269_2_alg».proof.Proof.LibDotRhsT
import proofs.«117598_j62775241999269_2_alg».proof.Proof.LibRowReduce
import proofs.«117598_j62775241999269_2_alg».proof.Proof.LibRowMin
import Idealize.ShloMosaic.Lib.ValueLayout
import Idealize.ShloMosaic.Lib.Pipeline.Value

noncomputable section

namespace Cert.KernelIdeal.PayIdeal

open Idealize.ShloMosaic Idealize.ShloMosaic.ValueIdx Cert.KernelIdeal Cert.KernelIdeal.Gen

/-! ## Words -/

/-- The word 0xFF800000 is -∞. -/
theorem ofBits_ninf : Ideal.ofBits .f32 0xFF800000#32 = ⊥ := by simp [Ideal.ofBits, Ideal.ieee]

/-- The word 0x00000000 is 0. -/
theorem ofBits_zero : Ideal.ofBits .f32 0x00000000#32 = 0 := Ideal.ofBits_zero_f32

/-! ## Reductions down the columns -/

/-- The sum down a column: at `c`, the sum over the column's entries. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (Cert.LibRowMin.lift_col h c k))

/-- The maximum down a column: at `c`, the fold of `max` over the column's entries from the accumulator's value. -/
theorem colMax_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (c : Fin b) :
    multiReduction .maximumf [0] ⟨1, ![b]⟩ src acc h hφ hacc (ix1 c)
      = (Finset.univ : Finset (Fin a)).fold max (FloatOps.ofBits φ acc) (fun k => src (ix2 k c)) :=
  (Ideal.multiReduction_maximumf_single src acc h hφ hacc (ix1 c)).trans
    (congrArg (Finset.fold max (FloatOps.ofBits φ acc) · (Finset.univ : Finset (Fin a)))
      (funext fun k => congrArg src (Cert.LibRowMin.lift_col h c k)))

/-! ## One entry spread over an array -/

variable {α : Type}

/-- A `[1, 1]` array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A `[1]` vector cast to `[1, 1]` reads its one entry. -/
theorem shapeCast_1_11_apply (x : (⟨1, ![1]⟩ : Shape).Idx → α) (h : (⟨1, ![1]⟩ : Shape).ShapeCasts ⟨2, ![1, 1]⟩) :
    shapeCast ⟨2, ![1, 1]⟩ x h (ix2 (0 : Fin 1) (0 : Fin 1)) = x (ix1 (0 : Fin 1)) :=
  shapeCast_a_1a_apply x h 0 0

/-! ## A product with the left operand transposed -/

/-- The left operand's row is the contraction index. -/
theorem lhsT_l0 (i : S1x768.Idx) (q : dot_S2048x1_S2048x768_S1x768_0_0_1_1_n_n.contr.Idx) :
    (dot_S2048x1_S2048x768_S1x768_0_0_1_1_n_n.lhsIdx i q 0).val
      = (q ⟨0, by rw [dot_S2048x1_S2048x768_S1x768_0_0_1_1_n_n.rank_contr]; exact Nat.one_pos⟩).val :=
  dot_S2048x1_S2048x768_S1x768_0_0_1_1_n_n.lhsIdx_val_of_single rfl i q

/-- The left operand's column is the output's row. -/
theorem lhsT_l1 (i : S1x768.Idx) (q : dot_S2048x1_S2048x768_S1x768_0_0_1_1_n_n.contr.Idx) :
    (dot_S2048x1_S2048x768_S1x768_0_0_1_1_n_n.lhsIdx i q 1).val = (i 0).val := by
  unfold DotDims.lhsIdx
  rw [dif_neg (show ¬(1 : Fin 2) ∈ dot_S2048x1_S2048x768_S1x768_0_0_1_1_n_n.lhsBatch by
      simp [dot_S2048x1_S2048x768_S1x768_0_0_1_1_n_n]),
    dif_pos (show (1 : Fin 2) ∈ dot_S2048x1_S2048x768_S1x768_0_0_1_1_n_n.lhsNonContracting by
      simp [dot_S2048x1_S2048x768_S1x768_0_0_1_1_n_n])]
  rfl

/-- The right operand's row is the contraction index. -/
theorem lhsT_r0 (i : S1x768.Idx) (q : dot_S2048x1_S2048x768_S1x768_0_0_1_1_n_n.contr.Idx) :
    (dot_S2048x1_S2048x768_S1x768_0_0_1_1_n_n.rhsIdx i q 0).val
      = (q ⟨0, by rw [dot_S2048x1_S2048x768_S1x768_0_0_1_1_n_n.rank_contr]; exact Nat.one_pos⟩).val :=
  dot_S2048x1_S2048x768_S1x768_0_0_1_1_n_n.rhsIdx_val_of_single rfl i q

/-- The right operand's column is the output's column. -/
theorem lhsT_r1 (i : S1x768.Idx) (q : dot_S2048x1_S2048x768_S1x768_0_0_1_1_n_n.contr.Idx) :
    (dot_S2048x1_S2048x768_S1x768_0_0_1_1_n_n.rhsIdx i q 1).val = (i 1).val := by
  unfold DotDims.rhsIdx
  rw [dif_neg (show ¬(1 : Fin 2) ∈ dot_S2048x1_S2048x768_S1x768_0_0_1_1_n_n.rhsBatch by
      simp [dot_S2048x1_S2048x768_S1x768_0_0_1_1_n_n]),
    dif_pos (show (1 : Fin 2) ∈ dot_S2048x1_S2048x768_S1x768_0_0_1_1_n_n.rhsNonContracting by
      simp [dot_S2048x1_S2048x768_S1x768_0_0_1_1_n_n])]
  rfl

/-- The [2048, 1]ᵀ by [2048, 768] product into a zero accumulator: at (0, h), the sum over r of l(r, 0) · x(r, h). -/
theorem matmul_lhsT {φ₁ φ₂ : FTy} (prec : Option ContractPrecision) (l : FVec Ideal S2048x1 φ₁) (r : FVec Ideal S2048x768 φ₂)
    (h : Fin 768) :
    matmul (F := Ideal) dot_S2048x1_S2048x768_S1x768_0_0_1_1_n_n prec l r (constant S1x768 .f32 0x00000000#32) (ix2 (0 : Fin 1) h)
      = ∑ k : Fin 2048, l (ix2 k (0 : Fin 1)) * r (ix2 k h) := by
  refine (Ideal.matmul_constant_zero_apply dot_S2048x1_S2048x768_S1x768_0_0_1_1_n_n prec l r _).trans ?_
  rw [← Equiv.sum_comp (contrEquiv1 dot_S2048x1_S2048x768_S1x768_0_0_1_1_n_n 2048 rfl rfl).symm]
  refine Finset.sum_congr rfl fun k _ => ?_
  have hk := contrEquiv1_symm_val dot_S2048x1_S2048x768_S1x768_0_0_1_1_n_n 2048 rfl rfl k
  have el : dot_S2048x1_S2048x768_S1x768_0_0_1_1_n_n.lhsIdx (ix2 (0 : Fin 1) h)
      ((contrEquiv1 dot_S2048x1_S2048x768_S1x768_0_0_1_1_n_n 2048 rfl rfl).symm k) = ix2 k (0 : Fin 1) :=
    funext fun a => Fin.ext (by
      match a with
      | ⟨0, _⟩ => exact (lhsT_l0 _ _).trans hk
      | ⟨1, _⟩ => exact lhsT_l1 _ _)
  have er : dot_S2048x1_S2048x768_S1x768_0_0_1_1_n_n.rhsIdx (ix2 (0 : Fin 1) h)
      ((contrEquiv1 dot_S2048x1_S2048x768_S1x768_0_0_1_1_n_n 2048 rfl rfl).symm k) = ix2 k h :=
    funext fun a => Fin.ext (by
      match a with
      | ⟨0, _⟩ => exact (lhsT_r0 _ _).trans hk
      | ⟨1, _⟩ => exact lhsT_r1 _ _)
  exact congr (congrArg HMul.hMul (congrArg l el)) (congrArg r er)

/-! ## The other five products: the printed dimension numbers are the library's plain and right-transposed ones -/

/-- [1, 768] by [768, 768]: at (0, j), the sum over h of l(0, h) · r(h, j). -/
theorem matmul_1x768_768x768 {φ₁ φ₂ : FTy} (prec : Option ContractPrecision) (l : FVec Ideal S1x768 φ₁) (r : FVec Ideal S768x768 φ₂)
    (j : Fin 768) :
    matmul (F := Ideal) dot_S1x768_S768x768_S1x768_1_0_0_1_n_n prec l r (constant S1x768 .f32 0x00000000#32) (ix2 (0 : Fin 1) j)
      = ∑ k : Fin 768, l (ix2 (0 : Fin 1) k) * r (ix2 k j) :=
  Cert.LibPlainDot.matmul_plain 1 768 768 prec l r (ix2 (0 : Fin 1) j)

/-- [1, 768] by [4096, 768]ᵀ: at (0, i), the sum over j of l(0, j) · r(i, j). -/
theorem matmul_1x768_4096x768T {φ₁ φ₂ : FTy} (prec : Option ContractPrecision) (l : FVec Ideal S1x768 φ₁) (r : FVec Ideal S4096x768 φ₂)
    (i : Fin 4096) :
    matmul (F := Ideal) dot_S1x768_S4096x768_S1x4096_1_1_0_0_n_n prec l r (constant S1x4096 .f32 0x00000000#32) (ix2 (0 : Fin 1) i)
      = ∑ k : Fin 768, l (ix2 (0 : Fin 1) k) * r (ix2 i k) :=
  Cert.LibDotRhsT.matmul_rhsT 1 768 4096 prec l r (ix2 (0 : Fin 1) i)

/-- [1, 4096] by [4096, 768]: at (0, h), the sum over i of l(0, i) · r(i, h). -/
theorem matmul_1x4096_4096x768 {φ₁ φ₂ : FTy} (prec : Option ContractPrecision) (l : FVec Ideal S1x4096 φ₁) (r : FVec Ideal S4096x768 φ₂)
    (h : Fin 768) :
    matmul (F := Ideal) dot_S1x4096_S4096x768_S1x768_1_0_0_1_n_n prec l r (constant S1x768 .f32 0x00000000#32) (ix2 (0 : Fin 1) h)
      = ∑ k : Fin 4096, l (ix2 (0 : Fin 1) k) * r (ix2 k h) :=
  Cert.LibPlainDot.matmul_plain 1 4096 768 prec l r (ix2 (0 : Fin 1) h)

/-- [768, 768] by [1, 768]ᵀ: at (h, 0), the sum over j of l(h, j) · r(0, j). -/
theorem matmul_768x768_1x768T {φ₁ φ₂ : FTy} (prec : Option ContractPrecision) (l : FVec Ideal S768x768 φ₁) (r : FVec Ideal S1x768 φ₂)
    (h : Fin 768) :
    matmul (F := Ideal) dot_S768x768_S1x768_S768x1_1_1_0_0_n_n prec l r (constant S768x1 .f32 0x00000000#32) (ix2 h (0 : Fin 1))
      = ∑ k : Fin 768, l (ix2 h k) * r (ix2 (0 : Fin 1) k) :=
  Cert.LibDotRhsT.matmul_rhsT 768 768 1 prec l r (ix2 h (0 : Fin 1))

/-- [2048, 768] by [768, 1]: at (r, 0), the sum over h of l(r, h) · v(h, 0). -/
theorem matmul_2048x768_768x1 {φ₁ φ₂ : FTy} (prec : Option ContractPrecision) (l : FVec Ideal S2048x768 φ₁) (r : FVec Ideal S768x1 φ₂)
    (p : Fin 2048) :
    matmul (F := Ideal) dot_S2048x768_S768x1_S2048x1_1_0_0_1_n_n prec l r (constant S2048x1 .f32 0x00000000#32) (ix2 p (0 : Fin 1))
      = ∑ k : Fin 768, l (ix2 p k) * r (ix2 k (0 : Fin 1)) :=
  Cert.LibPlainDot.matmul_plain 2048 768 1 prec l r (ix2 p (0 : Fin 1))

end Cert.KernelIdeal.PayIdeal

end
-- ==== Proof.Spec.lean ====
/-
  The pooling computation, written twice over the extended reals, on plain index functions.

  Data: `fact : [32768, 768]`, `el : [4096, 768]`, `w : [768, 768]`.

  * The column maximum `q h = max_n fact n h`; the projection `t j = Σ_h q h · w h j`; the logits
    `Σ_j t j · el i j`; their softmax over `i`; the pooled row `ep h = Σ_i softmax i · el i h`.
  * The second logits `e n = Σ_j (Σ_h fact n h · w h j) · ep j`, which by associativity are also
    `Σ_h fact n h · (Σ_j w h j · ep j)`; their softmax over `n`; the pooled row `Σ_n fact n h · softmax n`.

  The "blockwise" forms compute the column maximum block by block (8 blocks of 4096 rows), and the last pooled row by
  the running-maximum recurrence over 16 blocks of 2048 rows: a state `(m, l, a)` — the maximum so far, the sum of
  `exp (e − m)` so far, and the sum of `exp (e − m) · fact` so far — rescaled by `exp (m_old − m_new)` at each block,
  the result being `a / l` after the last block. The "whole" forms are the textbook ones.
-/
import Idealize.ShloMosaic.PureOps.Ideal

noncomputable section

namespace Cert.Pool

open Idealize.ShloMosaic

/-- The maximum of a finite family of extended reals, from `-∞`. -/
def foldMax {R : ℕ} (f : Fin R → EReal) : EReal := (Finset.univ : Finset (Fin R)).fold max ⊥ f

/-- Block `t` of `R` consecutive rows of `fact` (row `t·R + r`; read cyclically so that it is total). -/
def blkRows (R : ℕ) (fact : Fin 32768 → Fin 768 → EReal) (t : ℕ) (r : Fin R) (h : Fin 768) : EReal :=
  fact ⟨(t * R + r.val) % 32768, Nat.mod_lt _ (by norm_num)⟩ h

/-! ## Shared: projection, logits, softmax over the 4096 elements -/

def tproj (q : Fin 768 → EReal) (w : Fin 768 → Fin 768 → EReal) (j : Fin 768) : EReal := ∑ h, q h * w h j
def logitE (q : Fin 768 → EReal) (w : Fin 768 → Fin 768 → EReal) (el : Fin 4096 → Fin 768 → EReal) (i : Fin 4096) : EReal :=
  ∑ j, tproj q w j * el i j
def exE (q : Fin 768 → EReal) (w : Fin 768 → Fin 768 → EReal) (el : Fin 4096 → Fin 768 → EReal) (i : Fin 4096) : EReal :=
  Ideal.exp (logitE q w el i - foldMax (logitE q w el))
def smE (q : Fin 768 → EReal) (w : Fin 768 → Fin 768 → EReal) (el : Fin 4096 → Fin 768 → EReal) (i : Fin 4096) : EReal :=
  Ideal.div (exE q w el i) (∑ i', exE q w el i')

/-! ## Blockwise forms -/

/-- The column maximum of one block of 4096 rows. -/
def qBlk (x : Fin 4096 → Fin 768 → EReal) (h : Fin 768) : EReal := foldMax fun r => x r h
/-- The running column maximum after blocks `0 … n`. -/
def qK (b : ℕ → Fin 4096 → Fin 768 → EReal) : ℕ → Fin 768 → EReal
  | 0 => qBlk (b 0)
  | n + 1 => fun h => max (qK b n h) (qBlk (b (n + 1)) h)
/-- The pooled row of the elements, softmax weight first. -/
def epK (q : Fin 768 → EReal) (w : Fin 768 → Fin 768 → EReal) (el : Fin 4096 → Fin 768 → EReal) (h : Fin 768) : EReal :=
  ∑ i, smE q w el i * el i h
/-- `v = w · epᵀ`. -/
def vK (w : Fin 768 → Fin 768 → EReal) (ep : Fin 768 → EReal) (h : Fin 768) : EReal := ∑ j, w h j * ep j

/-- The logits of one block of 2048 rows against `v`. -/
def eBlk (x : Fin 2048 → Fin 768 → EReal) (v : Fin 768 → EReal) (r : Fin 2048) : EReal := ∑ h, x r h * v h
def mNew (x : Fin 2048 → Fin 768 → EReal) (v : Fin 768 → EReal) (m : EReal) : EReal := max m (foldMax (eBlk x v))
def alpha (x : Fin 2048 → Fin 768 → EReal) (v : Fin 768 → EReal) (m : EReal) : EReal := Ideal.exp (m - mNew x v m)
def pBlk (x : Fin 2048 → Fin 768 → EReal) (v : Fin 768 → EReal) (m : EReal) (r : Fin 2048) : EReal :=
  Ideal.exp (eBlk x v r - mNew x v m)
def lNew (x : Fin 2048 → Fin 768 → EReal) (v : Fin 768 → EReal) (m l : EReal) : EReal :=
  alpha x v m * l + ∑ r, pBlk x v m r
def aNew (x : Fin 2048 → Fin 768 → EReal) (v : Fin 768 → EReal) (m : EReal) (a : Fin 768 → EReal) (h : Fin 768) : EReal :=
  alpha x v m * a h + ∑ r, pBlk x v m r * x r h

/-- The running state: the maximum, the sum of weights, the weighted sum of rows. -/
structure St where
  m : EReal
  l : EReal
  a : Fin 768 → EReal

def step (x : Fin 2048 → Fin 768 → EReal) (v : Fin 768 → EReal) (s : St) : St :=
  ⟨mNew x v s.m, lNew x v s.m s.l, aNew x v s.m s.a⟩
def st0 : St := ⟨⊥, 0, fun _ => 0⟩
/-- The state after blocks `0 … n`. -/
def stK (b : ℕ → Fin 2048 → Fin 768 → EReal) (v : Fin 768 → EReal) : ℕ → St
  | 0 => step (b 0) v st0
  | n + 1 => step (b (n + 1)) v (stK b v n)
/-- The pooled row of `fact`, after all 16 blocks. -/
def outK (b : ℕ → Fin 2048 → Fin 768 → EReal) (v : Fin 768 → EReal) (h : Fin 768) : EReal :=
  Ideal.div ((stK b v 15).a h) (stK b v 15).l

/-! ## Whole forms -/

def qR (fact : Fin 32768 → Fin 768 → EReal) (h : Fin 768) : EReal := foldMax fun n => fact n h
/-- The pooled row of the elements, element first. -/
def epR (q : Fin 768 → EReal) (w : Fin 768 → Fin 768 → EReal) (el : Fin 4096 → Fin 768 → EReal) (h : Fin 768) : EReal :=
  ∑ i, el i h * smE q w el i
def e2fR (fact : Fin 32768 → Fin 768 → EReal) (w : Fin 768 → Fin 768 → EReal) (ep : Fin 768 → EReal) (n : Fin 32768) : EReal :=
  ∑ j, (∑ h, fact n h * w h j) * ep j
def sm2R (fact : Fin 32768 → Fin 768 → EReal) (w : Fin 768 → Fin 768 → EReal) (ep : Fin 768 → EReal) (n : Fin 32768) : EReal :=
  Ideal.div (Ideal.exp (e2fR fact w ep n - foldMax (e2fR fact w ep)))
    (∑ n', Ideal.exp (e2fR fact w ep n' - foldMax (e2fR fact w ep)))
def outR (fact : Fin 32768 → Fin 768 → EReal) (w : Fin 768 → Fin 768 → EReal) (ep : Fin 768 → EReal) (h : Fin 768) : EReal :=
  ∑ n, fact n h * sm2R fact w ep n

/-- The kernel's two results and the reference's, as functions of the three arrays. -/
def kernelEp (fact : Fin 32768 → Fin 768 → EReal) (el : Fin 4096 → Fin 768 → EReal) (w : Fin 768 → Fin 768 → EReal) : Fin 768 → EReal :=
  epK (qK (blkRows 4096 fact) 7) w el
def kernelOut (fact : Fin 32768 → Fin 768 → EReal) (el : Fin 4096 → Fin 768 → EReal) (w : Fin 768 → Fin 768 → EReal) : Fin 768 → EReal :=
  outK (blkRows 2048 fact) (vK w (kernelEp fact el w))
def refEp (fact : Fin 32768 → Fin 768 → EReal) (el : Fin 4096 → Fin 768 → EReal) (w : Fin 768 → Fin 768 → EReal) : Fin 768 → EReal :=
  epR (qR fact) w el
def refOut (fact : Fin 32768 → Fin 768 → EReal) (el : Fin 4096 → Fin 768 → EReal) (w : Fin 768 → Fin 768 → EReal) : Fin 768 → EReal :=
  outR fact w (refEp fact el w)

/-- Every entry is a real number. -/
def AllReal {A B : ℕ} (x : Fin A → Fin B → EReal) : Prop := ∀ a b, ∃ r : ℝ, x a b = (r : EReal)

end Cert.Pool

end
-- ==== Proof.Cur.lean ====
/-
  Reading a rank-2 array of extended reals as a function of its row and its column.
-/
import Idealize.ShloMosaic.Lib.ValueIdx

noncomputable section

namespace Cert.Pool

open Idealize.ShloMosaic

/-- Entry `(a, b)` of a rank-2 array. -/
def cur2 {A B : ℕ} (x : (⟨2, ![A, B]⟩ : Shape).Idx → EReal) (a : Fin A) (b : Fin B) : EReal := x (ValueIdx.ix2 a b)

/-- Entry `(0, b)` of a one-row array. -/
def row0 {B : ℕ} (x : (⟨2, ![1, B]⟩ : Shape).Idx → EReal) (b : Fin B) : EReal := x (ValueIdx.ix2 0 b)

/-- Entry `(a, 0)` of a one-column array. -/
def col0 {A : ℕ} (x : (⟨2, ![A, 1]⟩ : Shape).Idx → EReal) (a : Fin A) : EReal := x (ValueIdx.ix2 a 0)

end Cert.Pool

end
-- ==== Proof.PayIdealA.lean ====
/-
  The first kernel at the ideal values: the running column maximum.

  One block's payload is the column maximum of the block: the reduction along the first axis is, at column h, the fold
  of max from -∞ over the block's rows, and the cast [768] → [1, 768] only adds a unit coordinate. The later points take
  the elementwise maximum of what was held and the new block's column maximum.
-/
import proofs.«117598_j62775241999269_2_alg».proof.Proof.PayIdealLib
import proofs.«117598_j62775241999269_2_alg».proof.Proof.KValIdeal
import proofs.«117598_j62775241999269_2_alg».proof.Proof.Spec
import proofs.«117598_j62775241999269_2_alg».proof.Proof.Cur

noncomputable section

namespace Cert.KernelIdeal.PayIdeal

open Idealize.ShloMosaic Idealize.ShloMosaic.ValueIdx Cert.KernelIdeal Cert.KernelIdeal.Gen Cert.Pool

/-- One block's column maximum. -/
theorem k0_pay1_apply (x : Vec Ideal S4096x768 .f32) (h : Fin 768) :
    k0_pay1 x (ix2 (0 : Fin 1) h) = qBlk (cur2 x) h := by
  unfold k0_pay1
  refine (shapeCast_a_1a_apply _ _ 0 h).trans ?_
  refine (colMax_apply x _ _ _ _ h).trans ?_
  show Finset.fold max (Ideal.ofBits .f32 0xFF800000#32) _ _ = _
  rw [ofBits_ninf]
  rfl

/-- A later point: the maximum of what was held and the new block's column maximum. -/
theorem k0_pay2_apply (x : Vec Ideal S4096x768 .f32) (q : Vec Ideal S1x768 .f32) (h : Fin 768) :
    k0_pay2 x q (ix2 (0 : Fin 1) h) = max (q (ix2 (0 : Fin 1) h)) (qBlk (cur2 x) h) := by
  unfold k0_pay2
  rw [shapeCast_self]
  exact congrArg (max (q (ix2 (0 : Fin 1) h))) (k0_pay1_apply x h)

/-- The running column maximum after blocks `0 … n`. -/
theorem qAt_apply (b : ℕ → Vec Ideal S4096x768 .f32) (n : ℕ) (h : Fin 768) :
    KV.qAt b n (ix2 (0 : Fin 1) h) = qK (fun t => cur2 (b t)) n h := by
  induction n generalizing h with
  | zero => exact k0_pay1_apply (b 0) h
  | succ n ih =>
    show k0_pay2 (b (n + 1)) (KV.qAt b n) (ix2 (0 : Fin 1) h) = max (qK (fun t => cur2 (b t)) n h) (qBlk (cur2 (b (n + 1))) h)
    rw [k0_pay2_apply, ih]

end Cert.KernelIdeal.PayIdeal

end
-- ==== Proof.PayIdealB.lean ====
/-
  The second kernel at the ideal values: the pooled row of the elements and the vector v.

  The first payload is a chain: the projection of the column maxima by the weights, the logits of the elements against
  it, their softmax along the one row (the row's maximum subtracted, exponentials, divided by their sum), and the
  softmax-weighted sum of the elements. The stages are named here and read at an index one by one; the narrowing of the
  last product's operands is the identity at the ideal values. The second payload is the weights against that pooled row.
-/
import proofs.«117598_j62775241999269_2_alg».proof.Proof.PayIdealLib
import proofs.«117598_j62775241999269_2_alg».proof.Proof.Spec
import proofs.«117598_j62775241999269_2_alg».proof.Proof.Cur

noncomputable section

namespace Cert.KernelIdeal.PayIdeal

open Idealize.ShloMosaic Idealize.ShloMosaic.ValueIdx Cert.KernelIdeal Cert.KernelIdeal.Gen Cert.Pool

/-- The logits of the 4096 elements, as the kernel computes them. -/
def k1_logits (q : FVec Ideal S1x768 .f32) (w : FVec Ideal S768x768 .f32) (e : FVec Ideal S4096x768 .f32) : FVec Ideal S1x4096 .f32 :=
  matmul (F := Ideal) dot_S1x768_S4096x768_S1x4096_1_1_0_0_n_n (some .fp32)
    (matmul (F := Ideal) dot_S1x768_S768x768_S1x768_1_0_0_1_n_n (some .fp32) (shapeCast S1x768 q shapeCasts_S1x768_S1x768) w
      (constant S1x768 .f32 0x00000000#32))
    e (constant S1x4096 .f32 0x00000000#32)

/-- Their exponentials against the row's maximum. -/
def k1_exps (q : FVec Ideal S1x768 .f32) (w : FVec Ideal S768x768 .f32) (e : FVec Ideal S4096x768 .f32) : FVec Ideal S1x4096 .f32 :=
  exp (subf (k1_logits q w e)
    (broadcastTo S1x4096
      (shapeCast S1x1 (multiReduction (F := Ideal) .maximumf [1] S1 (k1_logits q w e) 0xFF800000#32 reduces_S1x4096_S1 (.inl rfl) rfl)
        shapeCasts_S1_S1x1)
      broadcasts_S1x1_S1x4096))

/-- The softmax weights. -/
def k1_soft (q : FVec Ideal S1x768 .f32) (w : FVec Ideal S768x768 .f32) (e : FVec Ideal S4096x768 .f32) : FVec Ideal S1x4096 .f32 :=
  divf (k1_exps q w e)
    (broadcastTo S1x4096
      (shapeCast S1x1 (multiReduction (F := Ideal) .add [1] S1 (k1_exps q w e) 0x00000000#32 reduces_S1x4096_S1 (.inl rfl) rfl)
        shapeCasts_S1_S1x1)
      broadcasts_S1x1_S1x4096)

/-- The first payload is the product of the softmax weights with the elements. -/
theorem k1_pay1_eq (q : FVec Ideal S1x768 .f32) (w : FVec Ideal S768x768 .f32) (e : FVec Ideal S4096x768 .f32) :
    k1_pay1 q w e = matmul (F := Ideal) dot_S1x4096_S4096x768_S1x768_1_0_0_1_n_n none
      (truncf .bf16 (k1_soft q w e) bitsLt_bf16_f32) (truncf .bf16 e bitsLt_bf16_f32) (constant S1x768 .f32 0x00000000#32) := rfl

theorem k1_logits_apply (q : FVec Ideal S1x768 .f32) (w : FVec Ideal S768x768 .f32) (e : FVec Ideal S4096x768 .f32) (i : Fin 4096) :
    k1_logits q w e (ix2 (0 : Fin 1) i) = logitE (row0 q) (cur2 w) (cur2 e) i := by
  unfold k1_logits
  rw [shapeCast_self]
  refine (matmul_1x768_4096x768T (some .fp32) _ e i).trans ?_
  exact Finset.sum_congr rfl fun k _ => congrArg (· * e (ix2 i k)) (matmul_1x768_768x768 (some .fp32) q w k)

theorem k1_exps_apply (q : FVec Ideal S1x768 .f32) (w : FVec Ideal S768x768 .f32) (e : FVec Ideal S4096x768 .f32) (i : Fin 4096) :
    k1_exps q w e (ix2 (0 : Fin 1) i) = exE (row0 q) (cur2 w) (cur2 e) i := by
  unfold k1_exps
  show Ideal.exp (k1_logits q w e (ix2 (0 : Fin 1) i)
    - broadcastTo S1x4096
        (shapeCast S1x1 (multiReduction (F := Ideal) .maximumf [1] S1 (k1_logits q w e) 0xFF800000#32 reduces_S1x4096_S1 (.inl rfl) rfl)
          shapeCasts_S1_S1x1)
        broadcasts_S1x1_S1x4096 (ix2 (0 : Fin 1) i)) = _
  rw [broadcastTo_11_ab_apply, shapeCast_1_11_apply, k1_logits_apply]
  refine congrArg (fun z => Ideal.exp (logitE (row0 q) (cur2 w) (cur2 e) i - z)) ?_
  refine (Cert.LibRowReduce.rowMax_apply (k1_logits q w e) _ _ _ _ (0 : Fin 1)).trans ?_
  show Finset.fold max (Ideal.ofBits .f32 0xFF800000#32) _ _ = _
  rw [ofBits_ninf]
  exact congrArg (Finset.fold max ⊥ · (Finset.univ : Finset (Fin 4096))) (funext fun k => k1_logits_apply q w e k)

theorem k1_soft_apply (q : FVec Ideal S1x768 .f32) (w : FVec Ideal S768x768 .f32) (e : FVec Ideal S4096x768 .f32) (i : Fin 4096) :
    k1_soft q w e (ix2 (0 : Fin 1) i) = smE (row0 q) (cur2 w) (cur2 e) i := by
  unfold k1_soft
  show Ideal.div (k1_exps q w e (ix2 (0 : Fin 1) i))
    (broadcastTo S1x4096
        (shapeCast S1x1 (multiReduction (F := Ideal) .add [1] S1 (k1_exps q w e) 0x00000000#32 reduces_S1x4096_S1 (.inl rfl) rfl)
          shapeCasts_S1_S1x1)
        broadcasts_S1x1_S1x4096 (ix2 (0 : Fin 1) i)) = _
  rw [broadcastTo_11_ab_apply, shapeCast_1_11_apply, k1_exps_apply]
  refine congrArg (Ideal.div (exE (row0 q) (cur2 w) (cur2 e) i)) ?_
  refine (Cert.LibRowReduce.rowSum_apply (k1_exps q w e) _ _ _ _ (0 : Fin 1)).trans ?_
  exact Finset.sum_congr rfl fun k _ => k1_exps_apply q w e k

/-- The pooled row of the elements. -/
theorem k1_pay1_apply (q : Vec Ideal S1x768 .f32) (w : Vec Ideal S768x768 .f32) (e : Vec Ideal S4096x768 .f32) (h : Fin 768) :
    k1_pay1 q w e (ix2 (0 : Fin 1) h) = epK (row0 q) (cur2 w) (cur2 e) h := by
  rw [k1_pay1_eq]
  refine (matmul_1x4096_4096x768 none (truncf .bf16 (k1_soft q w e) bitsLt_bf16_f32) (truncf .bf16 e bitsLt_bf16_f32) h).trans ?_
  exact Finset.sum_congr rfl fun k _ => congrArg (· * e (ix2 k h)) (k1_soft_apply q w e k)

/-- The vector v: the weights against the pooled row. -/
theorem k1_pay2_apply (q : Vec Ideal S1x768 .f32) (w : Vec Ideal S768x768 .f32) (e : Vec Ideal S4096x768 .f32) (h : Fin 768) :
    k1_pay2 q w e (ix2 h (0 : Fin 1)) = vK (cur2 w) (epK (row0 q) (cur2 w) (cur2 e)) h := by
  unfold k1_pay2
  refine (matmul_768x768_1x768T (some .fp32) w (k1_pay1 q w e) h).trans ?_
  exact Finset.sum_congr rfl fun k _ => congrArg (w (ix2 h k) * ·) (k1_pay1_apply q w e k)

end Cert.KernelIdeal.PayIdeal

end
-- ==== Proof.KVLinkC.lean ====
/-
  The first two kernels' buffers at the ideal values, entry by entry: the running column maximum of the blocks, and the
  pooled row of the elements with the vector v.
-/
import proofs.«117598_j62775241999269_2_alg».proof.Proof.KVLinkA
import proofs.«117598_j62775241999269_2_alg».proof.Proof.PayIdealA
import proofs.«117598_j62775241999269_2_alg».proof.Proof.PayIdealB

noncomputable section

namespace Cert.KernelIdeal.KVLink

open Idealize.ShloMosaic Idealize.ShloMosaic.TcCoe
open Idealize.SL Idealize.SL.Sem
open Cert.KernelIdeal Cert.KernelIdeal.Gen Cert.KernelIdeal.Fr
open Idealize.ShloMosaic.ValueIdx Cert.Pool

section
variable (V : (c : Dev nD) → (b : Ref sig .tc) → Buf (Elt Ideal) ((c : Thread nD τ).loc b))

/-- The first kernel's buffer after position `n`, at column `h`: the running column maximum of blocks `0 … n`. -/
theorem acc0_apply (c : Dev nD) (n : ℕ) (hn : n < cfg0.N) (h : Fin 768) :
    acc0 V c n hn (ix2 (0 : Fin 1) h) = qK (fun t => cur2 (blk0 V c t)) n h := by
  rw [acc0_eq V c n hn]
  exact PayIdeal.qAt_apply (blk0 V c) n h

end

/-- The second kernel's pooled-row buffer, at column `h`. -/
theorem out1_3_apply (x0 : Vec Ideal S1x768 .f32) (x1 : Vec Ideal S768x768 .f32) (x2 : Vec Ideal S4096x768 .f32) (h : Fin 768) :
    out1_3 x0 x1 x2 (ix2 (0 : Fin 1) h) = epK (row0 x0) (cur2 x1) (cur2 x2) h := by
  rw [out1_3_eq]
  exact PayIdeal.k1_pay1_apply x0 x1 x2 h

/-- The second kernel's `v` buffer, at row `h`. -/
theorem out1_4_apply (x0 : Vec Ideal S1x768 .f32) (x1 : Vec Ideal S768x768 .f32) (x2 : Vec Ideal S4096x768 .f32) (h : Fin 768) :
    out1_4 x0 x1 x2 (ix2 h (0 : Fin 1)) = vK (cur2 x1) (epK (row0 x0) (cur2 x1) (cur2 x2)) h := by
  rw [out1_4_eq]
  exact PayIdeal.k1_pay2_apply x0 x1 x2 h

end Cert.KernelIdeal.KVLink

end
-- ==== Proof.KVLinkB.lean ====
/-
  What the third kernel's scratch holds after each position, as the iteration of the kernel's state update.

  When the `v` window reads the same array at every position, the scratch after position n is the state after blocks
  0 … n of the recurrence that starts from the first point's constants.
-/
import proofs.«117598_j62775241999269_2_alg».proof.Proof.FrR2Ideal
import proofs.«117598_j62775241999269_2_alg».proof.Proof.KValIdeal

noncomputable section

namespace Cert.KernelIdeal.KVLink

open Idealize.ShloMosaic Idealize.ShloMosaic.TcCoe
open Idealize.SL Idealize.SL.Sem
open Cert.KernelIdeal Cert.KernelIdeal.Gen Cert.KernelIdeal.Fr

variable {F : FTy → Type} [FloatOps F]

section
variable (V : (c : Dev nD) → (b : Ref sig .tc) → Buf (Elt F) ((c : Thread nD τ).loc b))

/-- The third kernel's block of rows at position `t` (read cyclically over the 16 positions so that it is total). -/
def blk2 (c : Dev nD) (t : ℕ) : Vec F S2048x768 .f32 :=
  iblk2 V c 0 ⟨t % 16, lt_of_lt_of_eq (Nat.mod_lt t (by decide)) (show cfg2.N = 16 from N_2).symm⟩

/-- At a position of the grid it is that position's block. -/
theorem blk2_eq (c : Dev nD) (t : Fin cfg2.N) : blk2 V c t.val = iblk2 V c 0 t := by
  have h : (⟨t.val % 16, lt_of_lt_of_eq (Nat.mod_lt t.val (by decide)) (show cfg2.N = 16 from N_2).symm⟩ : Fin cfg2.N) = t :=
    Fin.ext (Nat.mod_eq_of_lt (lt_of_lt_of_eq t.isLt (show cfg2.N = 16 from N_2)))
  unfold blk2
  rw [h]

/-- The scratch after position `n` is the state after blocks `0 … n`. -/
theorem sc2_eq (c : Dev nD) (v : Vec F S768x1 .f32) (hv : ∀ t : Fin cfg2.N, (iblk2 V c 1 t : Vec F S768x1 .f32) = v)
    (n : ℕ) (hn : n < cfg2.N) :
    sc2 V c n hn = ((KV.stAt (blk2 V c) v n).m, (KV.stAt (blk2 V c) v n).l, (KV.stAt (blk2 V c) v n).a) := by
  induction n with
  | zero =>
    show (k2_pay1 (k2_pay7 (iblk2 V c 0 ⟨0, hn⟩) (iblk2 V c 1 ⟨0, hn⟩) k2_pay3),
        k2_pay10 (iblk2 V c 0 ⟨0, hn⟩) (iblk2 V c 1 ⟨0, hn⟩) k2_pay3 k2_pay3 k2_pay4,
        k2_pay11 (iblk2 V c 0 ⟨0, hn⟩) (iblk2 V c 1 ⟨0, hn⟩) k2_pay3 k2_pay3 k2_pay5)
      = (k2_pay1 (k2_pay7 (blk2 V c 0) v k2_pay3), k2_pay10 (blk2 V c 0) v k2_pay3 k2_pay3 k2_pay4,
        k2_pay11 (blk2 V c 0) v k2_pay3 k2_pay3 k2_pay5)
    rw [hv ⟨0, hn⟩, ← blk2_eq V c ⟨0, hn⟩]
  | succ n ih =>
    show (k2_pay1 (k2_pay7 (iblk2 V c 0 ⟨n + 1, hn⟩) (iblk2 V c 1 ⟨n + 1, hn⟩) (sc2 V c n (Nat.lt_of_succ_lt hn)).1),
        k2_pay10 (iblk2 V c 0 ⟨n + 1, hn⟩) (iblk2 V c 1 ⟨n + 1, hn⟩) (sc2 V c n (Nat.lt_of_succ_lt hn)).1
          (sc2 V c n (Nat.lt_of_succ_lt hn)).1 (sc2 V c n (Nat.lt_of_succ_lt hn)).2.1,
        k2_pay11 (iblk2 V c 0 ⟨n + 1, hn⟩) (iblk2 V c 1 ⟨n + 1, hn⟩) (sc2 V c n (Nat.lt_of_succ_lt hn)).1
          (sc2 V c n (Nat.lt_of_succ_lt hn)).1 (sc2 V c n (Nat.lt_of_succ_lt hn)).2.2)
      = (k2_pay1 (k2_pay7 (blk2 V c (n + 1)) v (KV.stAt (blk2 V c) v n).m),
        k2_pay10 (blk2 V c (n + 1)) v (KV.stAt (blk2 V c) v n).m (KV.stAt (blk2 V c) v n).m (KV.stAt (blk2 V c) v n).l,
        k2_pay11 (blk2 V c (n + 1)) v (KV.stAt (blk2 V c) v n).m (KV.stAt (blk2 V c) v n).m (KV.stAt (blk2 V c) v n).a)
    rw [hv ⟨n + 1, hn⟩, ← blk2_eq V c ⟨n + 1, hn⟩, ih (Nat.lt_of_succ_lt hn)]

end

end Cert.KernelIdeal.KVLink

end
-- ==== Proof.PayIdealC.lean ====
/-
  The third kernel at the ideal values: the running-maximum recurrence.

  Each payload is read at its index: the block's logits are the rows' products with the column v; the new maximum is the
  old one against the fold of max over the logits; the two rescaling factors are exponentials of differences against the
  new maximum; the new sum of weights and the new weighted sum of rows are the rescaled old ones plus the block's. A
  kernel state (three arrays of shapes [1,1], [1,1], [1,768]) is read as a state of the recurrence by its entries, one
  block's update of the first is one step of the second, and the result is the weighted sum over the sum of weights.
-/
import proofs.«117598_j62775241999269_2_alg».proof.Proof.PayIdealLib
import proofs.«117598_j62775241999269_2_alg».proof.Proof.KValIdeal
import proofs.«117598_j62775241999269_2_alg».proof.Proof.Spec
import proofs.«117598_j62775241999269_2_alg».proof.Proof.Cur

noncomputable section

namespace Cert.KernelIdeal.PayIdeal

open Idealize.ShloMosaic Idealize.ShloMosaic.ValueIdx Cert.KernelIdeal Cert.KernelIdeal.Gen Cert.Pool

/-- The block's logits: row r of the block against the column v. -/
theorem k2_pay6_apply (x : Vec Ideal S2048x768 .f32) (v : Vec Ideal S768x1 .f32) (r : Fin 2048) :
    k2_pay6 x v (ix2 r (0 : Fin 1)) = eBlk (cur2 x) (col0 v) r := by
  unfold k2_pay6
  rw [shapeCast_self]
  exact matmul_2048x768_768x1 _ x v r

/-- The new maximum. -/
theorem k2_pay7_apply (x : Vec Ideal S2048x768 .f32) (v : Vec Ideal S768x1 .f32) (m : Vec Ideal S1x1 .f32) :
    k2_pay7 x v m (ix2 (0 : Fin 1) (0 : Fin 1)) = mNew (cur2 x) (col0 v) (m (ix2 (0 : Fin 1) (0 : Fin 1))) := by
  unfold k2_pay7
  refine congrArg (max (m (ix2 (0 : Fin 1) (0 : Fin 1)))) ?_
  refine (shapeCast_1_11_apply _ _).trans ?_
  refine (colMax_apply (k2_pay6 x v) _ _ _ _ (0 : Fin 1)).trans ?_
  show Finset.fold max (Ideal.ofBits .f32 0xFF800000#32) _ _ = _
  rw [ofBits_ninf]
  exact congrArg (Finset.fold max ⊥ · (Finset.univ : Finset (Fin 2048))) (funext fun k => k2_pay6_apply x v k)

/-- The factor that rescales what was held: exp (m' - new maximum). -/
theorem k2_pay8_apply (x : Vec Ideal S2048x768 .f32) (v : Vec Ideal S768x1 .f32) (m m' : Vec Ideal S1x1 .f32) :
    k2_pay8 x v m m' (ix2 (0 : Fin 1) (0 : Fin 1))
      = Ideal.exp (m' (ix2 (0 : Fin 1) (0 : Fin 1)) - mNew (cur2 x) (col0 v) (m (ix2 (0 : Fin 1) (0 : Fin 1)))) := by
  unfold k2_pay8
  exact congrArg (fun z => Ideal.exp (m' (ix2 (0 : Fin 1) (0 : Fin 1)) - z)) (k2_pay7_apply x v m)

/-- The block's weights: exp (logit - new maximum). -/
theorem k2_pay9_apply (x : Vec Ideal S2048x768 .f32) (v : Vec Ideal S768x1 .f32) (m : Vec Ideal S1x1 .f32) (r : Fin 2048) :
    k2_pay9 x v m (ix2 r (0 : Fin 1)) = pBlk (cur2 x) (col0 v) (m (ix2 (0 : Fin 1) (0 : Fin 1))) r := by
  unfold k2_pay9
  show Ideal.exp (k2_pay6 x v (ix2 r (0 : Fin 1)) - broadcastTo S2048x1 (k2_pay7 x v m) broadcasts_S1x1_S2048x1 (ix2 r (0 : Fin 1))) = _
  rw [broadcastTo_11_ab_apply, k2_pay6_apply, k2_pay7_apply]
  rfl

/-- The new sum of weights. -/
theorem k2_pay10_apply (x : Vec Ideal S2048x768 .f32) (v : Vec Ideal S768x1 .f32) (m l : Vec Ideal S1x1 .f32) :
    k2_pay10 x v m m l (ix2 (0 : Fin 1) (0 : Fin 1))
      = lNew (cur2 x) (col0 v) (m (ix2 (0 : Fin 1) (0 : Fin 1))) (l (ix2 (0 : Fin 1) (0 : Fin 1))) := by
  unfold k2_pay10
  rw [shapeCast_self]
  show k2_pay8 x v m m (ix2 (0 : Fin 1) (0 : Fin 1)) * l (ix2 (0 : Fin 1) (0 : Fin 1))
    + shapeCast S1x1 (multiReduction (F := Ideal) .add [0] S1 (k2_pay9 x v m) 0x00000000#32 reduces_S2048x1_S1 (.inl rfl) rfl)
        shapeCasts_S1_S1x1 (ix2 (0 : Fin 1) (0 : Fin 1)) = _
  rw [k2_pay8_apply, shapeCast_1_11_apply]
  refine congrArg₂ (fun y z : EReal => y + z) rfl ?_
  refine (colSum_apply (k2_pay9 x v m) _ _ _ _ (0 : Fin 1)).trans ?_
  exact Finset.sum_congr rfl fun k _ => k2_pay9_apply x v m k

/-- The new weighted sum of rows. -/
theorem k2_pay11_apply (x : Vec Ideal S2048x768 .f32) (v : Vec Ideal S768x1 .f32) (m : Vec Ideal S1x1 .f32)
    (a : Vec Ideal S1x768 .f32) (h : Fin 768) :
    k2_pay11 x v m m a (ix2 (0 : Fin 1) h)
      = aNew (cur2 x) (col0 v) (m (ix2 (0 : Fin 1) (0 : Fin 1))) (fun h' => a (ix2 (0 : Fin 1) h')) h := by
  unfold k2_pay11
  rw [shapeCast_self]
  show broadcastTo S1x768 (k2_pay8 x v m m) broadcasts_S1x1_S1x768 (ix2 (0 : Fin 1) h) * a (ix2 (0 : Fin 1) h)
    + matmul (F := Ideal) dot_S2048x1_S2048x768_S1x768_0_0_1_1_n_n none
        (truncf .bf16 (k2_pay9 x v m) bitsLt_bf16_f32) (truncf .bf16 x bitsLt_bf16_f32)
        (constant S1x768 .f32 0x00000000#32) (ix2 (0 : Fin 1) h) = _
  rw [broadcastTo_11_ab_apply, k2_pay8_apply, matmul_lhsT]
  refine congrArg₂ (fun y z : EReal => y + z) rfl ?_
  exact Finset.sum_congr rfl fun k _ => congrArg (· * x (ix2 k h)) (k2_pay9_apply x v m k)

/-- The stored maximum is the new maximum. -/
theorem k2_pay1_eq (m : FVec Ideal S1x1 .f32) : k2_pay1 m = m := by
  unfold k2_pay1
  exact shapeCast_self _ _

/-- The result: the weighted sum over the sum of weights. -/
theorem k2_pay2_apply (a : Vec Ideal S1x768 .f32) (l : Vec Ideal S1x1 .f32) (h : Fin 768) :
    k2_pay2 a l (ix2 (0 : Fin 1) h) = Ideal.div (a (ix2 (0 : Fin 1) h)) (l (ix2 (0 : Fin 1) (0 : Fin 1))) := by
  unfold k2_pay2
  exact congrArg (Ideal.div (a (ix2 (0 : Fin 1) h))) (broadcastTo_11_ab_apply l _ (0 : Fin 1) h)

/-- The first point's maximum is -∞. -/
theorem k2_pay3_apply : (k2_pay3 (F := Ideal)) (ix2 (0 : Fin 1) (0 : Fin 1)) = ⊥ := by
  unfold k2_pay3
  rw [shapeCast_self]
  exact ofBits_ninf

/-- The first point's sum of weights is 0. -/
theorem k2_pay4_apply : (k2_pay4 (F := Ideal)) (ix2 (0 : Fin 1) (0 : Fin 1)) = 0 := by
  unfold k2_pay4
  rw [shapeCast_self]
  exact ofBits_zero

/-- The first point's weighted sum is 0. -/
theorem k2_pay5_apply (h : Fin 768) : (k2_pay5 (F := Ideal)) (ix2 (0 : Fin 1) h) = 0 := by
  unfold k2_pay5
  rw [shapeCast_self]
  exact ofBits_zero

/-- A kernel state read by its entries. -/
def toSt (s : KV.St Ideal) : Pool.St :=
  ⟨s.m (ix2 (0 : Fin 1) (0 : Fin 1)), s.l (ix2 (0 : Fin 1) (0 : Fin 1)), fun h => s.a (ix2 (0 : Fin 1) h)⟩

/-- One block's update is one step of the recurrence. -/
theorem toSt_step (x : Vec Ideal S2048x768 .f32) (v : Vec Ideal S768x1 .f32) (s : KV.St Ideal) :
    toSt (KV.step x v s) = Pool.step (cur2 x) (col0 v) (toSt s) := by
  show Pool.St.mk (k2_pay1 (k2_pay7 x v s.m) (ix2 (0 : Fin 1) (0 : Fin 1))) (k2_pay10 x v s.m s.m s.l (ix2 (0 : Fin 1) (0 : Fin 1)))
      (fun h => k2_pay11 x v s.m s.m s.a (ix2 (0 : Fin 1) h))
    = Pool.St.mk (mNew (cur2 x) (col0 v) (s.m (ix2 (0 : Fin 1) (0 : Fin 1))))
        (lNew (cur2 x) (col0 v) (s.m (ix2 (0 : Fin 1) (0 : Fin 1))) (s.l (ix2 (0 : Fin 1) (0 : Fin 1))))
        (aNew (cur2 x) (col0 v) (s.m (ix2 (0 : Fin 1) (0 : Fin 1))) (fun h => s.a (ix2 (0 : Fin 1) h)))
  rw [k2_pay1_eq, k2_pay7_apply, k2_pay10_apply]
  exact congrArg (Pool.St.mk _ _) (funext fun h => k2_pay11_apply x v s.m s.a h)

/-- The first point starts from (-∞, 0, 0). -/
theorem toSt_st0 : toSt (KV.st0 (F := Ideal)) = Pool.st0 := by
  show Pool.St.mk ((k2_pay3 (F := Ideal)) (ix2 (0 : Fin 1) (0 : Fin 1))) ((k2_pay4 (F := Ideal)) (ix2 (0 : Fin 1) (0 : Fin 1)))
      (fun h => (k2_pay5 (F := Ideal)) (ix2 (0 : Fin 1) h)) = Pool.St.mk ⊥ 0 (fun _ => 0)
  rw [k2_pay3_apply, k2_pay4_apply]
  exact congrArg (Pool.St.mk _ _) (funext fun h => k2_pay5_apply h)

/-- The state after blocks `0 … n`. -/
theorem toSt_stAt (b : ℕ → Vec Ideal S2048x768 .f32) (v : Vec Ideal S768x1 .f32) (n : ℕ) :
    toSt (KV.stAt b v n) = Pool.stK (fun t => cur2 (b t)) (col0 v) n := by
  induction n with
  | zero =>
    show toSt (KV.step (b 0) v KV.st0) = Pool.step (cur2 (b 0)) (col0 v) Pool.st0
    rw [toSt_step, toSt_st0]
  | succ n ih =>
    show toSt (KV.step (b (n + 1)) v (KV.stAt b v n)) = Pool.step (cur2 (b (n + 1))) (col0 v) (Pool.stK (fun t => cur2 (b t)) (col0 v) n)
    rw [toSt_step, ih]

/-- The kernel's result on a state. -/
theorem outOf_apply (s : KV.St Ideal) (h : Fin 768) :
    KV.outOf s (ix2 (0 : Fin 1) h) = Ideal.div ((toSt s).a h) (toSt s).l :=
  k2_pay2_apply s.a s.l h

/-- The kernel's result after the last of the 16 blocks. -/
theorem outOf_stAt_apply (b : ℕ → Vec Ideal S2048x768 .f32) (v : Vec Ideal S768x1 .f32) (h : Fin 768) :
    KV.outOf (KV.stAt b v 15) (ix2 (0 : Fin 1) h) = outK (fun t => cur2 (b t)) (col0 v) h := by
  rw [outOf_apply, toSt_stAt]
  rfl

end Cert.KernelIdeal.PayIdeal

end
-- ==== Proof.KVLinkD.lean ====
/-
  The third kernel's result at the ideal values, entry by entry: after the last of the 16 positions, the weighted sum of
  rows over the sum of weights of the running-maximum recurrence over the blocks.
-/
import proofs.«117598_j62775241999269_2_alg».proof.Proof.KVLinkB
import proofs.«117598_j62775241999269_2_alg».proof.Proof.PayIdealC

noncomputable section

namespace Cert.KernelIdeal.KVLink

open Idealize.ShloMosaic Idealize.ShloMosaic.TcCoe
open Idealize.SL Idealize.SL.Sem
open Cert.KernelIdeal Cert.KernelIdeal.Gen Cert.KernelIdeal.Fr
open Idealize.ShloMosaic.ValueIdx Cert.Pool

section
variable (V : (c : Dev nD) → (b : Ref sig .tc) → Buf (Elt Ideal) ((c : Thread nD τ).loc b))

/-- The scratch after position `n`, read by its entries, is the recurrence's state after blocks `0 … n`. -/
theorem sc2_toSt (c : Dev nD) (v : Vec Ideal S768x1 .f32) (hv : ∀ t : Fin cfg2.N, (iblk2 V c 1 t : Vec Ideal S768x1 .f32) = v)
    (n : ℕ) (hn : n < cfg2.N) :
    PayIdeal.toSt ⟨(sc2 V c n hn).1, (sc2 V c n hn).2.1, (sc2 V c n hn).2.2⟩ = Pool.stK (fun t => cur2 (blk2 V c t)) (col0 v) n := by
  rw [sc2_eq V c v hv n hn]
  exact PayIdeal.toSt_stAt (blk2 V c) v n

/-- The result stored at the last position, at column `h`. -/
theorem out2_apply (c : Dev nD) (v : Vec Ideal S768x1 .f32) (hv : ∀ t : Fin cfg2.N, (iblk2 V c 1 t : Vec Ideal S768x1 .f32) = v)
    (h15 : 15 < cfg2.N) (h : Fin 768) :
    k2_pay2 (sc2 V c 15 h15).2.2 (sc2 V c 15 h15).2.1 (ix2 (0 : Fin 1) h) = outK (fun t => cur2 (blk2 V c t)) (col0 v) h := by
  rw [sc2_eq V c v hv 15 h15]
  exact PayIdeal.outOf_stAt_apply (blk2 V c) v h

end

end Cert.KernelIdeal.KVLink

end
-- ==== Proof.KVLinkE.lean ====
/-
  The row blocks the first and third kernels read are consecutive rows of the one array: block t of R rows, row r, is
  row t · R + r of the array; read cyclically in t, that is row (t · R + r) mod 32768.
-/
import proofs.«117598_j62775241999269_2_alg».proof.Proof.KVLinkA
import proofs.«117598_j62775241999269_2_alg».proof.Proof.KVLinkB
import proofs.«117598_j62775241999269_2_alg».proof.Proof.BlockRead
import proofs.«117598_j62775241999269_2_alg».proof.Proof.Spec
import proofs.«117598_j62775241999269_2_alg».proof.Proof.Cur

noncomputable section

namespace Cert.KernelIdeal.KVLink

open Idealize.ShloMosaic Idealize.ShloMosaic.TcCoe
open Idealize.SL Idealize.SL.Sem
open Cert.KernelIdeal Cert.KernelIdeal.Gen Cert.KernelIdeal.Fr
open Idealize.ShloMosaic.ValueIdx Cert.Pool

section
variable (V : (c : Dev nD) → (b : Ref sig .tc) → Buf (Elt Ideal) ((c : Thread nD τ).loc b))

/-- The first kernel's blocks are the array's blocks of 4096 rows. -/
theorem blk0_rows (c : Dev nD) (a0 : Vec Ideal S32768x768 .f32) (h0 : (V c main_arg0 : Vec Ideal S32768x768 .f32) = a0) :
    (fun t => cur2 (blk0 V c t)) = blkRows 4096 (cur2 a0) := by
  funext t r h
  have ht : t % 8 < cfg0.N := lt_of_lt_of_eq (Nat.mod_lt t (by decide)) (show cfg0.N = 8 from N_0).symm
  show ((cfg0.win 0).blk ⟨t % 8, ht⟩).view.read (Elt Ideal) (V c main_arg0) (ix2 r h)
    = a0 (ix2 (⟨(t * 4096 + r.val) % 32768, Nat.mod_lt _ (by decide)⟩ : Fin 32768) h)
  refine (BlockRead.read_rows0 (V c main_arg0) ⟨t % 8, ht⟩ r h).trans ?_
  rw [h0]
  refine congrArg (fun i : Fin 32768 => a0 (ix2 i h)) (Fin.ext ?_)
  show t % 8 * 4096 + r.val = (t * 4096 + r.val) % 32768
  have hr : r.val < 4096 := r.isLt
  omega

/-- The third kernel's blocks are the array's blocks of 2048 rows. -/
theorem blk2_rows (c : Dev nD) (a0 : Vec Ideal S32768x768 .f32) (h0 : (V c main_arg0 : Vec Ideal S32768x768 .f32) = a0) :
    (fun t => cur2 (blk2 V c t)) = blkRows 2048 (cur2 a0) := by
  funext t r h
  have ht : t % 16 < cfg2.N := lt_of_lt_of_eq (Nat.mod_lt t (by decide)) (show cfg2.N = 16 from N_2).symm
  show ((cfg2.win 0).blk ⟨t % 16, ht⟩).view.read (Elt Ideal) (V c main_arg0) (ix2 r h)
    = a0 (ix2 (⟨(t * 2048 + r.val) % 32768, Nat.mod_lt _ (by decide)⟩ : Fin 32768) h)
  refine (BlockRead.read_rows2 (V c main_arg0) ⟨t % 16, ht⟩ r h).trans ?_
  rw [h0]
  refine congrArg (fun i : Fin 32768 => a0 (ix2 i h)) (Fin.ext ?_)
  show t % 16 * 2048 + r.val = (t * 2048 + r.val) % 32768
  have hr : r.val < 2048 := r.isLt
  omega

end

end Cert.KernelIdeal.KVLink

end
-- ==== Proof.KOut.lean ====
/-
  The kernel program's two results as functions of the three argument arrays, at the ideal values.

  After the run the third region's output array holds the weighted sum of rows divided by the sum of weights after the
  last of the 16 blocks, and the second region's first output array the pooled row of the elements. Read index by
  index — each window's block where its index map puts it, each kernel's arithmetic as the sums, maxima and
  exponentials it is — these are the blockwise forms `kernelOut` and `kernelEp` of the computation.
-/
import proofs.«117598_j62775241999269_2_alg».proof.Proof.FrRunIdeal
import proofs.«117598_j62775241999269_2_alg».proof.Proof.ArrOutIdeal
import proofs.«117598_j62775241999269_2_alg».proof.Proof.BlockRead
import proofs.«117598_j62775241999269_2_alg».proof.Proof.BlockReadIblk
import proofs.«117598_j62775241999269_2_alg».proof.Proof.KVLinkC
import proofs.«117598_j62775241999269_2_alg».proof.Proof.KVLinkD
import proofs.«117598_j62775241999269_2_alg».proof.Proof.KVLinkE
import proofs.«117598_j62775241999269_2_alg».proof.Proof.Spec
import proofs.«117598_j62775241999269_2_alg».proof.Proof.Cur

noncomputable section

namespace Cert.KernelIdeal.KOut

open Idealize.ShloMosaic Idealize.ShloMosaic.TcCoe Idealize.ShloMosaic.ValueIdx
open Idealize.SL Idealize.SL.Sem
open Cert.KernelIdeal Cert.KernelIdeal.Gen Cert.KernelIdeal.Fr Cert.KernelIdeal.BlockRead Cert.KernelIdeal.KVLink Cert.Pool

variable (m : (ℓ : Loc nD τ sig) → Buf (Elt Ideal) ℓ) (ρ : Dev nD → PrngReg)

/-- The three argument arrays on core `c`. -/
abbrev a0 (c : Dev nD) : Vec Ideal S32768x768 .f32 := m ((c : Thread nD τ).loc main_arg0)
abbrev a1 (c : Dev nD) : Vec Ideal S4096x768 .f32 := m ((c : Thread nD τ).loc main_arg1)
abbrev a2 (c : Dev nD) : Vec Ideal S768x768 .f32 := m ((c : Thread nD τ).loc main_arg2)

/-! ## What each region finds in the buffers it reads -/

theorem V2_arg2 (c : Dev nD) : (V2 m ρ c main_arg2 : Vec Ideal S768x768 .f32) = a2 m c := W1_of_ne m ρ c main_arg2 (by decide)
theorem V2_arg1 (c : Dev nD) : (V2 m ρ c main_arg1 : Vec Ideal S4096x768 .f32) = a1 m c := W1_of_ne m ρ c main_arg1 (by decide)
theorem V2_v0 (c : Dev nD) : (V2 m ρ c main_v0 : Vec Ideal S1x768 .f32) = (dat0 (V1 m ρ) c).arrAt 1 cfg0.N := W1_arr m ρ c 1
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V1 m ρ) c).arrAt_in 0 rfl _).trans (A_eq0 (V1 m ρ) c 0))
    _ = m ((c : Thread nD τ).loc main_arg0) := rfl
theorem V3_arg0 (c : Dev nD) : (V3 m ρ c main_arg0 : Vec Ideal S32768x768 .f32) = a0 m c := W2_arg0 m ρ c
theorem V3_v1_1 (c : Dev nD) : (V3 m ρ c main_v1_1 : Vec Ideal S768x1 .f32) = (dat1 (V2 m ρ) c).arrAt 4 cfg1.N := W2_arr m ρ c 4

theorem h7 : 7 < cfg0.N := by rw [show cfg0.N = 8 from N_0]; decide
theorem h15 : 15 < cfg2.N := by rw [show cfg2.N = 16 from N_2]; decide

/-- The column maxima the first region leaves: the maximum over the 8 blocks. -/
theorem q_row (c : Dev nD) : row0 (acc0 (V1 m ρ) c 7 h7) = qK (blkRows 4096 (cur2 (a0 m c))) 7 := by
  funext h
  rw [show ∀ x : Vec Ideal S1x768 .f32, row0 x h = x (ix2 (0 : Fin 1) h) from fun _ => rfl]
  rw [acc0_apply, blk0_rows (V1 m ρ) c (a0 m c) rfl]

theorem v0_eq (c : Dev nD) : (V2 m ρ c main_v0 : Vec Ideal S1x768 .f32) = acc0 (V1 m ρ) c 7 h7 :=
  (V2_v0 m ρ c).trans (arr0_1_of (V1 m ρ) c (fun t G => read_whole0_1 G t) (fun t i => mem_blk0_1 t i))

/-- The pooled row of the elements, at column `h`. -/
theorem ep_at (c : Dev nD) (h : Fin 768) :
    (dat1 (V2 m ρ) c).arrAt 3 cfg1.N (ix2 (0 : Fin 1) h) = kernelEp (cur2 (a0 m c)) (cur2 (a1 m c)) (cur2 (a2 m c)) h := by
  rw [arr1_3_of (V2 m ρ) c (fun t G => read_whole1_3 G t) (fun t i => mem_blk1_3 t i)]
  rw [iblk1_0, iblk1_1, iblk1_2, out1_3_apply, v0_eq, q_row, V2_arg2, V2_arg1]
  rfl

/-- The vector `v` the second region leaves. -/
theorem v_col (c : Dev nD) :
    col0 (V3 m ρ c main_v1_1 : Vec Ideal S768x1 .f32) = vK (cur2 (a2 m c)) (kernelEp (cur2 (a0 m c)) (cur2 (a1 m c)) (cur2 (a2 m c))) := by
  funext j
  rw [show ∀ x : Vec Ideal S768x1 .f32, col0 x j = x (ix2 j (0 : Fin 1)) from fun _ => rfl]
  rw [V3_v1_1, arr1_4_of (V2 m ρ) c (fun t G => read_whole1_4 G t) (fun t i => mem_blk1_4 t i)]
  rw [iblk1_0, iblk1_1, iblk1_2, out1_4_apply, v0_eq, q_row, V2_arg2, V2_arg1]
  rfl

/-- The pooled row of `fact`, at column `h`. -/
theorem out_at (c : Dev nD) (h : Fin 768) :
    (dat2 (V3 m ρ) c).arrAt 2 cfg2.N (ix2 (0 : Fin 1) h) = kernelOut (cur2 (a0 m c)) (cur2 (a1 m c)) (cur2 (a2 m c)) h := by
  rw [arr2_2_of (V3 m ρ) c (fun t G => read_whole2_2 G t) (fun t i => mem_blk2_2 t i)]
  rw [out2_apply (V3 m ρ) c (V3 m ρ c main_v1_1) (fun t => iblk2_1 (V3 m ρ) c t) h15 h]
  rw [blk2_rows (V3 m ρ) c (a0 m c) (V3_arg0 m ρ c), v_col]
  rfl

/-- An index of a one-row array is `(0, its column)`. -/
theorem idx_row (i : S1x768.Idx) : i = ix2 (0 : Fin 1) (i 1) := by
  funext a
  match a with
  | ⟨0, _⟩ => exact Fin.ext (by have h : (i 0).val < 1 := (i 0).isLt; show (i 0).val = 0; omega)
  | ⟨1, _⟩ => rfl

/-- THE RUN, with the two results as functions of the argument arrays. -/
theorem run : θ_run defs (onTc (τ := τ) (main (F := Ideal))) ⟨m, fun _ => 0, ρ⟩ (fun r => ∀ c : Dev nD,
      r.2.mem ((c.tc : Thread nD τ).loc main_v2) = (fun i => kernelOut (cur2 (a0 m c)) (cur2 (a1 m c)) (cur2 (a2 m c)) (i 1))
      ∧ r.2.mem ((c.tc : Thread nD τ).loc main_v1_0) = (fun i => kernelEp (cur2 (a0 m c)) (cur2 (a1 m c)) (cur2 (a2 m c)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1.trans (funext fun i => by rw [idx_row i]; exact out_at m ρ c (i 1)),
     (h c).2.1.trans (funext fun i => by rw [idx_row i]; exact ep_at m ρ c (i 1)),
     (h c).2.2⟩) (run_values m ρ)

end Cert.KernelIdeal.KOut

end
-- ==== Proof.PoolMathA.lean ====
/-
  Tools on the extended reals, and the first two parts of the comparison.

  * The maximum of a finite family (a fold of `max` from `-∞`) is characterised by its upper bounds; over a nonempty
    index set a family of reals has a real maximum.
  * The coercion from the reals commutes with finite sums.
  * The column maximum of 32768 rows taken as 8 blocks of 4096 is the column maximum of all the rows.
  * The two pooled rows of the elements differ by the order of each product.
-/
import proofs.«117598_j62775241999269_2_alg».proof.Proof.Spec

noncomputable section

namespace Cert.Pool

open Idealize.ShloMosaic

/-- An upper bound of the maximum of a finite family is an upper bound of every member. -/
theorem foldMax_le_iff {R : ℕ} (f : Fin R → EReal) (y : EReal) : foldMax f ≤ y ↔ ∀ i, f i ≤ y := by
  unfold foldMax
  rw [Finset.fold_max_le]
  simp

/-- Every member is below the maximum. -/
theorem le_foldMax {R : ℕ} (f : Fin R → EReal) (i : Fin R) : f i ≤ foldMax f :=
  (foldMax_le_iff f _).1 le_rfl i

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- Over a nonempty index set, the maximum of a family of reals is a real: it is attained. -/
theorem foldMax_coe {R : ℕ} (hR : 0 < R) (f : Fin R → ℝ) :
    ∃ M : ℝ, foldMax (fun i => (f i : EReal)) = (M : EReal) := by
  have hne : (Finset.univ : Finset (Fin R)).Nonempty := ⟨⟨0, hR⟩, Finset.mem_univ _⟩
  obtain ⟨i, -, hi⟩ := Finset.exists_max_image Finset.univ f hne
  refine ⟨f i, le_antisymm ?_ ?_⟩
  · rw [foldMax_le_iff]
    intro j
    exact EReal.coe_le_coe_iff.2 (hi j (Finset.mem_univ _))
  · exact le_foldMax (fun i => (f i : EReal)) i

/-! ## The column maximum, block by block -/

/-- An upper bound of the running block maximum bounds every row of every block so far. -/
theorem qK_le_iff (b : ℕ → Fin 4096 → Fin 768 → EReal) (n : ℕ) (h : Fin 768) (y : EReal) :
    qK b n h ≤ y ↔ ∀ t, t ≤ n → ∀ r, b t r h ≤ y := by
  induction n with
  | zero =>
    simp only [qK, qBlk, foldMax_le_iff]
    constructor
    · intro H t ht r
      obtain rfl : t = 0 := by omega
      exact H r
    · intro H r
      exact H 0 le_rfl r
  | succ n ih =>
    simp only [qK, max_le_iff, ih, qBlk, foldMax_le_iff]
    constructor
    · rintro ⟨H1, H2⟩ t ht r
      rcases Nat.lt_or_ge t (n + 1) with h' | h'
      · exact H1 t (by omega) r
      · obtain rfl : t = n + 1 := by omega
        exact H2 r
    · intro H
      exact ⟨fun t ht r => H t (by omega) r, fun r => H (n + 1) le_rfl r⟩

/-- Eight blocks of 4096 rows cover the 32768 rows: row `n` is row `n % 4096` of block `n / 4096`. -/
theorem qK_eq_qR (fact : Fin 32768 → Fin 768 → EReal) : qK (blkRows 4096 fact) 7 = qR fact := by
  funext h
  apply eq_of_forall_ge_iff
  intro y
  rw [qK_le_iff, qR, foldMax_le_iff]
  constructor
  · intro H n
    have key := H (n.val / 4096) (by omega) ⟨n.val % 4096, Nat.mod_lt _ (by norm_num)⟩
    have hn : (⟨(n.val / 4096 * 4096 + n.val % 4096) % 32768, Nat.mod_lt _ (by norm_num)⟩ : Fin 32768) = n := by
      apply Fin.ext
      show (n.val / 4096 * 4096 + n.val % 4096) % 32768 = n.val
      omega
    simp only [blkRows, hn] at key
    exact key
  · intro H t _ r
    exact H _

/-! ## The pooled row of the elements -/

theorem epK_eq_epR (q : Fin 768 → EReal) (w : Fin 768 → Fin 768 → EReal) (el : Fin 4096 → Fin 768 → EReal) :
    epK q w el = epR q w el := by
  funext h
  unfold epK epR
  exact Finset.sum_congr rfl fun i _ => mul_comm _ _

theorem kernelEp_eq_refEp (fact : Fin 32768 → Fin 768 → EReal) (el : Fin 4096 → Fin 768 → EReal)
    (w : Fin 768 → Fin 768 → EReal) : kernelEp fact el w = refEp fact el w := by
  unfold kernelEp refEp
  rw [qK_eq_qR, epK_eq_epR]

end Cert.Pool

end
-- ==== Proof.PoolMathB.lean ====
/-
  Everything the first softmax produces is a real number.

  With real entries the column maxima are reals (a maximum over a nonempty set of rows), so the projection and the
  logits are reals, the maximal logit is a real, each exponential is a positive real, their sum is a positive real, the
  softmax weights are reals, and so are the pooled row and its product with the weight matrix.
-/
import proofs.«117598_j62775241999269_2_alg».proof.Proof.PoolMathA

noncomputable section

namespace Cert.Pool

open Idealize.ShloMosaic

/-- Being (the coercion of) a real number. -/
def IsR (x : EReal) : Prop := ∃ r : ℝ, x = (r : EReal)

/-- The exponential of a difference of reals. -/
theorem exp_coe_sub (a b : ℝ) : Ideal.exp ((a : EReal) - (b : EReal)) = ((Real.exp (a - b) : ℝ) : EReal) := by
  rw [← EReal.coe_sub, Ideal.exp_coe]

/-- Division of a real by a nonzero real. -/
theorem div_coe_coe (a : ℝ) {b : ℝ} (hb : b ≠ 0) : Ideal.div (a : EReal) (b : EReal) = ((a * (1 / b) : ℝ) : EReal) := by
  rw [Ideal.div_coe hb, ← EReal.coe_mul]

/-- The softmax weights over the elements are reals when the column maxima, the weights and the elements are. -/
theorem smE_real (q : Fin 768 → EReal) (w : Fin 768 → Fin 768 → EReal) (el : Fin 4096 → Fin 768 → EReal)
    (hq : ∀ h, IsR (q h)) (hw : AllReal w) (he : AllReal el) : ∀ i, IsR (smE q w el i) := by
  choose Q hQ using hq
  choose W hW using hw
  choose El hEl using he
  have hlog : ∀ i, logitE q w el i = ((∑ j, (∑ h, Q h * W h j) * El i j : ℝ) : EReal) := by
    intro i
    simp only [logitE, tproj, hQ, hW, hEl, ← EReal.coe_mul, ← coe_sum]
  obtain ⟨M, hM⟩ := foldMax_coe (R := 4096) (by norm_num) fun i => ∑ j, (∑ h, Q h * W h j) * El i j
  have hfm : foldMax (logitE q w el) = (M : EReal) := by
    rw [← hM]
    exact congrArg foldMax (funext hlog)
  have hex : ∀ i, exE q w el i = ((Real.exp ((∑ j, (∑ h, Q h * W h j) * El i j) - M) : ℝ) : EReal) := by
    intro i
    rw [exE, hfm, hlog, exp_coe_sub]
  have hpos : 0 < ∑ i : Fin 4096, Real.exp ((∑ j, (∑ h, Q h * W h j) * El i j) - M) :=
    Finset.sum_pos (fun i _ => Real.exp_pos _) ⟨⟨0, by norm_num⟩, Finset.mem_univ _⟩
  intro i
  have hsm : smE q w el i
      = ((Real.exp ((∑ j, (∑ h, Q h * W h j) * El i j) - M)
          * (1 / ∑ i' : Fin 4096, Real.exp ((∑ j, (∑ h, Q h * W h j) * El i' j) - M)) : ℝ) : EReal) := by
    rw [smE]
    simp only [hex, ← coe_sum]
    exact div_coe_coe _ hpos.ne'
  exact ⟨_, hsm⟩

/-- The column maxima of real rows are reals. -/
theorem qR_real (fact : Fin 32768 → Fin 768 → EReal) (hf : AllReal fact) : ∀ h, IsR (qR fact h) := by
  choose F hF using hf
  intro h
  obtain ⟨M, hM⟩ := foldMax_coe (R := 32768) (by norm_num) fun n => F n h
  refine ⟨M, ?_⟩
  rw [qR, ← hM]
  exact congrArg foldMax (funext fun n => hF n h)

/-- The pooled row of the elements is real. -/
theorem refEp_real (fact : Fin 32768 → Fin 768 → EReal) (el : Fin 4096 → Fin 768 → EReal)
    (w : Fin 768 → Fin 768 → EReal) (hf : AllReal fact) (he : AllReal el) (hw : AllReal w) :
    ∀ h, IsR (refEp fact el w h) := by
  have hs := smE_real (qR fact) w el (qR_real fact hf) hw he
  choose S hS using hs
  choose El hEl using he
  intro h
  refine ⟨∑ i, El i h * S i, ?_⟩
  simp only [refEp, epR, hS, hEl, ← EReal.coe_mul, ← coe_sum]

/-- The product of a real matrix with a real row is real. -/
theorem vK_real (w : Fin 768 → Fin 768 → EReal) (ep : Fin 768 → EReal) (hw : AllReal w) (hep : ∀ j, IsR (ep j)) :
    ∀ h, IsR (vK w ep h) := by
  choose W hW using hw
  choose EP hEP using hep
  intro h
  refine ⟨∑ j, W h j * EP j, ?_⟩
  simp only [vK, hW, hEP, ← EReal.coe_mul, ← coe_sum]

end Cert.Pool

end
-- ==== Proof.PoolMathC.lean ====
/-
  Real algebra behind the second softmax.

  * Associativity of the two products in the second logits: a finite double sum exchanged.
  * One step of the running-maximum recurrence on a sum taken over an initial segment of the naturals.
  * A softmax-weighted sum does not depend on the constant subtracted inside the exponentials.
-/
import proofs.«117598_j62775241999269_2_alg».proof.Proof.PoolMathB

noncomputable section

namespace Cert.Pool

open Idealize.ShloMosaic

/-- `Σ_j (Σ_h x h · w h j) · p j = Σ_h x h · (Σ_j w h j · p j)` on the reals. -/
theorem assoc_real {A B : Type*} [Fintype A] [Fintype B] (x : A → ℝ) (w : A → B → ℝ) (p : B → ℝ) :
    ∑ j, (∑ h, x h * w h j) * p j = ∑ h, x h * ∑ j, w h j * p j := by
  simp only [Finset.sum_mul, Finset.mul_sum]
  rw [Finset.sum_comm]
  refine Finset.sum_congr rfl fun h _ => Finset.sum_congr rfl fun j _ => ?_
  ring

/-- The second logits, with real entries: the product with the weight matrix may be taken on either side. -/
theorem logits_assoc (fact : Fin 32768 → Fin 768 → EReal) (w : Fin 768 → Fin 768 → EReal) (ep : Fin 768 → EReal)
    (hf : AllReal fact) (hw : AllReal w) (hep : ∀ j, IsR (ep j)) (n : Fin 32768) :
    e2fR fact w ep n = ∑ h, fact n h * vK w ep h := by
  choose F hF using hf
  choose W hW using hw
  choose EP hEP using hep
  simp only [e2fR, vK, hF, hW, hEP, ← EReal.coe_mul, ← coe_sum]
  rw [assoc_real]

/-- One step of the recurrence on the reals: rescaling the sum over the first `N` terms from the constant `M` to the
    constant `M'` and adding the next `R` terms gives the sum over the first `N + R` terms at `M'`. -/
theorem real_step (f g : ℕ → ℝ) (N R : ℕ) (M M' : ℝ) :
    Real.exp (M - M') * (∑ k ∈ Finset.range N, Real.exp (f k - M) * g k)
        + ∑ r : Fin R, Real.exp (f (N + r.val) - M') * g (N + r.val)
      = ∑ k ∈ Finset.range (N + R), Real.exp (f k - M') * g k := by
  rw [Finset.sum_range_add, Finset.mul_sum, Finset.sum_range (fun r => Real.exp (f (N + r) - M') * g (N + r))]
  congr 1
  refine Finset.sum_congr rfl fun k _ => ?_
  rw [← mul_assoc, ← Real.exp_add]
  congr 2
  ring

/-- The same without the second factor. -/
theorem real_step_one (f : ℕ → ℝ) (N R : ℕ) (M M' : ℝ) :
    Real.exp (M - M') * (∑ k ∈ Finset.range N, Real.exp (f k - M))
        + ∑ r : Fin R, Real.exp (f (N + r.val) - M')
      = ∑ k ∈ Finset.range (N + R), Real.exp (f k - M') := by
  have h := real_step f (fun _ => 1) N R M M'
  simpa only [mul_one] using h

/-- A softmax-weighted sum is the same whatever constant is subtracted inside the exponentials. -/
theorem softmax_shift {ι : Type*} [Fintype ι] [Nonempty ι] (E x : ι → ℝ) (M M₂ : ℝ) :
    (∑ n, Real.exp (E n - M) * x n) * (1 / ∑ n, Real.exp (E n - M))
      = ∑ n, x n * (Real.exp (E n - M₂) * (1 / ∑ n', Real.exp (E n' - M₂))) := by
  have key : ∀ n, Real.exp (E n - M) = Real.exp (M₂ - M) * Real.exp (E n - M₂) := by
    intro n
    rw [← Real.exp_add]
    congr 1
    ring
  have hS : 0 < ∑ n, Real.exp (E n - M₂) :=
    Finset.sum_pos (fun n _ => Real.exp_pos _) Finset.univ_nonempty
  have hc : 0 < Real.exp (M₂ - M) := Real.exp_pos _
  have hR : ∑ n, x n * (Real.exp (E n - M₂) * (1 / ∑ n', Real.exp (E n' - M₂)))
      = (∑ n, Real.exp (E n - M₂) * x n) * (1 / ∑ n', Real.exp (E n' - M₂)) := by
    rw [Finset.sum_mul]
    refine Finset.sum_congr rfl fun n _ => ?_
    ring
  rw [hR]
  simp only [key, mul_assoc, ← Finset.mul_sum]
  have hc' := hc.ne'
  have hS' := hS.ne'
  field_simp

end Cert.Pool

end
-- ==== Proof.PoolMathD.lean ====
/-
  The running-maximum recurrence in closed form.

  Rows and logits are indexed by the naturals (read cyclically, as the blocks are). After blocks `0 … n` of 2048 rows
  the state is: a real maximum `M`; the sum over the first `(n+1)·2048` rows of `exp (e k − M)`; and the sum over the
  same rows of `exp (e k − M) · row k`. The first block starts from `-∞`, where the rescaling factor is `exp (-∞) = 0`;
  every later block rescales by `exp (M − M')`, and `exp (M − M') · exp (e − M) = exp (e − M')`.
-/
import proofs.«117598_j62775241999269_2_alg».proof.Proof.PoolMathC

noncomputable section

namespace Cert.Pool

open Idealize.ShloMosaic

theorem coe_congr {a b : ℝ} (h : a = b) : (a : EReal) = (b : EReal) := by rw [h]

/-- Row `k` of a real array, read cyclically. -/
def rowN (F : Fin 32768 → Fin 768 → ℝ) (k : ℕ) (h : Fin 768) : ℝ := F ⟨k % 32768, Nat.mod_lt _ (by norm_num)⟩ h
/-- The logit of row `k` against `V`. -/
def logN (F : Fin 32768 → Fin 768 → ℝ) (V : Fin 768 → ℝ) (k : ℕ) : ℝ := ∑ h, rowN F k h * V h

theorem rowN_val (F : Fin 32768 → Fin 768 → ℝ) (n : Fin 32768) (h : Fin 768) : rowN F n.val h = F n h := by
  have hn : (⟨n.val % 32768, Nat.mod_lt _ (by norm_num)⟩ : Fin 32768) = n := Fin.ext (Nat.mod_eq_of_lt n.isLt)
  show F ⟨n.val % 32768, _⟩ h = F n h
  rw [hn]

theorem logN_val (F : Fin 32768 → Fin 768 → ℝ) (V : Fin 768 → ℝ) (n : Fin 32768) :
    logN F V n.val = ∑ h, F n h * V h := by
  unfold logN
  simp only [rowN_val]

section Step

variable (x : Fin 2048 → Fin 768 → EReal) (v : Fin 768 → EReal) (X : Fin 2048 → Fin 768 → ℝ) (V : Fin 768 → ℝ)
  (hx : ∀ r h, x r h = (X r h : EReal)) (hv : ∀ h, v h = (V h : EReal))

include hx hv

theorem eBlk_coe (r : Fin 2048) : eBlk x v r = ((∑ h, X r h * V h : ℝ) : EReal) := by
  simp only [eBlk, hx, hv, ← EReal.coe_mul, ← coe_sum]

theorem foldMax_eBlk_real : ∃ M : ℝ, foldMax (eBlk x v) = (M : EReal) := by
  obtain ⟨M, hM⟩ := foldMax_coe (R := 2048) (by norm_num) fun r => ∑ h, X r h * V h
  exact ⟨M, by rw [← hM]; exact congrArg foldMax (funext (eBlk_coe x v X V hx hv))⟩

/-- The first block, from the state `(-∞, 0, 0)`. -/
theorem step_first :
    ∃ M : ℝ, (step x v st0).m = (M : EReal)
      ∧ (step x v st0).l = ((∑ r, Real.exp ((∑ h, X r h * V h) - M) : ℝ) : EReal)
      ∧ ∀ h, (step x v st0).a h = ((∑ r, Real.exp ((∑ h', X r h' * V h') - M) * X r h : ℝ) : EReal) := by
  have he := eBlk_coe x v X V hx hv
  obtain ⟨M, hfm⟩ := foldMax_eBlk_real x v X V hx hv
  have hm : mNew x v ⊥ = (M : EReal) := by
    rw [mNew, hfm]
    exact max_bot_left _
  have hal : alpha x v ⊥ = 0 := by rw [alpha, EReal.bot_sub, Ideal.exp_bot]
  have hp : ∀ r, pBlk x v ⊥ r = ((Real.exp ((∑ h, X r h * V h) - M) : ℝ) : EReal) := by
    intro r
    rw [pBlk, hm, he, exp_coe_sub]
  refine ⟨M, hm, ?_, ?_⟩
  · show lNew x v ⊥ 0 = _
    rw [lNew, hal, zero_mul, zero_add]
    simp only [hp, ← coe_sum]
  · intro h
    show aNew x v ⊥ (fun _ => 0) h = _
    rw [aNew, hal, zero_mul, zero_add]
    simp only [hp, hx, ← EReal.coe_mul, ← coe_sum]

/-- A later block, from a state of reals. -/
theorem step_next (s : St) (M L : ℝ) (A : Fin 768 → ℝ) (hm : s.m = (M : EReal)) (hl : s.l = (L : EReal))
    (ha : ∀ h, s.a h = (A h : EReal)) :
    ∃ M' : ℝ, (step x v s).m = (M' : EReal)
      ∧ (step x v s).l = ((Real.exp (M - M') * L + ∑ r, Real.exp ((∑ h, X r h * V h) - M') : ℝ) : EReal)
      ∧ ∀ h, (step x v s).a h
          = ((Real.exp (M - M') * A h + ∑ r, Real.exp ((∑ h', X r h' * V h') - M') * X r h : ℝ) : EReal) := by
  have he := eBlk_coe x v X V hx hv
  obtain ⟨Mb, hfm⟩ := foldMax_eBlk_real x v X V hx hv
  have hmax : ∃ M' : ℝ, mNew x v s.m = (M' : EReal) := by
    rw [mNew, hfm, hm]
    rcases le_total (M : EReal) (Mb : EReal) with h | h
    · exact ⟨Mb, max_eq_right h⟩
    · exact ⟨M, max_eq_left h⟩
  obtain ⟨M', hM'⟩ := hmax
  have hal : alpha x v s.m = ((Real.exp (M - M') : ℝ) : EReal) := by
    rw [alpha, hM', hm, exp_coe_sub]
  have hp : ∀ r, pBlk x v s.m r = ((Real.exp ((∑ h, X r h * V h) - M') : ℝ) : EReal) := by
    intro r
    rw [pBlk, hM', he, exp_coe_sub]
  refine ⟨M', hM', ?_, ?_⟩
  · show lNew x v s.m s.l = _
    rw [lNew, hal, hl]
    simp only [hp, ← coe_sum, ← EReal.coe_mul, ← EReal.coe_add]
  · intro h
    show aNew x v s.m s.a h = _
    rw [aNew, hal, ha]
    simp only [hp, hx, ← EReal.coe_mul, ← coe_sum, ← EReal.coe_add]

end Step

/-- The state holds the maximum-shifted sums over the first `N` rows. -/
def Inv (F : Fin 32768 → Fin 768 → ℝ) (V : Fin 768 → ℝ) (s : St) (N : ℕ) : Prop :=
  ∃ M : ℝ, s.m = (M : EReal)
    ∧ s.l = ((∑ k ∈ Finset.range N, Real.exp (logN F V k - M) : ℝ) : EReal)
    ∧ ∀ h, s.a h = ((∑ k ∈ Finset.range N, Real.exp (logN F V k - M) * rowN F k h : ℝ) : EReal)

theorem inv_stK (F : Fin 32768 → Fin 768 → ℝ) (V : Fin 768 → ℝ) (n : ℕ) :
    Inv F V (stK (blkRows 2048 fun n h => (F n h : EReal)) (fun h => (V h : EReal)) n) ((n + 1) * 2048) := by
  induction n with
  | zero =>
    obtain ⟨M, h1, h2, h3⟩ := step_first (blkRows 2048 (fun n h => (F n h : EReal)) 0) (fun h => (V h : EReal))
      (fun r h => rowN F (0 * 2048 + r.val) h) V (fun _ _ => rfl) (fun _ => rfl)
    have hN : (0 + 1) * 2048 = 2048 := by norm_num
    refine ⟨M, h1, h2.trans (coe_congr ?_), fun h => (h3 h).trans (coe_congr ?_)⟩
    · rw [hN, Finset.sum_range]
      refine Finset.sum_congr rfl fun r _ => ?_
      simp only [logN, zero_mul, zero_add]
    · rw [hN, Finset.sum_range]
      refine Finset.sum_congr rfl fun r _ => ?_
      simp only [logN, zero_mul, zero_add]
  | succ n ih =>
    obtain ⟨M, hm, hl, ha⟩ := ih
    obtain ⟨M', h1, h2, h3⟩ := step_next (blkRows 2048 (fun n h => (F n h : EReal)) (n + 1)) (fun h => (V h : EReal))
      (fun r h => rowN F ((n + 1) * 2048 + r.val) h) V (fun _ _ => rfl) (fun _ => rfl) _ M _ _ hm hl ha
    have hN : (n + 1 + 1) * 2048 = (n + 1) * 2048 + 2048 := by ring
    refine ⟨M', h1, h2.trans (coe_congr ?_), fun h => (h3 h).trans (coe_congr ?_)⟩
    · rw [hN]
      exact real_step_one (logN F V) ((n + 1) * 2048) 2048 M M'
    · rw [hN]
      exact real_step (logN F V) (fun k => rowN F k h) ((n + 1) * 2048) 2048 M M'

/-- After all 16 blocks the quotient `a / l` is the softmax-weighted sum of the rows, in the textbook form. -/
theorem recurrence_closed (F : Fin 32768 → Fin 768 → ℝ) (V : Fin 768 → ℝ) (h : Fin 768) :
    outK (blkRows 2048 fun n h => (F n h : EReal)) (fun h => (V h : EReal)) h
      = ∑ n, (F n h : EReal)
          * Ideal.div
              (Ideal.exp ((∑ h', (F n h' : EReal) * (V h' : EReal))
                - foldMax fun n' => ∑ h', (F n' h' : EReal) * (V h' : EReal)))
              (∑ n'', Ideal.exp ((∑ h', (F n'' h' : EReal) * (V h' : EReal))
                - foldMax fun n' => ∑ h', (F n' h' : EReal) * (V h' : EReal))) := by
  obtain ⟨M, hm, hl, ha⟩ := inv_stK F V 15
  have hN : (15 + 1) * 2048 = 32768 := by norm_num
  rw [hN] at hl ha
  have he : ∀ n : Fin 32768, (∑ h', (F n h' : EReal) * (V h' : EReal)) = ((∑ h', F n h' * V h' : ℝ) : EReal) := by
    intro n
    simp only [← EReal.coe_mul, ← coe_sum]
  obtain ⟨M₂, hM₂⟩ := foldMax_coe (R := 32768) (by norm_num) fun n => ∑ h', F n h' * V h'
  haveI : Nonempty (Fin 32768) := ⟨⟨0, by norm_num⟩⟩
  have hL₂ : 0 < ∑ n : Fin 32768, Real.exp ((∑ h', F n h' * V h') - M₂) :=
    Finset.sum_pos (fun n _ => Real.exp_pos _) Finset.univ_nonempty
  have hL : 0 < ∑ k ∈ Finset.range 32768, Real.exp (logN F V k - M) :=
    Finset.sum_pos (fun n _ => Real.exp_pos _) ⟨0, Finset.mem_range.2 (by norm_num)⟩
  rw [outK, ha, hl, div_coe_coe _ hL.ne']
  simp only [he, hM₂, exp_coe_sub, ← coe_sum, div_coe_coe _ hL₂.ne', ← EReal.coe_mul]
  refine coe_congr ?_
  rw [Finset.sum_range, Finset.sum_range]
  simp only [rowN_val, logN_val]
  exact softmax_shift (fun n => ∑ h', F n h' * V h') (fun n => F n h) M M₂

end Cert.Pool

end
-- ==== Proof.PoolMath.lean ====
/-
  The blockwise computation equals the whole one.

  The pooled row of the elements: the column maximum taken block by block is the column maximum, and the products
  commute. The pooled row of `fact`: the pooled row of the elements and its product with the weight matrix are real, so
  the second logits may be computed with the weight matrix on either side; with those logits the running-maximum
  recurrence over 16 blocks of 2048 rows ends at the softmax-weighted sum of the rows.
-/
import proofs.«117598_j62775241999269_2_alg».proof.Proof.PoolMathD

noncomputable section

namespace Cert.Pool

open Idealize.ShloMosaic

theorem kernelOut_eq_refOut (fact : Fin 32768 → Fin 768 → EReal) (el : Fin 4096 → Fin 768 → EReal)
    (w : Fin 768 → Fin 768 → EReal) (hf : AllReal fact) (he : AllReal el) (hw : AllReal w) :
    kernelOut fact el w = refOut fact el w := by
  have hep := refEp_real fact el w hf he hw
  have hv := vK_real w (refEp fact el w) hw hep
  have hl : e2fR fact w (refEp fact el w) = fun n => ∑ h', fact n h' * vK w (refEp fact el w) h' :=
    funext fun n => logits_assoc fact w _ hf hw hep n
  obtain ⟨V, hV⟩ : ∃ V : Fin 768 → ℝ, vK w (refEp fact el w) = fun h => (V h : EReal) := by
    choose V hV using hv
    exact ⟨V, funext hV⟩
  obtain ⟨F, hF⟩ : ∃ F : Fin 32768 → Fin 768 → ℝ, fact = fun n h => (F n h : EReal) := by
    choose F hF using hf
    exact ⟨F, funext fun n => funext fun h => hF n h⟩
  funext h
  unfold kernelOut refOut
  rw [kernelEp_eq_refEp]
  unfold outR sm2R
  rw [hl, hV]
  subst hF
  exact recurrence_closed F V h

theorem kernel_eq_ref (fact : Fin 32768 → Fin 768 → EReal) (el : Fin 4096 → Fin 768 → EReal)
    (w : Fin 768 → Fin 768 → EReal) (hf : AllReal fact) (he : AllReal el) (hw : AllReal w) :
    kernelEp fact el w = refEp fact el w ∧ kernelOut fact el w = refOut fact el w :=
  ⟨kernelEp_eq_refEp fact el w, kernelOut_eq_refOut fact el w hf he hw⟩

end Cert.Pool

end
-- ==== Proof.RefValueA.lean ====
/-
  Maximum reductions of a matrix on the host, at the ideal values, read at an index.

  * The 32-bit word 0xFF800000 is -∞, and the maximum of -∞ and x is x.
  * For an [a, b] matrix reduced along its FIRST axis into a vector of length b, the host's maximum reduction reads, at c,
    the fold of max over k < a of the entries (k, c), started from the initial value.
  * For an [a, b] matrix reduced along its SECOND axis into a vector of length a, it reads, at r, the fold of max over
    k < b of the entries (r, k), started from the initial value.
-/
import Idealize.ShloMosaic.PureOps.Ideal.Laws
import Idealize.ShloMosaic.PureOps.Reduce
import Idealize.ShloMosaic.Lib.ValueIdx
import proofs.«117598_j62775241999269_2_alg».proof.Proof.LibRowMin

noncomputable section

namespace Cert.ReferenceIdeal.RefValue

open Idealize.ShloMosaic Idealize.ShloMosaic.ValueIdx

/-- The word 0xFF800000 is -∞. -/
theorem ofBits_ninf : Ideal.ofBits .f32 0xFF800000#32 = (⊥ : EReal) := by simp [Ideal.ofBits, Ideal.ieee]

/-- The host's maximum down a column: at `c`, the fold of `max` over the column's entries from the initial value. -/
theorem hostColMax_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩) (hu : 0 < u.numel) (c : Fin b) :
    Host.reduce FloatOps.maximumf x init h' hu (ix1 c)
      = (Finset.univ : Finset (Fin a)).fold max (init (Shape.Idx.first hu)) (fun k => x (ix2 k c)) := by
  refine (Host.reduce_eq_fold_single FloatOps.maximumf x init h' h hu (ix1 c)).trans ?_
  exact congrArg (Finset.fold max (init (Shape.Idx.first hu)) · (Finset.univ : Finset (Fin a)))
    (funext fun k => congrArg x (Cert.LibRowMin.lift_col h c k))

/-- The host's maximum along a row: at `r`, the fold of `max` over the row's entries from the initial value. -/
theorem hostRowMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel) (r : Fin a) :
    Host.reduce FloatOps.maximumf x init h' hu (ix1 r)
      = (Finset.univ : Finset (Fin b)).fold max (init (Shape.Idx.first hu)) (fun k => x (ix2 r k)) := by
  refine (Host.reduce_eq_fold_single FloatOps.maximumf x init h' h hu (ix1 r)).trans ?_
  exact congrArg (Finset.fold max (init (Shape.Idx.first hu)) · (Finset.univ : Finset (Fin b)))
    (funext fun k => congrArg x (Cert.LibRowMin.lift_row h r k))

end Cert.ReferenceIdeal.RefValue

end
-- ==== Proof.RefValueB.lean ====
/-
  The reference's first result, read index by index at the ideal values: the pooled row of the elements.

  Stage by stage, in the order the reference computes them: the column maximum `q h = max_n fact n h` (a maximum
  reduction from -∞ down the columns); the projection `Σ_h q h · w h j`; the logits `Σ_j t j · el i j` (a product with
  the transposed elements); their maximum over `i` (a maximum reduction from -∞ along the one row, then a maximum with
  -∞, which changes nothing); the exponentials of the differences; their sum (from 0, which adds nothing); the quotient;
  and the sum over `i` of `el i h` times the quotient. Transposes and broadcasts only move indices.
-/
import proofs.«117598_j62775241999269_2_alg».proof.Proof.Gen.ReferenceIdeal.Read
import proofs.«117598_j62775241999269_2_alg».proof.Proof.Spec
import proofs.«117598_j62775241999269_2_alg».proof.Proof.Cur
import proofs.«117598_j62775241999269_2_alg».proof.Proof.RefValueA

noncomputable section

namespace Cert.ReferenceIdeal.RefValue

open Cert.ReferenceIdeal Cert.ReferenceIdeal.Gen Cert.ReferenceIdeal.Read Idealize.ShloMosaic Idealize.ShloMosaic.ValueIdx Cert.Pool

variable (x0 : (⟨S32768x768, .f32⟩ : BufTy).Contents (Elt Ideal)) (x1 : (⟨S4096x768, .f32⟩ : BufTy).Contents (Elt Ideal))
  (x2 : (⟨S768x768, .f32⟩ : BufTy).Contents (Elt Ideal))

/-! ## Where each layout operation reads -/

theorem idx1 (a : Fin 1) (j : Fin 768) : idx_main_v1 (ix2 a j) = ix1 j :=
  funext fun d => Fin.ext (by match d with | ⟨0, _⟩ => rfl)
theorem lidx2 (a : Fin 1) (j k : Fin 768) : lidx_main_v2 (ix2 a j) k = ix2 a k :=
  funext fun d => Fin.ext (by match d with | ⟨0, _⟩ => rfl | ⟨1, _⟩ => rfl)
theorem ridx2 (a : Fin 1) (j k : Fin 768) : ridx_main_v2 (ix2 a j) k = ix2 k j :=
  funext fun d => Fin.ext (by match d with | ⟨0, _⟩ => rfl | ⟨1, _⟩ => rfl)
theorem idx3 (k : Fin 768) (i : Fin 4096) : idx_main_v3 (ix2 k i) = ix2 i k :=
  funext fun d => Fin.ext (by match d with | ⟨0, _⟩ => rfl | ⟨1, _⟩ => rfl)
theorem lidx4 (a : Fin 1) (i : Fin 4096) (k : Fin 768) : lidx_main_v4 (ix2 a i) k = ix2 a k :=
  funext fun d => Fin.ext (by match d with | ⟨0, _⟩ => rfl | ⟨1, _⟩ => rfl)
theorem ridx4 (a : Fin 1) (i : Fin 4096) (k : Fin 768) : ridx_main_v4 (ix2 a i) k = ix2 k i :=
  funext fun d => Fin.ext (by match d with | ⟨0, _⟩ => rfl | ⟨1, _⟩ => rfl)
theorem idx8 (a b : Fin 1) : idx_main_v8 (ix2 a b) = ix1 (0 : Fin 1) :=
  funext fun d => Fin.ext (by match d with | ⟨0, _⟩ => rfl)
theorem idx9 (a : Fin 1) (i : Fin 4096) : idx_main_v9 (ix2 a i) = ix2 (0 : Fin 1) (0 : Fin 1) :=
  funext fun d => Fin.ext (by match d with | ⟨0, _⟩ => rfl | ⟨1, _⟩ => rfl)
theorem idx12 (a : Fin 1) (k : Fin 4096) : idx_main_v12 (ix1 a) k = ix2 a k :=
  funext fun d => Fin.ext (by match d with | ⟨0, _⟩ => rfl | ⟨1, _⟩ => rfl)
theorem idx13 (a b : Fin 1) : idx_main_v13 (ix2 a b) = ix1 (0 : Fin 1) :=
  funext fun d => Fin.ext (by match d with | ⟨0, _⟩ => rfl)
theorem idx14 (a : Fin 1) (i : Fin 4096) : idx_main_v14 (ix2 a i) = ix2 (0 : Fin 1) (0 : Fin 1) :=
  funext fun d => Fin.ext (by match d with | ⟨0, _⟩ => rfl | ⟨1, _⟩ => rfl)
theorem idx16 (i : Fin 4096) (a : Fin 1) : idx_main_v16 (ix2 i a) = ix2 a i :=
  funext fun d => Fin.ext (by match d with | ⟨0, _⟩ => rfl | ⟨1, _⟩ => rfl)
theorem idx17 (i : Fin 4096) (h : Fin 768) : idx_main_v17 (ix2 i h) = ix2 i (0 : Fin 1) :=
  funext fun d => Fin.ext (by match d with | ⟨0, _⟩ => rfl | ⟨1, _⟩ => rfl)
theorem idx19 (h : Fin 768) (k : Fin 4096) : idx_main_v19 (ix1 h) k = ix2 k h :=
  funext fun d => Fin.ext (by match d with | ⟨0, _⟩ => rfl | ⟨1, _⟩ => rfl)
theorem idx20 (a : Fin 1) (h : Fin 768) : idx_main_v20 (ix2 a h) = ix1 h :=
  funext fun d => Fin.ext (by match d with | ⟨0, _⟩ => rfl)

/-! ## The stages -/

/-- The column maximum. -/
theorem v0_at (h : Fin 768) : val_main_v0 (F := Ideal) x0 (ix1 h) = qR (cur2 x0) h := by
  unfold val_main_v0
  refine (hostColMax_apply x0 (val_main_cst (F := Ideal)) reducesTo_S32768x768_S768_d0 (by decide) h_S_ h).trans ?_
  show Finset.fold max (Ideal.ofBits .f32 0xFF800000#32) (fun k : Fin 32768 => x0 (ix2 k h)) Finset.univ
    = Finset.fold max (⊥ : EReal) (fun n : Fin 32768 => x0 (ix2 n h)) Finset.univ
  rw [ofBits_ninf]

theorem v1_at (a : Fin 1) (j : Fin 768) : val_main_v1 (F := Ideal) x0 (ix2 a j) = qR (cur2 x0) j := by
  rw [val_main_v1_apply, idx1, v0_at]

/-- The projection of the column maximum. -/
theorem v2_at (a : Fin 1) (j : Fin 768) :
    val_main_v2 (F := Ideal) x0 x2 (ix2 a j) = tproj (qR (cur2 x0)) (cur2 x2) j := by
  rw [val_main_v2_apply]
  refine Finset.sum_congr rfl fun k _ => ?_
  rw [lidx2, ridx2, v1_at]
  rfl

/-- The logits. -/
theorem v4_at (a : Fin 1) (i : Fin 4096) :
    val_main_v4 (F := Ideal) x0 x1 x2 (ix2 a i) = logitE (qR (cur2 x0)) (cur2 x2) (cur2 x1) i := by
  rw [val_main_v4_apply]
  refine Finset.sum_congr rfl fun k _ => ?_
  rw [lidx4, ridx4, v2_at, val_main_v3_apply, idx3]
  rfl

/-- The maximum of the logits. -/
theorem v5_at (a : Fin 1) :
    val_main_v5 (F := Ideal) x0 x1 x2 (ix1 a) = foldMax (logitE (qR (cur2 x0)) (cur2 x2) (cur2 x1)) := by
  unfold val_main_v5
  refine (hostRowMax_apply (val_main_v4 (F := Ideal) x0 x1 x2) (val_main_cst_0 (F := Ideal)) reducesTo_S1x4096_S1_d1 (by decide) h_S_ a).trans ?_
  show Finset.fold max (Ideal.ofBits .f32 0xFF800000#32) (fun k : Fin 4096 => val_main_v4 (F := Ideal) x0 x1 x2 (ix2 a k)) Finset.univ
    = Finset.fold max (⊥ : EReal) (logitE (qR (cur2 x0)) (cur2 x2) (cur2 x1)) Finset.univ
  rw [ofBits_ninf, show (fun k : Fin 4096 => val_main_v4 (F := Ideal) x0 x1 x2 (ix2 a k)) = logitE (qR (cur2 x0)) (cur2 x2) (cur2 x1)
    from funext fun k => v4_at x0 x1 x2 a k]

theorem v7_at (a : Fin 1) :
    val_main_v7 (F := Ideal) x0 x1 x2 (ix1 a) = foldMax (logitE (qR (cur2 x0)) (cur2 x2) (cur2 x1)) := by
  rw [val_main_v7_apply, val_main_v6_apply, val_main_cst_1_apply, v5_at]
  show max (Ideal.ofBits .f32 0xFF800000#32) _ = _
  rw [ofBits_ninf]
  exact max_bot_left _

theorem v9_at (a : Fin 1) (i : Fin 4096) :
    val_main_v9 (F := Ideal) x0 x1 x2 (ix2 a i) = foldMax (logitE (qR (cur2 x0)) (cur2 x2) (cur2 x1)) := by
  rw [val_main_v9_apply, idx9, val_main_v8_apply, idx8, v7_at]

/-- The exponentials. -/
theorem v11_at (a : Fin 1) (i : Fin 4096) :
    val_main_v11 (F := Ideal) x0 x1 x2 (ix2 a i) = exE (qR (cur2 x0)) (cur2 x2) (cur2 x1) i := by
  rw [val_main_v11_apply, val_main_v10_apply, v4_at, v9_at, Ideal.hostUnary_exp_def, Ideal.subf_def]
  unfold exE
  rfl

/-- Their sum. -/
theorem v12_at (a : Fin 1) :
    val_main_v12 (F := Ideal) x0 x1 x2 (ix1 a) = ∑ i' : Fin 4096, exE (qR (cur2 x0)) (cur2 x2) (cur2 x1) i' := by
  rw [val_main_v12_apply, val_main_cst_2_apply]
  show Ideal.ofBits .f32 0x00000000#32 + _ = _
  rw [Ideal.ofBits_zero_f32, zero_add]
  refine Finset.sum_congr rfl fun k _ => ?_
  rw [idx12, v11_at]

theorem v14_at (a : Fin 1) (i : Fin 4096) :
    val_main_v14 (F := Ideal) x0 x1 x2 (ix2 a i) = ∑ i' : Fin 4096, exE (qR (cur2 x0)) (cur2 x2) (cur2 x1) i' := by
  rw [val_main_v14_apply, idx14, val_main_v13_apply, idx13, v12_at]

/-- The softmax weights. -/
theorem v15_at (a : Fin 1) (i : Fin 4096) :
    val_main_v15 (F := Ideal) x0 x1 x2 (ix2 a i) = smE (qR (cur2 x0)) (cur2 x2) (cur2 x1) i := by
  rw [val_main_v15_apply, v11_at, v14_at]
  rfl

theorem v17_at (i : Fin 4096) (h : Fin 768) :
    val_main_v17 (F := Ideal) x0 x1 x2 (ix2 i h) = smE (qR (cur2 x0)) (cur2 x2) (cur2 x1) i := by
  rw [val_main_v17_apply, idx17, val_main_v16_apply, idx16, v15_at]

theorem v18_at (i : Fin 4096) (h : Fin 768) :
    val_main_v18 (F := Ideal) x0 x1 x2 (ix2 i h) = cur2 x1 i h * smE (qR (cur2 x0)) (cur2 x2) (cur2 x1) i := by
  rw [val_main_v18_apply, v17_at]
  rfl

/-- The pooled row of the elements. -/
theorem v19_at (h : Fin 768) :
    val_main_v19 (F := Ideal) x0 x1 x2 (ix1 h) = epR (qR (cur2 x0)) (cur2 x2) (cur2 x1) h := by
  rw [val_main_v19_apply, val_main_cst_3_apply]
  show Ideal.ofBits .f32 0x00000000#32 + _ = _
  rw [Ideal.ofBits_zero_f32, zero_add]
  refine Finset.sum_congr rfl fun k _ => ?_
  rw [idx19, v18_at]

theorem v20_at (a : Fin 1) (h : Fin 768) :
    val_main_v20 (F := Ideal) x0 x1 x2 (ix2 a h) = refEp (cur2 x0) (cur2 x1) (cur2 x2) h := by
  rw [val_main_v20_apply, idx20, v19_at]
  rfl

/-- The reference's second result (the pooled row of the elements) is the whole form, index by index. -/
theorem ep_eq :
    val_main_v20 (F := Ideal) x0 x1 x2 = fun i => refEp (cur2 x0) (cur2 x1) (cur2 x2) (i 1) := by
  funext i
  obtain ⟨a, h, rfl⟩ : ∃ (a : Fin 1) (h : Fin 768), i = ix2 a h := ⟨i 0, i 1, eq_ix2 i⟩
  exact v20_at x0 x1 x2 a h

end Cert.ReferenceIdeal.RefValue

end
-- ==== Proof.RefValueC.lean ====
/-
  The reference's second pooled row, read index by index at the ideal values: the pooled row of `fact`.

  With `ep` the pooled row of the elements: the product `Σ_h fact n h · w h j`; the logits `Σ_j (Σ_h fact n h · w h j) · ep j`
  (a product with the transposed row); their maximum over `n` (a maximum reduction from -∞ down the one column, then a
  maximum with -∞, which changes nothing); the exponentials of the differences; their sum (from 0, which adds nothing);
  the quotient; and the sum over `n` of `fact n h` times the quotient. Transposes and broadcasts only move indices.
-/
import proofs.«117598_j62775241999269_2_alg».proof.Proof.RefValueB

noncomputable section

namespace Cert.ReferenceIdeal.RefValue

open Cert.ReferenceIdeal Cert.ReferenceIdeal.Gen Cert.ReferenceIdeal.Read Idealize.ShloMosaic Idealize.ShloMosaic.ValueIdx Cert.Pool

variable (x0 : (⟨S32768x768, .f32⟩ : BufTy).Contents (Elt Ideal)) (x1 : (⟨S4096x768, .f32⟩ : BufTy).Contents (Elt Ideal))
  (x2 : (⟨S768x768, .f32⟩ : BufTy).Contents (Elt Ideal))

/-! ## Where each layout operation reads -/

theorem lidx21 (n : Fin 32768) (j k : Fin 768) : lidx_main_v21 (ix2 n j) k = ix2 n k :=
  funext fun d => Fin.ext (by match d with | ⟨0, _⟩ => rfl | ⟨1, _⟩ => rfl)
theorem ridx21 (n : Fin 32768) (j k : Fin 768) : ridx_main_v21 (ix2 n j) k = ix2 k j :=
  funext fun d => Fin.ext (by match d with | ⟨0, _⟩ => rfl | ⟨1, _⟩ => rfl)
theorem idx22 (j : Fin 768) (a : Fin 1) : idx_main_v22 (ix2 j a) = ix2 a j :=
  funext fun d => Fin.ext (by match d with | ⟨0, _⟩ => rfl | ⟨1, _⟩ => rfl)
theorem lidx23 (n : Fin 32768) (a : Fin 1) (k : Fin 768) : lidx_main_v23 (ix2 n a) k = ix2 n k :=
  funext fun d => Fin.ext (by match d with | ⟨0, _⟩ => rfl | ⟨1, _⟩ => rfl)
theorem ridx23 (n : Fin 32768) (a : Fin 1) (k : Fin 768) : ridx_main_v23 (ix2 n a) k = ix2 k a :=
  funext fun d => Fin.ext (by match d with | ⟨0, _⟩ => rfl | ⟨1, _⟩ => rfl)
theorem idx27 (a b : Fin 1) : idx_main_v27 (ix2 a b) = ix1 (0 : Fin 1) :=
  funext fun d => Fin.ext (by match d with | ⟨0, _⟩ => rfl)
theorem idx28 (n : Fin 32768) (a : Fin 1) : idx_main_v28 (ix2 n a) = ix2 (0 : Fin 1) (0 : Fin 1) :=
  funext fun d => Fin.ext (by match d with | ⟨0, _⟩ => rfl | ⟨1, _⟩ => rfl)
theorem idx31 (a : Fin 1) (k : Fin 32768) : idx_main_v31 (ix1 a) k = ix2 k a :=
  funext fun d => Fin.ext (by match d with | ⟨0, _⟩ => rfl | ⟨1, _⟩ => rfl)
theorem idx32 (a b : Fin 1) : idx_main_v32 (ix2 a b) = ix1 (0 : Fin 1) :=
  funext fun d => Fin.ext (by match d with | ⟨0, _⟩ => rfl)
theorem idx33 (n : Fin 32768) (a : Fin 1) : idx_main_v33 (ix2 n a) = ix2 (0 : Fin 1) (0 : Fin 1) :=
  funext fun d => Fin.ext (by match d with | ⟨0, _⟩ => rfl | ⟨1, _⟩ => rfl)
theorem idx35 (n : Fin 32768) (h : Fin 768) : idx_main_v35 (ix2 n h) = ix2 n (0 : Fin 1) :=
  funext fun d => Fin.ext (by match d with | ⟨0, _⟩ => rfl | ⟨1, _⟩ => rfl)
theorem idx37 (h : Fin 768) (k : Fin 32768) : idx_main_v37 (ix1 h) k = ix2 k h :=
  funext fun d => Fin.ext (by match d with | ⟨0, _⟩ => rfl | ⟨1, _⟩ => rfl)
theorem idx38 (a : Fin 1) (h : Fin 768) : idx_main_v38 (ix2 a h) = ix1 h :=
  funext fun d => Fin.ext (by match d with | ⟨0, _⟩ => rfl)

/-! ## The stages -/

/-- The product of `fact` with the weights. -/
theorem v21_at (n : Fin 32768) (j : Fin 768) :
    val_main_v21 (F := Ideal) x0 x2 (ix2 n j) = ∑ h : Fin 768, cur2 x0 n h * cur2 x2 h j := by
  rw [val_main_v21_apply]
  refine Finset.sum_congr rfl fun k _ => ?_
  rw [lidx21, ridx21]
  rfl

theorem v22_at (j : Fin 768) (a : Fin 1) :
    val_main_v22 (F := Ideal) x0 x1 x2 (ix2 j a) = refEp (cur2 x0) (cur2 x1) (cur2 x2) j := by
  rw [val_main_v22_apply, idx22, v20_at]

/-- The second logits. -/
theorem v23_at (n : Fin 32768) (a : Fin 1) :
    val_main_v23 (F := Ideal) x0 x1 x2 (ix2 n a) = e2fR (cur2 x0) (cur2 x2) (refEp (cur2 x0) (cur2 x1) (cur2 x2)) n := by
  rw [val_main_v23_apply]
  unfold e2fR
  refine Finset.sum_congr rfl fun k _ => ?_
  rw [lidx23, ridx23, v21_at, v22_at]

/-- Their maximum. -/
theorem v24_at (a : Fin 1) :
    val_main_v24 (F := Ideal) x0 x1 x2 (ix1 a) = foldMax (e2fR (cur2 x0) (cur2 x2) (refEp (cur2 x0) (cur2 x1) (cur2 x2))) := by
  unfold val_main_v24
  refine (hostColMax_apply (val_main_v23 (F := Ideal) x0 x1 x2) (val_main_cst_4 (F := Ideal)) reducesTo_S32768x1_S1_d0 (by decide) h_S_ a).trans ?_
  show Finset.fold max (Ideal.ofBits .f32 0xFF800000#32) (fun k : Fin 32768 => val_main_v23 (F := Ideal) x0 x1 x2 (ix2 k a)) Finset.univ
    = Finset.fold max (⊥ : EReal) (e2fR (cur2 x0) (cur2 x2) (refEp (cur2 x0) (cur2 x1) (cur2 x2))) Finset.univ
  rw [ofBits_ninf, show (fun k : Fin 32768 => val_main_v23 (F := Ideal) x0 x1 x2 (ix2 k a))
      = e2fR (cur2 x0) (cur2 x2) (refEp (cur2 x0) (cur2 x1) (cur2 x2)) from funext fun k => v23_at x0 x1 x2 k a]

theorem v26_at (a : Fin 1) :
    val_main_v26 (F := Ideal) x0 x1 x2 (ix1 a) = foldMax (e2fR (cur2 x0) (cur2 x2) (refEp (cur2 x0) (cur2 x1) (cur2 x2))) := by
  rw [val_main_v26_apply, val_main_v25_apply, val_main_cst_5_apply, v24_at]
  show max (Ideal.ofBits .f32 0xFF800000#32) _ = _
  rw [ofBits_ninf]
  exact max_bot_left _

theorem v28_at (n : Fin 32768) (a : Fin 1) :
    val_main_v28 (F := Ideal) x0 x1 x2 (ix2 n a) = foldMax (e2fR (cur2 x0) (cur2 x2) (refEp (cur2 x0) (cur2 x1) (cur2 x2))) := by
  rw [val_main_v28_apply, idx28, val_main_v27_apply, idx27, v26_at]

/-- The exponentials. -/
theorem v30_at (n : Fin 32768) (a : Fin 1) :
    val_main_v30 (F := Ideal) x0 x1 x2 (ix2 n a)
      = Ideal.exp (e2fR (cur2 x0) (cur2 x2) (refEp (cur2 x0) (cur2 x1) (cur2 x2)) n
          - foldMax (e2fR (cur2 x0) (cur2 x2) (refEp (cur2 x0) (cur2 x1) (cur2 x2)))) := by
  rw [val_main_v30_apply, val_main_v29_apply, v23_at, v28_at, Ideal.hostUnary_exp_def, Ideal.subf_def]

/-- Their sum. -/
theorem v31_at (a : Fin 1) :
    val_main_v31 (F := Ideal) x0 x1 x2 (ix1 a)
      = ∑ n' : Fin 32768, Ideal.exp (e2fR (cur2 x0) (cur2 x2) (refEp (cur2 x0) (cur2 x1) (cur2 x2)) n'
          - foldMax (e2fR (cur2 x0) (cur2 x2) (refEp (cur2 x0) (cur2 x1) (cur2 x2)))) := by
  rw [val_main_v31_apply, val_main_cst_6_apply]
  show Ideal.ofBits .f32 0x00000000#32 + _ = _
  rw [Ideal.ofBits_zero_f32, zero_add]
  refine Finset.sum_congr rfl fun k _ => ?_
  rw [idx31, v30_at]

theorem v33_at (n : Fin 32768) (a : Fin 1) :
    val_main_v33 (F := Ideal) x0 x1 x2 (ix2 n a)
      = ∑ n' : Fin 32768, Ideal.exp (e2fR (cur2 x0) (cur2 x2) (refEp (cur2 x0) (cur2 x1) (cur2 x2)) n'
          - foldMax (e2fR (cur2 x0) (cur2 x2) (refEp (cur2 x0) (cur2 x1) (cur2 x2)))) := by
  rw [val_main_v33_apply, idx33, val_main_v32_apply, idx32, v31_at]

/-- The softmax weights. -/
theorem v34_at (n : Fin 32768) (a : Fin 1) :
    val_main_v34 (F := Ideal) x0 x1 x2 (ix2 n a) = sm2R (cur2 x0) (cur2 x2) (refEp (cur2 x0) (cur2 x1) (cur2 x2)) n := by
  rw [val_main_v34_apply, v30_at, v33_at, Ideal.hostDivf_def]
  unfold sm2R
  rfl

theorem v36_at (n : Fin 32768) (h : Fin 768) :
    val_main_v36 (F := Ideal) x0 x1 x2 (ix2 n h)
      = cur2 x0 n h * sm2R (cur2 x0) (cur2 x2) (refEp (cur2 x0) (cur2 x1) (cur2 x2)) n := by
  rw [val_main_v36_apply, val_main_v35_apply, idx35, v34_at, Ideal.mulf_def]
  rfl

/-- The pooled row of `fact`. -/
theorem v37_at (h : Fin 768) :
    val_main_v37 (F := Ideal) x0 x1 x2 (ix1 h) = outR (cur2 x0) (cur2 x2) (refEp (cur2 x0) (cur2 x1) (cur2 x2)) h := by
  rw [val_main_v37_apply, val_main_cst_7_apply]
  show Ideal.ofBits .f32 0x00000000#32 + _ = _
  rw [Ideal.ofBits_zero_f32, zero_add]
  unfold outR
  refine Finset.sum_congr rfl fun k _ => ?_
  rw [idx37, v36_at]

theorem v38_at (a : Fin 1) (h : Fin 768) :
    val_main_v38 (F := Ideal) x0 x1 x2 (ix2 a h) = refOut (cur2 x0) (cur2 x1) (cur2 x2) h := by
  rw [val_main_v38_apply, idx38, v37_at]
  rfl

/-- The reference's first result (the pooled row of `fact`) is the whole form, index by index. -/
theorem out_eq :
    val_main_v38 (F := Ideal) x0 x1 x2 = fun i => refOut (cur2 x0) (cur2 x1) (cur2 x2) (i 1) := by
  funext i
  obtain ⟨a, h, rfl⟩ : ∃ (a : Fin 1) (h : Fin 768), i = ix2 a h := ⟨i 0, i 1, eq_ix2 i⟩
  exact v38_at x0 x1 x2 a h

end Cert.ReferenceIdeal.RefValue

end
-- ==== Proof.LibRealEntries.lean ====
/-
  When an entry of an array of extended reals is a real number — each fact stated once, over the library alone.

    * `sum_real`: a finite sum of reals is a real.
    * `ofBits_inf`: the 32-bit word 0x7F800000 is +∞.
    * `ofBool_eq_one`: the one-bit word made from a truth value is 1 only when the value is true.
    * `real_of_abs_lt_top`: an extended real x with max x (-x) < +∞ is a real.
    * `real_of_cmp`: the same, from the comparison bit "max x (-x) < the word of +∞" being 1 — the form in which a test
      "every entry is finite" states it.
-/
import Idealize.ShloMosaic.PureOps.Ideal

noncomputable section

namespace Cert.LibRealEntries

open Idealize.ShloMosaic

/-- A finite sum of reals is a real: the sum of the reals, by induction on the index set. -/
theorem sum_real {ι : Type} (s : Finset ι) (f : ι → EReal) (hf : ∀ k, ∃ r : ℝ, f k = (r : EReal)) :
    ∃ r : ℝ, ∑ k ∈ s, f k = (r : EReal) := by
  classical
  refine Finset.induction_on s ⟨0, by simp⟩ ?_
  intro k t hk ih
  obtain ⟨r, hr⟩ := ih
  obtain ⟨q, hq⟩ := hf k
  exact ⟨q + r, by rw [Finset.sum_insert hk, hr, hq, EReal.coe_add]⟩

/-- The word 0x7F800000 is +∞. -/
theorem ofBits_inf : Ideal.ofBits .f32 0x7F800000#32 = ⊤ := by simp [Ideal.ofBits, Ideal.ieee]

/-- A one-bit word made from a truth value is 1 only when the value is true. -/
theorem ofBool_eq_one (b : Bool) (h : BitVec.ofBool b = 1#1) : b = true := by
  cases b
  · exact absurd h (by decide)
  · rfl

/-- An extended real whose absolute value max x (-x) is below +∞ is a real: at -∞ and at +∞ that maximum is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The same, from the comparison bit |x| < (the word of +∞) being 1. -/
theorem real_of_cmp (x : EReal)
    (hx : Ideal.cmp .olt (max x (-x)) (Ideal.ofBits .f32 0x7F800000#32) = 1#1) : ∃ r : ℝ, x = (r : EReal) := by
  have hlt : max x (-x) < Ideal.ofBits .f32 0x7F800000#32 := of_decide_eq_true (ofBool_eq_one _ hx)
  rw [ofBits_inf] at hlt
  exact real_of_abs_lt_top x hlt

end Cert.LibRealEntries

end
-- ==== Proof.Finite.lean ====
/-
  From the finiteness test to real entries.

  The test computes, for each of the three arrays, the conjunction over all entries of "|x| < +∞" (an `and`-reduction
  over both axes from the constant 1 of the comparison bits of max x (-x) against the word of +∞), and the conjunction
  of the three. If the result is 1 then each of the three conjunctions is 1, so every comparison bit is 1, so every
  entry is an extended real whose absolute value is below +∞: a real number.
-/
import proofs.«117598_j62775241999269_2_alg».proof.Pre_finite_inputs
import proofs.«117598_j62775241999269_2_alg».proof.Proof.Spec
import proofs.«117598_j62775241999269_2_alg».proof.Proof.Cur
import proofs.«117598_j62775241999269_2_alg».proof.Proof.LibRealEntries
import Idealize.ShloMosaic.Lib.ReduceAll
import Idealize.ShloMosaic.Lib.ValueIdx

noncomputable section

namespace Cert.Pre_finite_inputs.Entries

open Cert.Pre_finite_inputs Idealize.ShloMosaic Idealize.ShloMosaic.ValueIdx Cert.Pool

/-- The shape with no axes has one index. -/
instance : Subsingleton S_.Idx := ⟨fun _ _ => funext fun d => d.elim0⟩

/-- One array: if the conjunction over all its entries of "|x| < +∞" is 1, every entry is a real. -/
theorem real_of_all {A B : ℕ} (x : FVec Ideal ⟨2, ![A, B]⟩ .f32)
    (bc : S_.BroadcastsInDim (⟨2, ![A, B]⟩ : Shape) (![] : Fin 0 → Fin (⟨2, ![A, B]⟩ : Shape).rank))
    (hr : (⟨2, ![A, B]⟩ : Shape).ReducesTo [0, 1] S_) (hu : 0 < S_.numel) (init : IVec S_ 1) (j : S_.Idx)
    (e : Host.reduce IntOp.andi
        (cmpf .olt (Host.absf x) (broadcastInDim (⟨2, ![A, B]⟩ : Shape) ![] bc (constant (F := Ideal) S_ .f32 0x7F800000#32)))
        init hr hu j = 1#1) :
    AllReal (cur2 x) := by
  intro a b
  have hx := Host.reduce_andi_all _ init hr hu j e (ix2 a b)
  have hc : Ideal.cmp .olt (max (x (ix2 a b)) (-(x (ix2 a b)))) (Ideal.ofBits .f32 0x7F800000#32) = 1#1 := hx
  exact Cert.LibRealEntries.real_of_cmp _ hc

/-- If the test's result is 1, every entry of each of the three arrays is a real. -/
theorem allReal [Facts] (a0 : FVec Ideal S32768x768 .f32) (a1 : FVec Ideal S4096x768 .f32) (a2 : FVec Ideal S768x768 .f32)
    (h : fn (F := Ideal) a0 a1 a2 = (fun _ => 1#1)) :
    AllReal (cur2 a0) ∧ AllReal (cur2 a1) ∧ AllReal (cur2 a2) := by
  have h0 := congrFun h ix0
  dsimp only [fn] at h0
  obtain ⟨h01, h2⟩ := IntOp.andi_eq_one.1 h0
  obtain ⟨h0', h1⟩ := IntOp.andi_eq_one.1 h01
  exact ⟨real_of_all a0 _ _ _ _ _ h0', real_of_all a1 _ _ _ _ _ h1, real_of_all a2 _ _ _ _ _ h2⟩

end Cert.Pre_finite_inputs.Entries

end
-- ==== Proof.lean ====
/-
  The certificate's five claims.

  Frames. The kernel program is three regions in a row; each region's run is the library's pipeline rule over the proof
  data of its kernel (the first keeps a running column maximum in its output buffer, the second is one grid point, the
  third carries a running maximum, a running sum of weights and a running weighted sum of rows in its scratch buffers),
  and the three chain on the thread state "every unscoped buffer at the boundary's contents". The same text proves the
  word-level program's frame and the idealized one's. The reference's frame is its run with the results dropped.

  The idealization rewrote nothing, so there is nothing to preserve.

  Values, over the extended reals. The kernel computes the column maxima block by block, the pooled row of the elements
  by a softmax over their logits, the second logits as fact · (weights · pooled rowᵀ), and the pooled row of fact by the
  running-maximum recurrence; the reference computes the same quantities whole, with the second logits as
  (fact · weights) · pooled rowᵀ. On finite inputs every quantity in sight is a real number, the two associations of the
  second logits agree, and the recurrence's result is the softmax-weighted sum: the two programs end with equal results.
-/
import proofs.«117598_j62775241999269_2_alg».proof.Defs
import proofs.«117598_j62775241999269_2_alg».proof.Proof.FrRunBits
import proofs.«117598_j62775241999269_2_alg».proof.Proof.FrRunIdeal
import proofs.«117598_j62775241999269_2_alg».proof.Proof.KOut
import proofs.«117598_j62775241999269_2_alg».proof.Proof.PoolMath
import proofs.«117598_j62775241999269_2_alg».proof.Proof.RefValueB
import proofs.«117598_j62775241999269_2_alg».proof.Proof.RefValueC
import proofs.«117598_j62775241999269_2_alg».proof.Proof.Finite
import proofs.«117598_j62775241999269_2_alg».proof.Proof.Gen.Kernel
import proofs.«117598_j62775241999269_2_alg».proof.Proof.Gen.KernelIdeal
import proofs.«117598_j62775241999269_2_alg».proof.Proof.Gen.ReferenceIdeal
import proofs.«117598_j62775241999269_2_alg».proof.Proof.Gen.Pre_finite_inputs
import proofs.«117598_j62775241999269_2_alg».proof.Proof.Gen.ReferenceIdeal.Run
import proofs.«117598_j62775241999269_2_alg».proof.Proof.Gen.ReferenceIdeal.Read

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2.2) (Cert.ReferenceIdeal.Value.run (F := Ideal) m ρ)
theorem preserves : Cert.preserves_Kernel_KernelIdeal := trivial

/-- Both programs end at the whole forms of the pooled rows of the (finite) argument arrays. -/
theorem algebraic : Cert.algebraic_KernelIdeal_ReferenceIdeal := by
  intro m ρ m' ρ' hpre hagree
  refine ⟨fun c => (fun i => Cert.Pool.refOut (Cert.Pool.cur2 (Cert.KernelIdeal.KOut.a0 m c)) (Cert.Pool.cur2 (Cert.KernelIdeal.KOut.a1 m c)) (Cert.Pool.cur2 (Cert.KernelIdeal.KOut.a2 m c)) (i 1)),
    fun c => (fun i => Cert.Pool.refEp (Cert.Pool.cur2 (Cert.KernelIdeal.KOut.a0 m c)) (Cert.Pool.cur2 (Cert.KernelIdeal.KOut.a1 m c)) (Cert.Pool.cur2 (Cert.KernelIdeal.KOut.a2 m c)) (i 1)), ?_, ?_⟩
  · refine (θ_run Cert.KernelIdeal.defs _ _).mono (fun _ h c => ?_) (Cert.KernelIdeal.KOut.run m ρ)
    obtain ⟨hf, he, hw⟩ := Cert.Pre_finite_inputs.Entries.allReal _ _ _ (hpre c)
    obtain ⟨hep, hout⟩ := Cert.Pool.kernel_eq_ref _ _ _ hf he hw
    refine ⟨(h c).1.trans ?_, (h c).2.1.trans ?_, (h c).2.2⟩
    · exact funext fun i => congrFun hout (i 1)
    · exact funext fun i => congrFun hep (i 1)
  · refine (θ_run Cert.ReferenceIdeal.defs _ _).mono (fun _ h c => ⟨?_, ?_, (h c).2.2⟩)
      (Cert.ReferenceIdeal.Value.run (F := Ideal) m' ρ')
    · refine (h c).1.trans ((Cert.ReferenceIdeal.Read.val_main_v38_eq m' c).trans ((Cert.ReferenceIdeal.RefValue.out_eq _ _ _).trans ?_))
      rw [(hagree c).1, (hagree c).2.1, (hagree c).2.2]
      rfl
    · refine (h c).2.1.trans ((Cert.ReferenceIdeal.Read.val_main_v20_eq _ _ _).trans ((Cert.ReferenceIdeal.RefValue.ep_eq _ _ _).trans ?_))
      rw [(hagree c).1, (hagree c).2.1, (hagree c).2.2]
      rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
